-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S1600000x1 : Shape := ⟨2, ![1600000, 1]⟩
abbrev S1x128 : Shape := ⟨2, ![1, 128]⟩
abbrev S128 : Shape := ⟨1, ![128]⟩
abbrev S128x128 : Shape := ⟨2, ![128, 128]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S128 .f32) (main_arg13 : FVec F S128 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg8 : FVec F S128 .f32) (main_arg9 : FVec F S128x128 .f32) (main_arg10 : FVec F S128 .f32) (main_arg11 : FVec F S1 .f32) (main_arg12 : FVec F S128 .f32) (main_arg13 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg12 main_arg13 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S1 .f32) (main_arg12 : FVec F S128 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x1600000 32) (main_arg2 : FVec F S1600000x1 .f32) (main_arg3 : FVec F S1x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S1 .f32) (main_arg12 : FVec F S128 .f32) (main_arg13 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000x1 .f32 := Host.absf main_arg2
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x1600000 : Shape := ⟨2, ![2, 1600000]⟩
abbrev S1600000x1 : Shape := ⟨2, ![1600000, 1]⟩
abbrev S1x128 : Shape := ⟨2, ![1, 128]⟩
abbrev S128 : Shape := ⟨1, ![128]⟩
abbrev S128x128 : Shape := ⟨2, ![128, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x128 : Shape := ⟨2, ![1600000, 128]⟩
abbrev S50000 : Shape := ⟨1, ![50000]⟩
abbrev S50000x1 : Shape := ⟨2, ![50000, 1]⟩
abbrev S50000x2 : Shape := ⟨2, ![50000, 2]⟩
abbrev S1x1 : Shape := ⟨2, ![1, 1]⟩
abbrev S25x8x128 : Shape := ⟨3, ![25, 8, 128]⟩
abbrev S2000x128 : Shape := ⟨2, ![2000, 128]⟩
abbrev S2000x2 : Shape := ⟨2, ![2000, 2]⟩
abbrev S1x8x128 : Shape := ⟨3, ![1, 8, 128]⟩
abbrev S2000x1 : Shape := ⟨2, ![2000, 1]⟩
abbrev S8x128 : Shape := ⟨2, ![8, 128]⟩
abbrev S25x1x128 : Shape := ⟨3, ![25, 1, 128]⟩
abbrev S25x128 : Shape := ⟨2, ![25, 128]⟩
abbrev S5000x128 : Shape := ⟨2, ![5000, 128]⟩

abbrev nBuf : Space → Nat
  | .hbm => 79
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000x1, .f32⟩
  | .hbm, ⟨3, _⟩ => ⟨S1x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1, .f32⟩
  | .hbm, ⟨12, _⟩ => ⟨S128, .f32⟩
  | .hbm, ⟨13, _⟩ => ⟨S128, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S50000x128, .f32⟩
  | .hbm, ⟨29, _⟩ => ⟨S1600000x1, .i32⟩
  | .hbm, ⟨30, _⟩ => ⟨S50000x128, .f32⟩
  | .hbm, ⟨31, _⟩ => ⟨S1600000, .f32⟩
  | .hbm, ⟨32, _⟩ => ⟨S_, .f32⟩
  | .hbm, ⟨33, _⟩ => ⟨S50000, .f32⟩
  | .hbm, ⟨34, _⟩ => ⟨S1600000x1, .i32⟩
  | .hbm, ⟨35, _⟩ => ⟨S50000, .f32⟩
  | .hbm, ⟨36, _⟩ => ⟨S_, .i32⟩
  | .hbm, ⟨37, _⟩ => ⟨S1600000, .i32⟩
  | .hbm, ⟨38, _⟩ => ⟨S_, .i32⟩
  | .hbm, ⟨39, _⟩ => ⟨S50000, .i32⟩
  | .hbm, ⟨40, _⟩ => ⟨S1600000x1, .i32⟩
  | .hbm, ⟨41, _⟩ => ⟨S50000, .i32⟩
  | .hbm, ⟨42, _⟩ => ⟨S50000, .f32⟩
  | .hbm, ⟨43, _⟩ => ⟨S50000x1, .f32⟩
  | .hbm, ⟨44, _⟩ => ⟨S50000x1, .f32⟩
  | .hbm, ⟨45, _⟩ => ⟨S50000x2, .f32⟩
  | .hbm, ⟨46, _⟩ => ⟨S1x1, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S50000x128, .f32⟩
  | .hbm, ⟨52, _⟩ => ⟨S25x8x128, .f32⟩
  | .hbm, ⟨53, _⟩ => ⟨S25x1x128, .f32⟩
  | .hbm, ⟨54, _⟩ => ⟨S25x128, .f32⟩
  | .hbm, ⟨55, _⟩ => ⟨S_, .f32⟩
  | .hbm, ⟨56, _⟩ => ⟨S128, .f32⟩
  | .hbm, ⟨57, _⟩ => ⟨S25x1x128, .f32⟩
  | .hbm, ⟨58, _⟩ => ⟨S25x128, .f32⟩
  | .hbm, ⟨59, _⟩ => ⟨S_, .f32⟩
  | .hbm, ⟨60, _⟩ => ⟨S128, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S128, .f32⟩
  | .hbm, ⟨68, _⟩ => ⟨S128, .f32⟩
  | .hbm, ⟨69, _⟩ => ⟨S_, .f32⟩
  | .hbm, ⟨70, _⟩ => ⟨S128, .f32⟩
  | .hbm, ⟨71, _⟩ => ⟨S128, .f32⟩
  | .hbm, ⟨72, _⟩ => ⟨S128, .f32⟩
  | .hbm, ⟨73, _⟩ => ⟨S128, .f32⟩
  | .hbm, ⟨74, _⟩ => ⟨S128, .f32⟩
  | .hbm, ⟨75, _⟩ => ⟨S128, .f32⟩
  | .hbm, ⟨76, _⟩ => ⟨S1x128, .f32⟩
  | .hbm, ⟨77, _⟩ => ⟨S1x128, .f32⟩
  | .hbm, ⟨78, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x2, .f32⟩
  | .local _ .vmem, ⟨5, _⟩ => ⟨S2000x2, .f32⟩
  | .local _ .vmem, ⟨6, _⟩ => ⟨S1x1, .f32⟩
  | .local _ .vmem, ⟨7, _⟩ => ⟨S1x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S128x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S2000x128, .f32⟩
  | .local _ .vmem, ⟨16, _⟩ => ⟨S2000x128, .f32⟩
  | .local _ .vmem, ⟨17, _⟩ => ⟨S1x8x128, .f32⟩
  | .local _ .vmem, ⟨18, _⟩ => ⟨S1x8x128, .f32⟩
  | .local _ .vmem, ⟨19, _⟩ => ⟨S5000x128, .f32⟩
  | .local _ .vmem, ⟨20, _⟩ => ⟨S5000x128, .f32⟩
  | .local _ .vmem, ⟨21, _⟩ => ⟨S1x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_2 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31_0 : Ref sig .tc := ⟨.hbm, 51, rfl⟩
abbrev main_v31_1 : Ref sig .tc := ⟨.hbm, 52, rfl⟩
abbrev main_v32 : Ref sig .tc := ⟨.hbm, 53, rfl⟩
abbrev main_v33 : Ref sig .tc := ⟨.hbm, 54, rfl⟩
abbrev main_cst_4 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_5 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_8 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg3_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc1_sem0_0 : DmaSem sig := 19
abbrev cc1_sem0_1 : DmaSem sig := 20
abbrev cc1_sem1_0 : DmaSem sig := 21
abbrev cc1_sem2_0 : DmaSem sig := 22
abbrev cc1_sem3_0 : DmaSem sig := 23
abbrev cc1_sem3_1 : DmaSem sig := 24

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  shapeCasts_S1600000x1_S1600000 : S1600000x1.ShapeCasts S1600000
  bcast_S_S50000 : S_.BroadcastsInDim S50000 (![] : Fin 0 → Fin S50000.rank)
  bcast_S50000_S50000x1_0 : S50000.BroadcastsInDim S50000x1 (![0] : Fin 1 → Fin S50000x1.rank)
  concatenates_S50000x1_S50000x1_S50000x2_d1 : Shape.Concatenates [S50000x1, S50000x1] S50000x2 1
  shapeCasts_S1_S1x1 : S1.ShapeCasts S1x1
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x2_S2000x2_0_0 : ∀ a, (![0, 0] : Fin 2 → Nat) a + S2000x2.size a ≤ S2000x2.size a
  h_S2000x2 : 0 < S2000x2.numel
  shapeCasts_S2000x2_S2000x2 : S2000x2.ShapeCasts S2000x2
  slices_S2000x2_o0_0_S2000x1 : S2000x2.Slices ![0, 0] S2000x1
  slices_S2000x2_o0_1_S2000x1 : S2000x2.Slices ![0, 1] S2000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S2000x1_S2000x128 : S2000x1.Broadcasts S2000x128
  broadcasts_S1x128_S2000x128 : S1x128.Broadcasts S2000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x128 : S1x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  iota_S8x128_d0_w32 : S8x128.Iotas .tc 32 [0]
  natLt_1_32 : 1 < 32
  reduces_S2000x128_S128 : S2000x128.Reduces [0] S128
  broadcasts_S1x128_S8x128 : S1x128.Broadcasts S8x128
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  slices_S25x8x128_S25x1x128_0_0_0 : S25x8x128.Slices ![0, 0, 0] S25x1x128
  shapeCasts_S25x1x128_S25x128 : S25x1x128.ShapeCasts S25x128
  reducesTo_S25x128_S128_d0 : S25x128.ReducesTo [0] S128
  h_S_ : 0 < S_.numel
  slices_S25x8x128_S25x1x128_0_1_0 : S25x8x128.Slices ![0, 1, 0] S25x1x128
  bcast_S_S128 : S_.BroadcastsInDim S128 (![] : Fin 0 → Fin S128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x2.size a ≤ S50000x2.size a
  hwx0_2 : ∀ i : grid0.Coords, EltTy.bits .f32 = 32 ∨ (Rect.block (s := S50000x2) S2000x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x128.size a ≤ S50000x128.size a
  hwx0_12 : ∀ i : grid0.Coords, EltTy.bits .f32 = 32 ∨ (Rect.block (s := S50000x128) S2000x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x8x128.size a ≤ S25x8x128.size a
  hwx0_13 : ∀ i : grid0.Coords, EltTy.bits .f32 = 32 ∨ (Rect.block (s := S25x8x128) S1x8x128.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S2000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v29) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v30) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v31_0) S2000x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v31_1) S1x8x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v31_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S1600000x1 : Shape := ⟨2, ![1600000, 1]⟩
abbrev S1x128 : Shape := ⟨2, ![1, 128]⟩
abbrev S128 : Shape := ⟨1, ![128]⟩
abbrev S128x128 : Shape := ⟨2, ![128, 128]⟩
abbrev S1 : Shape := ⟨1, ![1]⟩
abbrev S1x1600000 : Shape := ⟨2, ![1, 1600000]⟩
abbrev S1600000 : Shape := ⟨1, ![1600000]⟩
abbrev S1600000x128 : Shape := ⟨2, ![1600000, 128]⟩
abbrev S_ : Shape := ⟨0, ![]⟩
abbrev S50000 : Shape := ⟨1, ![50000]⟩
abbrev S50000x1 : Shape := ⟨2, ![50000, 1]⟩

abbrev nBuf : Space → Nat
  | .hbm => 117
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000x1, .f32⟩
  | .hbm, ⟨3, _⟩ => ⟨S1x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1, .f32⟩
  | .hbm, ⟨12, _⟩ => ⟨S128, .f32⟩
  | .hbm, ⟨13, _⟩ => ⟨S128, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S1600000x128, .f32⟩
  | .hbm, ⟨19, _⟩ => ⟨S1x128, .f32⟩
  | .hbm, ⟨20, _⟩ => ⟨S1600000x128, .f32⟩
  | .hbm, ⟨21, _⟩ => ⟨S1600000x128, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S1600000x128, .f32⟩
  | .hbm, ⟨32, _⟩ => ⟨S_, .f32⟩
  | .hbm, ⟨33, _⟩ => ⟨S50000x128, .f32⟩
  | .hbm, ⟨34, _⟩ => ⟨S1600000x1, .i32⟩
  | .hbm, ⟨35, _⟩ => ⟨S50000x128, .f32⟩
  | .hbm, ⟨36, _⟩ => ⟨S_, .f32⟩
  | .hbm, ⟨37, _⟩ => ⟨S1600000, .f32⟩
  | .hbm, ⟨38, _⟩ => ⟨S_, .f32⟩
  | .hbm, ⟨39, _⟩ => ⟨S50000, .f32⟩
  | .hbm, ⟨40, _⟩ => ⟨S1600000x1, .i32⟩
  | .hbm, ⟨41, _⟩ => ⟨S50000, .f32⟩
  | .hbm, ⟨42, _⟩ => ⟨S_, .f32⟩
  | .hbm, ⟨43, _⟩ => ⟨S50000, .f32⟩
  | .hbm, ⟨44, _⟩ => ⟨S50000, .f32⟩
  | .hbm, ⟨45, _⟩ => ⟨S50000x1, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S1x128, .f32⟩
  | .hbm, ⟨56, _⟩ => ⟨S50000x128, .f32⟩
  | .hbm, ⟨57, _⟩ => ⟨S50000x128, .f32⟩
  | .hbm, ⟨58, _⟩ => ⟨S_, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S128, .f32⟩
  | .hbm, ⟨72, _⟩ => ⟨S_, .f32⟩
  | .hbm, ⟨73, _⟩ => ⟨S128, .f32⟩
  | .hbm, ⟨74, _⟩ => ⟨S128, .f32⟩
  | .hbm, ⟨75, _⟩ => ⟨S_, .i32⟩
  | .hbm, ⟨76, _⟩ => ⟨S_, .f32⟩
  | .hbm, ⟨77, _⟩ => ⟨S128, .f32⟩
  | .hbm, ⟨78, _⟩ => ⟨S1x128, .f32⟩
  | .hbm, ⟨79, _⟩ => ⟨S_, .f32⟩
  | .hbm, ⟨80, _⟩ => ⟨S1x128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S128, .f32⟩
  | .hbm, ⟨90, _⟩ => ⟨S128, .f32⟩
  | .hbm, ⟨91, _⟩ => ⟨S128, .f32⟩
  | .hbm, ⟨92, _⟩ => ⟨S_, .f32⟩
  | .hbm, ⟨93, _⟩ => ⟨S_, .i1⟩
  | .hbm, ⟨94, _⟩ => ⟨S_, .f32⟩
  | .hbm, ⟨95, _⟩ => ⟨S_, .f32⟩
  | .hbm, ⟨96, _⟩ => ⟨S128, .f32⟩
  | .hbm, ⟨97, _⟩ => ⟨S128, .f32⟩
  | .hbm, ⟨98, _⟩ => ⟨S1x128, .f32⟩
  | .hbm, ⟨99, _⟩ => ⟨S50000x128, .f32⟩
  | .hbm, ⟨100, _⟩ => ⟨S50000x128, .f32⟩
  | .hbm, ⟨101, _⟩ => ⟨S_, .f32⟩
  | .hbm, ⟨102, _⟩ => ⟨S128, .f32⟩
  | .hbm, ⟨103, _⟩ => ⟨S128, .f32⟩
  | .hbm, ⟨104, _⟩ => ⟨S128, .f32⟩
  | .hbm, ⟨105, _⟩ => ⟨S1x128, .f32⟩
  | .hbm, ⟨106, _⟩ => ⟨S50000x128, .f32⟩
  | .hbm, ⟨107, _⟩ => ⟨S50000x128, .f32⟩
  | .hbm, ⟨108, _⟩ => ⟨S1x128, .f32⟩
  | .hbm, ⟨109, _⟩ => ⟨S50000x128, .f32⟩
  | .hbm, ⟨110, _⟩ => ⟨S50000x128, .f32⟩
  | .hbm, ⟨111, _⟩ => ⟨S1x128, .f32⟩
  | .hbm, ⟨112, _⟩ => ⟨S50000x128, .f32⟩
  | .hbm, ⟨113, _⟩ => ⟨S50000x128, .f32⟩
  | .hbm, ⟨114, _⟩ => ⟨S_, .f32⟩
  | .hbm, ⟨115, _⟩ => ⟨S50000x128, .f32⟩
  | .hbm, ⟨116, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call0_cst : Ref sig .tc := ⟨.hbm, 58, rfl⟩
abbrev main_call0_v0 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_5 : Ref sig .tc := ⟨.hbm, 70, rfl⟩
abbrev main_v47 : Ref sig .tc := ⟨.hbm, 71, rfl⟩
abbrev main_cst_6 : Ref sig .tc := ⟨.hbm, 72, rfl⟩
abbrev main_v48 : Ref sig .tc := ⟨.hbm, 73, rfl⟩
abbrev main_v49 : Ref sig .tc := ⟨.hbm, 74, rfl⟩
abbrev main_c_7 : Ref sig .tc := ⟨.hbm, 75, rfl⟩
abbrev main_call1_cst : Ref sig .tc := ⟨.hbm, 76, rfl⟩
abbrev main_call1_v0 : Ref sig .tc := ⟨.hbm, 77, rfl⟩
abbrev main_call1_v1 : Ref sig .tc := ⟨.hbm, 78, rfl⟩
abbrev main_call1_cst_0 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_v6 : Ref sig .tc := ⟨.hbm, 84, rfl⟩
abbrev main_call1_v7 : Ref sig .tc := ⟨.hbm, 85, rfl⟩
abbrev main_call1_cst_1 : Ref sig .tc := ⟨.hbm, 86, rfl⟩
abbrev main_call1_v8 : Ref sig .tc := ⟨.hbm, 87, rfl⟩
abbrev main_call1_cst_2 : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_call1_cst_3 : Ref sig .tc := ⟨.hbm, 92, rfl⟩
abbrev main_call1_v12 : Ref sig .tc := ⟨.hbm, 93, rfl⟩
abbrev main_call1_cst_4 : Ref sig .tc := ⟨.hbm, 94, rfl⟩
abbrev main_call1_call0_v0 : Ref sig .tc := ⟨.hbm, 95, rfl⟩
abbrev main_call1_call0_v1 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_cst_8 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_call2_cst : Ref sig .tc := ⟨.hbm, 114, rfl⟩
abbrev main_call2_v0 : Ref sig .tc := ⟨.hbm, 115, rfl⟩
abbrev main_v66 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S1_S_ : S1.ShapeCasts S_
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  dot_S1600000x1_S1x128_S1600000x128_1_0_0_1_n_n_wf : DotDims.WF S1600000x1 S1x128 S1600000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S50000x128_S128x128_S50000x128_1_0_0_1_n_n_wf : DotDims.WF S50000x128 S128x128 S50000x128 [1] [0] [0] [1] [] []

variable [Facts₀]

def dot_S1600000x1_S1x128_S1600000x128_1_0_0_1_n_n : DotDims S1600000x1 S1x128 S1600000x128 where
  lhsContracting := [1]
  rhsContracting := [0]
  lhsNonContracting := [0]
  rhsNonContracting := [1]
  lhsBatch := []
  rhsBatch := []
  wf := dot_S1600000x1_S1x128_S1600000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  What the two programs compute, entry by entry, on the extended reals.

  A graph layer over 50000 nodes with 128 channels and 1600000 edges. Every edge `e` carries a gathered source row
  `gx e`, a scalar attribute `ea e` and a destination word `dst e`; the edges whose destination word, read as a
  signed integer, is the row number `n` form the segment `seg dst n` (an edge whose word names no row lands nowhere).

  The reference sums over each segment the messages `gx e c + (ea e · ew c + eb c)`, divides by the segment's
  size (at least one), feeds `(1 + eps) · x + aggregate` through two affine maps with a rectifier between, adds an
  affine image of `x`, and normalises every channel by the mean and the centred second moment over the 50000 rows.

  The kernel sums over each segment the gathered rows and the attributes SEPARATELY and counts the segment, forms the
  same aggregate from the three by linearity, computes the same pre-normalisation table in blocks of 2000 rows
  together with each block's column sums and column sums of squares, adds the 25 blocks' sums, takes the variance as
  the mean square minus the squared mean, and normalises with a scale and a shift folded from them.

  Float literals are kept as the words the programs print (`Ideal.ofBits`); nothing here evaluates one.
-/
import Idealize.ShloMosaic.PureOps.Ideal

noncomputable section

open scoped BigOperators
open Idealize.ShloMosaic

namespace Cert.Spec

/-- The literal words of both programs, read as extended reals: 1.0, 0.0, 50000.0, the normalisation's
    `1e-5`, and the quiet-NaN word of the variance's unused branch. -/
abbrev one : EReal := Ideal.ofBits .f32 0x3F800000#32
abbrev zero : EReal := Ideal.ofBits .f32 0x00000000#32
abbrev count : EReal := Ideal.ofBits .f32 0x47435000#32
abbrev bnEps : EReal := Ideal.ofBits .f32 0x3727C5AC#32
abbrev nanWord : EReal := Ideal.ofBits .f32 0x7FC00000#32
/-- The variance's "delta degrees of freedom", the integer word `0` converted to a float. -/
abbrev ddof : EReal := (((0#32 : BitVec 32).toInt : ℝ) : EReal)

/-- The arguments' entries by coordinates (`gx`: the gathered source rows; `dst`: each edge's destination word). -/
structure Args where
  x : Fin 50000 → Fin 128 → EReal
  gx : Fin 1600000 → Fin 128 → EReal
  dst : Fin 1600000 → BitVec 32
  ea : Fin 1600000 → EReal
  ew : Fin 128 → EReal
  eb : Fin 128 → EReal
  w1 : Fin 128 → Fin 128 → EReal
  b1 : Fin 128 → EReal
  w2 : Fin 128 → Fin 128 → EReal
  b2 : Fin 128 → EReal
  wr : Fin 128 → Fin 128 → EReal
  br : Fin 128 → EReal
  eps : EReal
  gamma : Fin 128 → EReal
  beta : Fin 128 → EReal

/-- The edges that land on row `n`: those whose destination word, read signed, is `n`. -/
def seg (dst : Fin 1600000 → BitVec 32) (n : Fin 50000) : Finset (Fin 1600000) :=
  Finset.univ.filter fun e => (dst e).toInt = (n.val : Int)

/-- An affine map of a table's rows: `h · w + b`. -/
def lin (h : Fin 50000 → Fin 128 → EReal) (w : Fin 128 → Fin 128 → EReal) (b : Fin 128 → EReal)
    (n : Fin 50000) (c : Fin 128) : EReal :=
  (∑ k : Fin 128, h n k * w k c) + b c

/-- The node update before normalisation, from the aggregated table `h`:
    `relu (h · w1 + b1) · w2 + b2 + (x · wr + br)`. -/
def outPre (A : Args) (h : Fin 50000 → Fin 128 → EReal) (n : Fin 50000) (c : Fin 128) : EReal :=
  lin (fun n c => max (lin h A.w1 A.b1 n c) zero) A.w2 A.b2 n c + lin A.x A.wr A.br n c

/-- `(1 + eps) · x + aggregate`. -/
def hOf (A : Args) (aggr : Fin 50000 → Fin 128 → EReal) (n : Fin 50000) (c : Fin 128) : EReal :=
  (one + A.eps) * A.x n c + aggr n c

/-! ## The reference -/

/-- One edge's message. -/
def msg (A : Args) (e : Fin 1600000) (c : Fin 128) : EReal := A.gx e c + (A.ea e * A.ew c + A.eb c)
/-- The messages summed over a row's segment. -/
def sumsR (A : Args) (n : Fin 50000) (c : Fin 128) : EReal := zero + ∑ e ∈ seg A.dst n, msg A e c
/-- The segment's size, as a sum of ones. -/
def cntR (A : Args) (n : Fin 50000) : EReal := zero + ∑ _e ∈ seg A.dst n, one
/-- The mean message. -/
def aggrR (A : Args) (n : Fin 50000) (c : Fin 128) : EReal := Ideal.div (sumsR A n c) (max (cntR A n) one)
/-- The reference's table before normalisation. -/
def preR (A : Args) : Fin 50000 → Fin 128 → EReal := outPre A (hOf A (aggrR A))

/-- A column's mean over the 50000 rows. -/
def meanR (O : Fin 50000 → Fin 128 → EReal) (c : Fin 128) : EReal := Ideal.div (zero + ∑ n : Fin 50000, O n c) count
/-- A column's centred second moment over the 50000 rows, as the reference's variance routine states it. -/
def varR (O : Fin 50000 → Fin 128 → EReal) (c : Fin 128) : EReal :=
  Scalar.select (Ideal.cmp .ogt (count - ddof) zero)
    (Ideal.div (zero + ∑ n : Fin 50000, (O n c - meanR O c) * (O n c - meanR O c)) (count - ddof)) nanWord
/-- The reference's result. -/
def refOut (A : Args) (n : Fin 50000) (c : Fin 128) : EReal :=
  max (((preR A n c - meanR (preR A) c) * Ideal.rsqrt (varR (preR A) c + bnEps)) * A.gamma c + A.beta c) zero

/-! ## The kernel -/

/-- The gathered rows summed over a row's segment. -/
def segx (A : Args) (n : Fin 50000) (c : Fin 128) : EReal := zero + ∑ e ∈ seg A.dst n, A.gx e c
/-- The attributes summed over a row's segment. -/
def sega (A : Args) (n : Fin 50000) : EReal := zero + ∑ e ∈ seg A.dst n, A.ea e
/-- The aggregate rebuilt from the three segment sums; `cnt` is the segment's size as the kernel holds it. -/
def aggrK (A : Args) (cnt : Fin 50000 → EReal) (n : Fin 50000) (c : Fin 128) : EReal :=
  Ideal.div ((segx A n c + sega A n * A.ew c) + cnt n * A.eb c) (max (cnt n) one)
/-- The kernel's table before normalisation. -/
def preK (A : Args) (cnt : Fin 50000 → EReal) : Fin 50000 → Fin 128 → EReal := outPre A (hOf A (aggrK A cnt))

/-- Row `j` of block `t` (blocks of 2000 rows). -/
def row (t : Fin 25) (j : Fin 2000) : Fin 50000 := ⟨2000 * t.val + j.val, by omega⟩
/-- The one-hot row selector of the statistics block: `1` on row `k`, `0` elsewhere. -/
def mask (k : Nat) (r : Fin 8) : EReal := if r.val = k then 1 else 0
/-- Block `t`'s statistics: row 0 its column sums, row 1 its column sums of squares, the other rows zero. -/
def stats (O : Fin 50000 → Fin 128 → EReal) (t : Fin 25) (r : Fin 8) (c : Fin 128) : EReal :=
  mask 0 r * (∑ j : Fin 2000, O (row t j) c) + mask 1 r * (∑ j : Fin 2000, O (row t j) c * O (row t j) c)
/-- The 25 blocks' column sums added up, then divided by the row count. -/
def meanK (O : Fin 50000 → Fin 128 → EReal) (c : Fin 128) : EReal :=
  Ideal.div (zero + ∑ t : Fin 25, stats O t 0 c) count
/-- The mean square minus the squared mean. -/
def varK (O : Fin 50000 → Fin 128 → EReal) (c : Fin 128) : EReal :=
  Ideal.div (zero + ∑ t : Fin 25, stats O t 1 c) count - meanK O c * meanK O c
/-- The folded scale and shift. -/
def scaleK (A : Args) (O : Fin 50000 → Fin 128 → EReal) (c : Fin 128) : EReal :=
  A.gamma c * Ideal.rsqrt (varK O c + bnEps)
def shiftK (A : Args) (O : Fin 50000 → Fin 128 → EReal) (c : Fin 128) : EReal :=
  A.beta c - meanK O c * scaleK A O c
/-- The kernel's result. -/
def kerOut (A : Args) (cnt : Fin 50000 → EReal) (n : Fin 50000) (c : Fin 128) : EReal :=
  max (preK A cnt n c * scaleK A (preK A cnt) c + shiftK A (preK A cnt) c) zero

end Cert.Spec

end
-- ==== Proof.LibSegment.lean ====
/-
  Segment sums. A scatter that adds its updates row by row into a table, the rows named by one signed word per
  update, leaves at row `n` the operand's entry plus the sum of the updates over the segment of `n`: the updates whose
  word, read signed, is `n` (a word that names no row drops its update). The same for a vector of scalars, and for the
  integer scatter that counts: adding the word `1` once per update leaves the segment's size.
-/
import Idealize.ShloMosaic.PureOps.Ideal
import Idealize.ShloMosaic.Lib.ValueIdx
import Mathlib.Data.BitVec
import proofs.«163893_j72421738545669_2_alg».proof.Proof.Spec

noncomputable section

open scoped BigOperators
open Idealize.ShloMosaic Idealize.ShloMosaic.ValueIdx

namespace Cert.LibSegment

abbrev S2 : Shape := ⟨2, ![50000, 128]⟩
abbrev S1 : Shape := ⟨1, ![50000]⟩
abbrev SI : Shape := ⟨2, ![1600000, 1]⟩
abbrev U2 : Shape := ⟨2, ![1600000, 128]⟩
abbrev U1 : Shape := ⟨1, ![1600000]⟩

/-- Two rank-2 indices with equal coordinates are equal. -/
theorem idx2_ext {n0 n1 : Nat} (f g : (⟨2, ![n0, n1]⟩ : Shape).Idx) (h0 : (f 0).val = (g 0).val) (h1 : (f 1).val = (g 1).val) : f = g := by
  funext a
  match a with
  | ⟨0, _⟩ => exact Fin.ext h0
  | ⟨1, _⟩ => exact Fin.ext h1

/-- Two rank-1 indices with equal coordinates are equal. -/
theorem idx1_ext {n0 : Nat} (f g : (⟨1, ![n0]⟩ : Shape).Idx) (h0 : (f 0).val = (g 0).val) : f = g := by
  funext a
  match a with
  | ⟨0, _⟩ => exact Fin.ext h0

/-! ## Where an update lands: the table -/

/-- The table scatter's dimension numbers: updates are rows, the row named by the one index word. -/
abbrev D2 (wf : ScatterDims.WF S2 SI U2 [1] [0] [0] 1) : ScatterDims S2 SI U2 := ScatterDims.mk [1] [0] [0] 1 wf

theorem start2_0 (wf) (idx : IVec SI 32) (j : U2.Idx) : (D2 wf).start j idx 0 = (idx (ix2 (j 0) 0)).toInt := by
  unfold ScatterDims.start
  rw [dif_pos (show (0 : Fin S2.rank) ∈ ([0] : List (Fin S2.rank)) by decide)]
  refine congrArg (fun k => (idx k).toInt) ?_
  funext b
  match b with
  | ⟨0, _⟩ => rfl
  | ⟨1, _⟩ => rfl
theorem start2_1 (wf) (idx : IVec SI 32) (j : U2.Idx) : (D2 wf).start j idx 1 = 0 := by
  unfold ScatterDims.start
  rw [dif_neg (show ¬ (1 : Fin S2.rank) ∈ ([0] : List (Fin S2.rank)) by decide)]
theorem window2_0 (wf) (j : U2.Idx) : (D2 wf).window j 0 = 0 := by
  unfold ScatterDims.window
  rw [dif_neg (show ¬ (0 : Fin S2.rank) ∈ S2.kept [0] by decide)]
theorem window2_1 (wf) (j : U2.Idx) : (D2 wf).window j 1 = (j 1).val := by
  unfold ScatterDims.window
  rw [dif_pos (show (1 : Fin S2.rank) ∈ S2.kept [0] by decide)]
  rfl

/-- Update `(e, c')` lands on entry `(n, c)` exactly when edge `e`'s word, read signed, is `n` and `c' = c`. -/
theorem resultIdx2_iff (wf) (idx : IVec SI 32) (j : U2.Idx) (i : S2.Idx) :
    (D2 wf).resultIdx? j idx = some i ↔ (idx (ix2 (j 0) 0)).toInt = ((i 0).val : Int) ∧ (j 1).val = (i 1).val := by
  have hi0 : (i 0).val < 50000 := (i 0).isLt
  have hi1 : (i 1).val < 128 := (i 1).isLt
  have hj1 : (j 1).val < 128 := (j 1).isLt
  unfold ScatterDims.resultIdx?
  split
  · rename_i h
    rw [Option.some.injEq]
    have h0 := h 0
    rw [start2_0, window2_0] at h0
    constructor
    · intro e
      have e0 : ((D2 wf).start j idx 0 + (D2 wf).window j 0).toNat = (i 0).val := congrArg (fun f => (f 0).val) e
      have e1 : ((D2 wf).start j idx 1 + (D2 wf).window j 1).toNat = (i 1).val := congrArg (fun f => (f 1).val) e
      rw [start2_0, window2_0] at e0
      rw [start2_1, window2_1] at e1
      constructor <;> omega
    · rintro ⟨a, b⟩
      refine idx2_ext _ _ ?_ ?_
      · show ((D2 wf).start j idx 0 + (D2 wf).window j 0).toNat = (i 0).val
        rw [start2_0, window2_0]; omega
      · show ((D2 wf).start j idx 1 + (D2 wf).window j 1).toNat = (i 1).val
        rw [start2_1, window2_1]; omega
  · rename_i h
    constructor
    · intro e; exact absurd e (by simp)
    · rintro ⟨a, b⟩
      exfalso; apply h
      refine Fin.forall_fin_two.2 ⟨?_, ?_⟩
      · rw [start2_0, window2_0]; show _ ∧ _ < 50000; omega
      · rw [start2_1, window2_1]; show _ ∧ _ < 128; omega

/-! ## Where an update lands: the vector -/

/-- The vector scatter's dimension numbers: updates are scalars, the entry named by the one index word. -/
abbrev D1 (wf : ScatterDims.WF S1 SI U1 [] [0] [0] 1) : ScatterDims S1 SI U1 := ScatterDims.mk [] [0] [0] 1 wf

theorem start1_0 (wf) (idx : IVec SI 32) (j : U1.Idx) : (D1 wf).start j idx 0 = (idx (ix2 (j 0) 0)).toInt := by
  unfold ScatterDims.start
  rw [dif_pos (show (0 : Fin S1.rank) ∈ ([0] : List (Fin S1.rank)) by decide)]
  refine congrArg (fun k => (idx k).toInt) ?_
  funext b
  match b with
  | ⟨0, _⟩ => rfl
  | ⟨1, _⟩ => rfl
theorem window1_0 (wf) (j : U1.Idx) : (D1 wf).window j 0 = 0 := by
  unfold ScatterDims.window
  rw [dif_neg (show ¬ (0 : Fin S1.rank) ∈ S1.kept [0] by decide)]

/-- Update `e` lands on entry `n` exactly when its word, read signed, is `n`. -/
theorem resultIdx1_iff (wf) (idx : IVec SI 32) (j : U1.Idx) (i : S1.Idx) :
    (D1 wf).resultIdx? j idx = some i ↔ (idx (ix2 (j 0) 0)).toInt = ((i 0).val : Int) := by
  have hi0 : (i 0).val < 50000 := (i 0).isLt
  unfold ScatterDims.resultIdx?
  split
  · rename_i h
    rw [Option.some.injEq]
    have h0 := h 0
    rw [start1_0, window1_0] at h0
    constructor
    · intro e
      have e0 : ((D1 wf).start j idx 0 + (D1 wf).window j 0).toNat = (i 0).val := congrArg (fun f => (f 0).val) e
      rw [start1_0, window1_0] at e0
      omega
    · intro a
      refine idx1_ext _ _ ?_
      show ((D1 wf).start j idx 0 + (D1 wf).window j 0).toNat = (i 0).val
      rw [start1_0, window1_0]; omega
  · rename_i h
    constructor
    · intro e; exact absurd e (by simp)
    · intro a
      exfalso; apply h
      intro k
      match k with
      | ⟨0, _⟩ =>
        show 0 ≤ (D1 wf).start j idx 0 + (D1 wf).window j 0 ∧ (D1 wf).start j idx 0 + (D1 wf).window j 0 < 50000
        rw [start1_0, window1_0]; omega

/-! ## The sums over the landing sets are sums over segments -/

theorem sum_landing2 {M : Type} [AddCommMonoid M] (wf) (idx : IVec SI 32) (upd : U2.Idx → M) (n : Fin 50000) (c : Fin 128) :
    ∑ j ∈ Finset.univ.filter (fun j => (D2 wf).resultIdx? j idx = some (ix2 n c)), upd j
      = ∑ e ∈ Cert.Spec.seg (fun e => idx (ix2 e 0)) n, upd (ix2 e c) := by
  refine Finset.sum_nbij' (fun j => j 0) (fun e => ix2 e c) ?_ ?_ ?_ ?_ ?_
  · intro j hj
    have := (resultIdx2_iff wf idx j (ix2 n c)).1 (Finset.mem_filter.1 hj).2
    exact Finset.mem_filter.2 ⟨Finset.mem_univ _, this.1⟩
  · intro e he
    have := (Finset.mem_filter.1 he).2
    exact Finset.mem_filter.2 ⟨Finset.mem_univ _, (resultIdx2_iff wf idx (ix2 e c) (ix2 n c)).2 ⟨this, rfl⟩⟩
  · intro j hj
    have := (resultIdx2_iff wf idx j (ix2 n c)).1 (Finset.mem_filter.1 hj).2
    exact idx2_ext _ _ rfl this.2.symm
  · intro e _; rfl
  · intro j hj
    have := (resultIdx2_iff wf idx j (ix2 n c)).1 (Finset.mem_filter.1 hj).2
    exact congrArg upd (idx2_ext _ _ rfl this.2)

theorem sum_landing1 {M : Type} [AddCommMonoid M] (wf) (idx : IVec SI 32) (upd : U1.Idx → M) (n : Fin 50000) :
    ∑ j ∈ Finset.univ.filter (fun j => (D1 wf).resultIdx? j idx = some (ix1 n)), upd j
      = ∑ e ∈ Cert.Spec.seg (fun e => idx (ix2 e 0)) n, upd (ix1 e) := by
  refine Finset.sum_nbij' (fun j => j 0) (fun e => ix1 e) ?_ ?_ ?_ ?_ ?_
  · intro j hj
    have := (resultIdx1_iff wf idx j (ix1 n)).1 (Finset.mem_filter.1 hj).2
    exact Finset.mem_filter.2 ⟨Finset.mem_univ _, this⟩
  · intro e he
    have := (Finset.mem_filter.1 he).2
    exact Finset.mem_filter.2 ⟨Finset.mem_univ _, (resultIdx1_iff wf idx (ix1 e) (ix1 n)).2 this⟩
  · intro j _
    exact idx1_ext _ _ rfl
  · intro e _; rfl
  · intro j _
    exact congrArg upd (idx1_ext _ _ rfl)

/-! ## The float scatters at an entry -/

theorem scatterAdd2_apply (d : ScatterDims ⟨2, ![50000, 128]⟩ ⟨2, ![1600000, 1]⟩ ⟨2, ![1600000, 128]⟩)
    (h1 : d.updateWindowDims = [1]) (h2 : d.insertedWindowDims = [0]) (h3 : d.scatterDimsToOperandDims = [0]) (h4 : d.indexVectorDim = 1)
    (x : (⟨2, ![50000, 128]⟩ : Shape).Idx → EReal) (idx : IVec ⟨2, ![1600000, 1]⟩ 32) (upd : (⟨2, ![1600000, 128]⟩ : Shape).Idx → EReal)
    (n : Fin 50000) (c : Fin 128) :
    Ideal.hostScatterAdd d x idx upd (ix2 n c) = x (ix2 n c) + ∑ e ∈ Cert.Spec.seg (fun e => idx (ix2 e 0)) n, upd (ix2 e c) := by
  obtain ⟨uw, iw, sd, iv, wf⟩ := d
  try dsimp only at h1 h2 h3 h4
  subst h1 h2 h3 h4
  unfold Ideal.hostScatterAdd
  exact congrArg (x (ix2 n c) + ·) (sum_landing2 wf idx upd n c)

theorem scatterAdd1_apply (d : ScatterDims ⟨1, ![50000]⟩ ⟨2, ![1600000, 1]⟩ ⟨1, ![1600000]⟩)
    (h1 : d.updateWindowDims = []) (h2 : d.insertedWindowDims = [0]) (h3 : d.scatterDimsToOperandDims = [0]) (h4 : d.indexVectorDim = 1)
    (x : (⟨1, ![50000]⟩ : Shape).Idx → EReal) (idx : IVec ⟨2, ![1600000, 1]⟩ 32) (upd : (⟨1, ![1600000]⟩ : Shape).Idx → EReal) (n : Fin 50000) :
    Ideal.hostScatterAdd d x idx upd (ix1 n) = x (ix1 n) + ∑ e ∈ Cert.Spec.seg (fun e => idx (ix2 e 0)) n, upd (ix1 e) := by
  obtain ⟨uw, iw, sd, iv, wf⟩ := d
  try dsimp only at h1 h2 h3 h4
  subst h1 h2 h3 h4
  unfold Ideal.hostScatterAdd
  exact congrArg (x (ix1 n) + ·) (sum_landing1 wf idx upd n)

/-! ## The integer scatter that counts -/

/-- A scatter whose body adds, folded over the updates in any listed order, leaves at an entry the operand's entry
    plus the sum of the updates that land there (addition in a commutative monoid does not see the order). -/
theorem scatter_add_apply {α : Type} [AddCommMonoid α] {s si u : Shape} {w : Nat} (d : ScatterDims s si u) (f : α → α → α)
    (hf : ∀ a b, f a b = a + b) (x : s.Idx → α) (idx : IVec si w) (upd : u.Idx → α) (i : s.Idx) :
    Host.scatter d f x idx upd i = x i + ∑ j ∈ Finset.univ.filter (fun j => d.resultIdx? j idx = some i), upd j := by
  classical
  have key : ∀ (step : (s.Idx → α) → Fin u.numel → (s.Idx → α)) (g : Fin u.numel → α)
      (_hstep : ∀ r n, step r n i = r i + g n) (l : List (Fin u.numel)) (x : s.Idx → α),
      (l.foldl step x) i = x i + (l.map g).sum := by
    intro step g hstep l
    induction l with
    | nil => intro x; simp
    | cons n l ih =>
      intro x
      rw [List.foldl_cons, ih, hstep, List.map_cons, List.sum_cons, add_assoc]
  unfold Host.scatter
  refine (key _ (fun n => if d.resultIdx? (u.rowMajor.symm n) idx = some i then upd (u.rowMajor.symm n) else 0) ?_ _ x).trans ?_
  · intro r n
    by_cases hP : d.resultIdx? (u.rowMajor.symm n) idx = some i
    · simp only [hP, if_true]
      simp [hf]
    · rw [if_neg hP, add_zero]
      cases hr : d.resultIdx? (u.rowMajor.symm n) idx with
      | none => rfl
      | some i0 =>
        have hne : i ≠ i0 := fun e' => hP (by rw [hr, e'])
        simp [hne]
  · refine congrArg (x i + ·) ?_
    rw [Finset.sum_filter, ← Equiv.sum_comp u.rowMajor.symm, Fin.sum_univ_def]

/-- Adding the word `1` once per update into zeros leaves, at entry `n`, the size of `n`'s segment
    (there are 1600000 updates, far below `2^31`, so the word reads back as that number). -/
theorem scatterCount_apply (d : ScatterDims ⟨1, ![50000]⟩ ⟨2, ![1600000, 1]⟩ ⟨1, ![1600000]⟩)
    (h1 : d.updateWindowDims = []) (h2 : d.insertedWindowDims = [0]) (h3 : d.scatterDimsToOperandDims = [0]) (h4 : d.indexVectorDim = 1)
    (f : BitVec 32 → BitVec 32 → BitVec 32) (hf : ∀ a b, f a b = a + b) (idx : IVec ⟨2, ![1600000, 1]⟩ 32) (n : Fin 50000) :
    (Host.scatter d f (fun _ => 0#32) idx (fun _ => 1#32) (ix1 n)).toInt = ((Cert.Spec.seg (fun e => idx (ix2 e 0)) n).card : Int) := by
  obtain ⟨uw, iw, sd, iv, wf⟩ := d
  try dsimp only at h1 h2 h3 h4
  subst h1 h2 h3 h4
  rw [scatter_add_apply _ f hf, sum_landing1 wf idx (fun _ => (1#32 : BitVec 32)) n, Finset.sum_const]
  have hc : (Cert.Spec.seg (fun e => idx (ix2 e 0)) n).card ≤ 1600000 := by
    refine (Finset.card_le_univ _).trans ?_
    simp
  generalize (Cert.Spec.seg (fun e => idx (ix2 e 0)) n).card = k at hc ⊢
  have e : (0#32 : BitVec 32) + k • (1#32 : BitVec 32) = BitVec.ofNat 32 k := by
    rw [show (1#32 : BitVec 32) = 1 from rfl, nsmul_one, BitVec.natCast_eq_ofNat]
    simp
  rw [e, BitVec.toInt_eq_toNat_of_lt (by rw [BitVec.toNat_ofNat]; omega), BitVec.toNat_ofNat]
  omega

end Cert.LibSegment

end
-- ==== Proof.KerVal0Args.lean ====
/-
  The arguments of the layer, entry by entry, and what the host operations in front of the first kernel compute from them.

  Every edge carries a source word and a destination word. The source words (a negative one moved up by the row count)
  gather rows of `x`; the gathered rows, the attribute column and the word 1 are each added, edge by edge, into a table
  of zeros at the row the destination word names. The three results — the summed gathered rows, the summed attributes,
  the segment sizes — are what the first kernel reads, the last two side by side as the columns of one [50000, 2] table;
  the one-entry `eps` and the four bias vectors reach it as [1, 1] and [1, 128] tables.
  A scatter that adds is, row by row, the sum over the row's segment of edges; nothing here opens that sum.
-/
import proofs.«163893_j72421738545669_2_alg».proof.Proof.Gen.KernelIdeal
import proofs.«163893_j72421738545669_2_alg».proof.Proof.LibSegment
import proofs.«163893_j72421738545669_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx Idealize.ShloMosaic.TcCoe
open Idealize.SL.Sem

namespace Cert.KernelIdeal.KerVal0

open Cert.KernelIdeal

variable (m : (ℓ : Loc nD τ sig) → Buf (Elt Ideal) ℓ)

/-! ## The pure terms of the host operations before the first kernel -/

/-- The source words, one per edge, with a negative word moved up by the row count, as a column. -/
def srcT (c : Dev nD) : IVec S1600000x1 32 :=
  let v1 : IVec S1600000 32 := shapeCast S1600000
    (extractStridedSlice S1x1600000 ![0, 0] (m ((c : Thread nD τ).loc main_arg1)) Gen.slices_S2x1600000_S1x1600000_0_0)
    Gen.shapeCasts_S1x1600000_S1600000
  broadcastInDim S1600000x1 ![0] Gen.bcast_S1600000_S1600000x1_0
    (select (cmpi .slt v1 (broadcastInDim S1600000 ![] Gen.bcast_S_S1600000 (constantI S_ 32 0#32)))
      (addi v1 (broadcastInDim S1600000 ![] Gen.bcast_S_S1600000 (constantI S_ 32 50000#32))) v1)

/-- The gathered source rows, one per edge. -/
def gxT (c : Dev nD) : FVec Ideal S1600000x128 .f32 :=
  Host.gather gather_S50000x128_S1600000x1_S1600000x128_1_0_n_n_0_1_1128 (m ((c : Thread nD τ).loc main_arg0)) (srcT m c)

/-- The destination words, one per edge, as a column. -/
def dstT (c : Dev nD) : IVec S1600000x1 32 :=
  broadcastInDim S1600000x1 ![0] Gen.bcast_S1600000_S1600000x1_0
    (shapeCast S1600000
      (extractStridedSlice S1x1600000 ![1, 0] (m ((c : Thread nD τ).loc main_arg1)) Gen.slices_S2x1600000_S1x1600000_1_0)
      Gen.shapeCasts_S1x1600000_S1600000)

/-- The segment sizes as the kernel holds them: the word 1 added once per edge into a table of zero words, row by
    destination, then converted. -/
def cntT (c : Dev nD) : FVec Ideal S50000 .f32 :=
  sitofp .f32 (Host.scatter scatter_S50000_S1600000x1_S1600000_n_0_0_1 IntOp.addi
    (broadcastInDim S50000 ![] Gen.bcast_S_S50000 (constantI S_ 32 0#32)) (dstT m c)
    (broadcastInDim S1600000 ![] Gen.bcast_S_S1600000 (constantI S_ 32 1#32)))

/-- The arguments' entries by coordinates. -/
def args (c : Dev nD) : Spec.Args where
  x := fun n k => m ((c : Thread nD τ).loc main_arg0) (ix2 n k)
  gx := fun e k => gxT m c (ix2 e k)
  dst := fun e => dstT m c (ix2 e 0)
  ea := fun e => m ((c : Thread nD τ).loc main_arg2) (ix2 e 0)
  ew := fun k => m ((c : Thread nD τ).loc main_arg3) (ix2 0 k)
  eb := fun k => m ((c : Thread nD τ).loc main_arg4) (ix1 k)
  w1 := fun j k => m ((c : Thread nD τ).loc main_arg5) (ix2 j k)
  b1 := fun k => m ((c : Thread nD τ).loc main_arg6) (ix1 k)
  w2 := fun j k => m ((c : Thread nD τ).loc main_arg7) (ix2 j k)
  b2 := fun k => m ((c : Thread nD τ).loc main_arg8) (ix1 k)
  wr := fun j k => m ((c : Thread nD τ).loc main_arg9) (ix2 j k)
  br := fun k => m ((c : Thread nD τ).loc main_arg10) (ix1 k)
  eps := m ((c : Thread nD τ).loc main_arg11) (ix1 0)
  gamma := fun k => m ((c : Thread nD τ).loc main_arg12) (ix1 k)
  beta := fun k => m ((c : Thread nD τ).loc main_arg13) (ix1 k)

/-- The segment sizes as the kernel holds them, by row. -/
def cnt (c : Dev nD) : Fin 50000 → EReal := fun n => cntT m c (ix1 n)

/-- The tables of zeros the row sums start from. -/
theorem zeros2_at (n : Fin 50000) (k : Fin 128) :
    (broadcastInDim S50000x128 ![] Gen.bcast_S_S50000x128 (constant (F := Ideal) S_ .f32 0x00000000#32) : S50000x128.Idx → EReal) (ix2 n k)
      = Spec.zero := rfl
theorem zeros1_at (n : Fin 50000) :
    (broadcastInDim S50000 ![] Gen.bcast_S_S50000 (constant (F := Ideal) S_ .f32 0x00000000#32) : S50000.Idx → EReal) (ix1 n)
      = Spec.zero := rfl

end Cert.KernelIdeal.KerVal0

end
-- ==== Proof.RefOps.lean ====
/-
  The reference's @main as a list of host operations.

  The printed @main is two windows of statements; three of them are calls (the rectifier twice, the variance routine once,
  which itself calls a selection routine). Listed here are the 103 operations those statements perform, a callee's
  operations standing at its call site over that call's own buffers, cut into six stretches after what each one
  produces: the edge messages and the destination words; the mean message of every row; the table before
  normalisation; the columns' means; the columns' variances; the normalised, rectified result.
-/
import proofs.«163893_j72421738545669_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The source and destination words of every edge, the gathered source rows, and the edge messages. -/
abbrev c1 : List (HloOp τ sig (Elt F)) :=
  [ unary main_arg1 main_v0 (extractStridedSlice S1x1600000 ![0, 0] · slices_S2x1600000_S1x1600000_0_0),
    reshape main_v0 main_v1 rfl shapeCasts_S1x1600000_S1600000,
    unary main_arg1 main_v2 (extractStridedSlice S1x1600000 ![1, 0] · slices_S2x1600000_S1x1600000_1_0),
    reshape main_v2 main_v3 rfl shapeCasts_S1x1600000_S1600000,
    binary main_arg2 main_arg3 main_v4 (fun l r => Host.dotGeneral dot_S1600000x1_S1x128_S1600000x128_1_0_0_1_n_n none l r),
    unary main_arg4 main_v5 (broadcastInDim S1x128 ![1] bcast_S128_S1x128_1),
    unary main_v5 main_v6 (broadcastInDim S1600000x128 ![0, 1] bcast_S1x128_S1600000x128_0_1),
    binary main_v4 main_v6 main_v7 addf,
    nullary main_c (constantI S_ 32 0#32),
    unary main_c main_v8 (broadcastInDim S1600000 ![] bcast_S_S1600000),
    binary main_v1 main_v8 main_v9 (cmpi .slt),
    nullary main_c_0 (constantI S_ 32 50000#32),
    unary main_c_0 main_v10 (broadcastInDim S1600000 ![] bcast_S_S1600000),
    binary main_v1 main_v10 main_v11 addi,
    ternary main_v9 main_v11 main_v1 main_v12 select,
    unary main_v12 main_v13 (broadcastInDim S1600000x1 ![0] bcast_S1600000_S1600000x1_0),
    binary main_arg0 main_v13 main_v14 (fun x i => Host.gather gather_S50000x128_S1600000x1_S1600000x128_1_0_n_n_0_1_1128 x i),
    binary main_v14 main_v7 main_v15 addf,
    nullary main_cst (constant S_ .f32 0x00000000#32),
    unary main_cst main_v16 (broadcastInDim S50000x128 ![] bcast_S_S50000x128),
    unary main_v3 main_v17 (broadcastInDim S1600000x1 ![0] bcast_S1600000_S1600000x1_0) ]

/-- The messages and the ones summed over every row's segment, and their quotient. -/
abbrev c2 : List (HloOp τ sig (Elt F)) :=
  [ ternary main_v16 main_v17 main_v15 main_v18 (fun x i u => Host.scatterAdd scatter_S50000x128_S1600000x1_S1600000x128_1_0_0_1 x i u),
    nullary main_cst_1 (constant S_ .f32 0x3F800000#32),
    unary main_cst_1 main_v19 (broadcastInDim S1600000 ![] bcast_S_S1600000),
    nullary main_cst_2 (constant S_ .f32 0x00000000#32),
    unary main_cst_2 main_v20 (broadcastInDim S50000 ![] bcast_S_S50000),
    unary main_v3 main_v21 (broadcastInDim S1600000x1 ![0] bcast_S1600000_S1600000x1_0),
    ternary main_v20 main_v21 main_v19 main_v22 (fun x i u => Host.scatterAdd scatter_S50000_S1600000x1_S1600000_n_0_0_1 x i u),
    nullary main_cst_3 (constant S_ .f32 0x3F800000#32),
    unary main_cst_3 main_v23 (broadcastInDim S50000 ![] bcast_S_S50000),
    binary main_v22 main_v23 main_v24 maximumf,
    unary main_v24 main_v25 (broadcastInDim S50000x1 ![0] bcast_S50000_S50000x1_0),
    unary main_v25 main_v26 (broadcastInDim S50000x128 ![0, 1] bcast_S50000x1_S50000x128_0_1),
    binary main_v18 main_v26 main_v27 Host.divf ]

/-- The node update before normalisation: two affine maps with the rectifier between, plus the affine image of the input. -/
abbrev c3 : List (HloOp τ sig (Elt F)) :=
  [ reshape main_arg11 main_v28 rfl shapeCasts_S1_S_,
    nullary main_cst_4 (constant S_ .f32 0x3F800000#32),
    binary main_cst_4 main_v28 main_v29 addf,
    unary main_v29 main_v30 (broadcastInDim S50000x128 ![] bcast_S_S50000x128),
    binary main_v30 main_arg0 main_v31 mulf,
    binary main_v31 main_v27 main_v32 addf,
    binary main_v32 main_arg5 main_v33 (fun l r => Host.dotGeneral dot_S50000x128_S128x128_S50000x128_1_0_0_1_n_n none l r),
    unary main_arg6 main_v34 (broadcastInDim S1x128 ![1] bcast_S128_S1x128_1),
    unary main_v34 main_v35 (broadcastInDim S50000x128 ![0, 1] bcast_S1x128_S50000x128_0_1),
    binary main_v33 main_v35 main_v36 addf,
    TRef.nullary main_call0.cst (constant S_ .f32 0x00000000#32),
    TRef.unary main_call0.cst main_call0.v0 (broadcastInDim S50000x128 ![] bcast_S_S50000x128),
    TRef.binary (.of main_v36 : TRef sig ⟨S50000x128, .f32⟩) main_call0.v0 main_call0.v1 maximumf,
    binary main_v37 main_arg7 main_v38 (fun l r => Host.dotGeneral dot_S50000x128_S128x128_S50000x128_1_0_0_1_n_n none l r),
    unary main_arg8 main_v39 (broadcastInDim S1x128 ![1] bcast_S128_S1x128_1),
    unary main_v39 main_v40 (broadcastInDim S50000x128 ![0, 1] bcast_S1x128_S50000x128_0_1),
    binary main_v38 main_v40 main_v41 addf,
    binary main_arg0 main_arg9 main_v42 (fun l r => Host.dotGeneral dot_S50000x128_S128x128_S50000x128_1_0_0_1_n_n none l r),
    unary main_arg10 main_v43 (broadcastInDim S1x128 ![1] bcast_S128_S1x128_1),
    unary main_v43 main_v44 (broadcastInDim S50000x128 ![0, 1] bcast_S1x128_S50000x128_0_1),
    binary main_v42 main_v44 main_v45 addf,
    binary main_v41 main_v45 main_v46 addf ]

/-- The columns' means, and the integer word the variance routine is called with. -/
abbrev c4 : List (HloOp τ sig (Elt F)) :=
  [ nullary main_cst_5 (constant S_ .f32 0x00000000#32),
    binary main_v46 main_cst_5 main_v47 (fun x v => Host.reduceAdd x v reducesTo_S50000x128_S128_d0 h_S_),
    nullary main_cst_6 (constant S_ .f32 0x47435000#32),
    unary main_cst_6 main_v48 (broadcastInDim S128 ![] bcast_S_S128),
    binary main_v47 main_v48 main_v49 Host.divf,
    nullary main_c_7 (constantI S_ 32 0#32) ]

/-- The variance routine on the table: the means again, the centred squares summed, the quotient, and the selection. -/
abbrev c5 : List (HloOp τ sig (Elt F)) :=
  [ TRef.nullary main_call1.cst (constant S_ .f32 0x00000000#32),
    TRef.binary (.of main_v46 : TRef sig ⟨S50000x128, .f32⟩) main_call1.cst main_call1.v0 (fun x v => Host.reduceAdd x v reducesTo_S50000x128_S128_d0 h_S_),
    TRef.unary main_call1.v0 main_call1.v1 (broadcastInDim S1x128 ![1] bcast_S128_S1x128_1),
    TRef.nullary main_call1.cst_0 (constant S_ .f32 0x47435000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S50000x128 ![0, 1] bcast_S1x128_S50000x128_0_1),
    TRef.binary (.of main_v46 : TRef sig ⟨S50000x128, .f32⟩) main_call1.v4 main_call1.v5 subf,
    TRef.binary main_call1.v5 main_call1.v5 main_call1.v6 mulf,
    TRef.unary (.of main_c_7 : TRef sig ⟨S_, .i32⟩) main_call1.v7 (sitofp .f32),
    TRef.nullary main_call1.cst_1 (constant S_ .f32 0x47435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b) ]

/-- The normalisation by the means and variances, the scale and the shift, and the rectifier. -/
abbrev c6 : List (HloOp τ sig (Elt F)) :=
  [ unary main_v49 main_v51 (broadcastInDim S1x128 ![1] bcast_S128_S1x128_1),
    unary main_v51 main_v52 (broadcastInDim S50000x128 ![0, 1] bcast_S1x128_S50000x128_0_1),
    binary main_v46 main_v52 main_v53 subf,
    nullary main_cst_8 (constant S_ .f32 0x3727C5AC#32),
    unary main_cst_8 main_v54 (broadcastInDim S128 ![] bcast_S_S128),
    binary main_v50 main_v54 main_v55 addf,
    unary main_v55 main_v56 Host.rsqrt,
    unary main_v56 main_v57 (broadcastInDim S1x128 ![1] bcast_S128_S1x128_1),
    unary main_v57 main_v58 (broadcastInDim S50000x128 ![0, 1] bcast_S1x128_S50000x128_0_1),
    binary main_v53 main_v58 main_v59 mulf,
    unary main_arg12 main_v60 (broadcastInDim S1x128 ![1] bcast_S128_S1x128_1),
    unary main_v60 main_v61 (broadcastInDim S50000x128 ![0, 1] bcast_S1x128_S50000x128_0_1),
    binary main_v59 main_v61 main_v62 mulf,
    unary main_arg13 main_v63 (broadcastInDim S1x128 ![1] bcast_S128_S1x128_1),
    unary main_v63 main_v64 (broadcastInDim S50000x128 ![0, 1] bcast_S1x128_S50000x128_0_1),
    binary main_v62 main_v64 main_v65 addf,
    TRef.nullary main_call2.cst (constant S_ .f32 0x00000000#32),
    TRef.unary main_call2.cst main_call2.v0 (broadcastInDim S50000x128 ![] bcast_S_S50000x128),
    TRef.binary (.of main_v65 : TRef sig ⟨S50000x128, .f32⟩) main_call2.v0 main_call2.v1 maximumf ]

/-- The first window's operations. -/
abbrev opsA : List (HloOp τ sig (Elt F)) := c1 ++ (c2 ++ (c3 ++ c4))
/-- The second window's operations. -/
abbrev opsB : List (HloOp τ sig (Elt F)) := c5 ++ c6
/-- @main's 103 operations, in order. -/
abbrev ops : List (HloOp τ sig (Elt F)) := opsA ++ opsB

set_option maxRecDepth 8192 in
set_option maxHeartbeats 4000000 in
theorem main_part0_eq (c : Dev nD) : main_part0 (F := F) c = seq opsA := rfl

set_option maxRecDepth 8192 in
set_option maxHeartbeats 4000000 in
theorem main_part1_eq (c : Dev nD) : main_part1 (F := F) c = seq opsB := rfl

theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RefRun

end
-- ==== Proof.RefStage.lean ====
/-
  The reference's result as one composed term of its arrays, stage by stage.

  Each definition is one stretch of @main's operations as a pure function of what the stretch reads: the edge messages;
  the mean message of every row; the table before normalisation; the columns' means; the columns' variances; the
  normalised and rectified table. `resOf` composes them.
-/
import proofs.«163893_j72421738545669_2_alg».proof.Proof.Gen.ReferenceIdeal

noncomputable section

namespace Cert.ReferenceIdeal.RefRun

open Cert.ReferenceIdeal Cert.ReferenceIdeal.Gen Idealize.ShloMosaic

variable {F : FTy → Type} [FloatOps F]

/-- A vector of 128 entries repeated down the 50000 rows. -/
def rowsOf (b : FVec F S128 .f32) : FVec F S50000x128 .f32 :=
  broadcastInDim S50000x128 ![0, 1] bcast_S1x128_S50000x128_0_1 (broadcastInDim S1x128 ![1] bcast_S128_S1x128_1 b)

/-- The table of zeros. -/
def zerosT : FVec F S50000x128 .f32 := broadcastInDim S50000x128 ![] bcast_S_S50000x128 (constant S_ .f32 0x00000000#32)

/-- Every edge's source word (row 0 of the edge table). -/
def srcWords (a1 : IVec S2x1600000 32) : IVec S1600000 32 :=
  shapeCast S1600000 (extractStridedSlice S1x1600000 ![0, 0] a1 slices_S2x1600000_S1x1600000_0_0) shapeCasts_S1x1600000_S1600000

/-- Every edge's destination word (row 1 of the edge table). -/
def dstWords (a1 : IVec S2x1600000 32) : IVec S1600000 32 :=
  shapeCast S1600000 (extractStridedSlice S1x1600000 ![1, 0] a1 slices_S2x1600000_S1x1600000_1_0) shapeCasts_S1x1600000_S1600000

/-- The source words as the gather's column of start indices: a negative word is first moved up by 50000. -/
def srcIdx (a1 : IVec S2x1600000 32) : IVec S1600000x1 32 :=
  broadcastInDim S1600000x1 ![0] bcast_S1600000_S1600000x1_0
    (select (cmpi .slt (srcWords a1) (broadcastInDim S1600000 ![] bcast_S_S1600000 (constantI S_ 32 0#32)))
      (addi (srcWords a1) (broadcastInDim S1600000 ![] bcast_S_S1600000 (constantI S_ 32 50000#32))) (srcWords a1))

/-- The destination words as the scatters' column of indices. -/
def dstIdx (a1 : IVec S2x1600000 32) : IVec S1600000x1 32 :=
  broadcastInDim S1600000x1 ![0] bcast_S1600000_S1600000x1_0 (dstWords a1)

/-- The rows of the input gathered at the edges' sources. -/
def gathered (a0 : FVec F S50000x128 .f32) (a1 : IVec S2x1600000 32) : FVec F S1600000x128 .f32 :=
  Host.gather gather_S50000x128_S1600000x1_S1600000x128_1_0_n_n_0_1_1128 a0 (srcIdx a1)

/-- The edge messages: the gathered row plus the affine image of the edge's attribute. -/
def msgs (a0 : FVec F S50000x128 .f32) (a1 : IVec S2x1600000 32) (a2 : FVec F S1600000x1 .f32) (a3 : FVec F S1x128 .f32)
    (a4 : FVec F S128 .f32) : FVec F S1600000x128 .f32 :=
  addf (gathered a0 a1)
    (addf (Host.dotGeneral dot_S1600000x1_S1x128_S1600000x128_1_0_0_1_n_n none a2 a3)
      (broadcastInDim S1600000x128 ![0, 1] bcast_S1x128_S1600000x128_0_1 (broadcastInDim S1x128 ![1] bcast_S128_S1x128_1 a4)))

/-- The mean message of every row, from the zero table `z`, the index column `di`, the messages `ms` and the
    destination words `dw`: the messages summed over the row's segment, divided by the segment's size or one. -/
def aggrOf (z : FVec F S50000x128 .f32) (di : IVec S1600000x1 32) (ms : FVec F S1600000x128 .f32) (dw : IVec S1600000 32) :
    FVec F S50000x128 .f32 :=
  Host.divf (Host.scatterAdd scatter_S50000x128_S1600000x1_S1600000x128_1_0_0_1 z di ms)
    (broadcastInDim S50000x128 ![0, 1] bcast_S50000x1_S50000x128_0_1
      (broadcastInDim S50000x1 ![0] bcast_S50000_S50000x1_0
        (maximumf
          (Host.scatterAdd scatter_S50000_S1600000x1_S1600000_n_0_0_1
            (broadcastInDim S50000 ![] bcast_S_S50000 (constant S_ .f32 0x00000000#32))
            (broadcastInDim S1600000x1 ![0] bcast_S1600000_S1600000x1_0 dw)
            (broadcastInDim S1600000 ![] bcast_S_S1600000 (constant S_ .f32 0x3F800000#32)))
          (broadcastInDim S50000 ![] bcast_S_S50000 (constant S_ .f32 0x3F800000#32)))))

/-- `(1 + eps) · x + aggregate`. -/
def hOfT (x : FVec F S50000x128 .f32) (e : FVec F S1 .f32) (ag : FVec F S50000x128 .f32) : FVec F S50000x128 .f32 :=
  addf (mulf (broadcastInDim S50000x128 ![] bcast_S_S50000x128 (addf (constant S_ .f32 0x3F800000#32) (shapeCast S_ e shapeCasts_S1_S_))) x) ag

/-- The table before normalisation. -/
def preOf (x : FVec F S50000x128 .f32) (e : FVec F S1 .f32) (ag : FVec F S50000x128 .f32)
    (w1 : FVec F S128x128 .f32) (b1 : FVec F S128 .f32) (w2 : FVec F S128x128 .f32) (b2 : FVec F S128 .f32)
    (wr : FVec F S128x128 .f32) (br : FVec F S128 .f32) : FVec F S50000x128 .f32 :=
  addf
    (addf
      (Host.dotGeneral dot_S50000x128_S128x128_S50000x128_1_0_0_1_n_n none
        (maximumf (addf (Host.dotGeneral dot_S50000x128_S128x128_S50000x128_1_0_0_1_n_n none (hOfT x e ag) w1) (rowsOf b1)) zerosT)
        w2)
      (rowsOf b2))
    (addf (Host.dotGeneral dot_S50000x128_S128x128_S50000x128_1_0_0_1_n_n none x wr) (rowsOf br))

/-- The columns' means. -/
def meanOf (O : FVec F S50000x128 .f32) : FVec F S128 .f32 :=
  Host.divf (Host.reduceAdd O (constant S_ .f32 0x00000000#32) reducesTo_S50000x128_S128_d0 h_S_)
    (broadcastInDim S128 ![] bcast_S_S128 (constant S_ .f32 0x47435000#32))

/-- The variance routine's divisor: the row count less the converted integer word. -/
def dofOf (k : IVec S_ 32) : FVec F S_ .f32 := subf (constant S_ .f32 0x47435000#32) (sitofp .f32 k)

/-- The table less its columns' means, as the variance routine forms it. -/
def centredOf (O : FVec F S50000x128 .f32) : FVec F S50000x128 .f32 :=
  subf O
    (broadcastInDim S50000x128 ![0, 1] bcast_S1x128_S50000x128_0_1
      (Host.divf
        (broadcastInDim S1x128 ![1] bcast_S128_S1x128_1 (Host.reduceAdd O (constant S_ .f32 0x00000000#32) reducesTo_S50000x128_S128_d0 h_S_))
        (broadcastInDim S1x128 ![] bcast_S_S1x128 (constant S_ .f32 0x47435000#32))))

/-- The columns' variances: the centred squares summed and divided, where the divisor is positive. -/
def varOf (O : FVec F S50000x128 .f32) (k : IVec S_ 32) : FVec F S128 .f32 :=
  select (broadcastInDim S128 ![] bcast_S_S128 (cmpf .ogt (dofOf (F := F) k) (constant S_ .f32 0x00000000#32)))
    (Host.divf
      (Host.reduceAdd (mulf (centredOf O) (centredOf O)) (constant S_ .f32 0x00000000#32) reducesTo_S50000x128_S128_d0 h_S_)
      (broadcastInDim S128 ![] bcast_S_S128 (dofOf k)))
    (broadcastInDim S128 ![] bcast_S_S128 (constant S_ .f32 0x7FC00000#32))

/-- The normalised, scaled, shifted and rectified table. -/
def outOf (O : FVec F S50000x128 .f32) (mu va g b : FVec F S128 .f32) : FVec F S50000x128 .f32 :=
  maximumf
    (addf
      (mulf
        (mulf (subf O (rowsOf mu))
          (rowsOf (Host.rsqrt (addf va (broadcastInDim S128 ![] bcast_S_S128 (constant S_ .f32 0x3727C5AC#32))))))
        (rowsOf g))
      (rowsOf b))
    zerosT

/-- The table before normalisation, of the arrays. -/
def preT (a0 : FVec F S50000x128 .f32) (a1 : IVec S2x1600000 32) (a2 : FVec F S1600000x1 .f32) (a3 : FVec F S1x128 .f32)
    (a4 : FVec F S128 .f32) (a5 : FVec F S128x128 .f32) (a6 : FVec F S128 .f32) (a7 : FVec F S128x128 .f32) (a8 : FVec F S128 .f32)
    (a9 : FVec F S128x128 .f32) (a10 : FVec F S128 .f32) (a11 : FVec F S1 .f32) : FVec F S50000x128 .f32 :=
  preOf a0 a11 (aggrOf zerosT (dstIdx a1) (msgs a0 a1 a2 a3 a4) (dstWords a1)) a5 a6 a7 a8 a9 a10

/-- The reference's result, of its fourteen arrays. -/
def resOf (a0 : FVec F S50000x128 .f32) (a1 : IVec S2x1600000 32) (a2 : FVec F S1600000x1 .f32) (a3 : FVec F S1x128 .f32)
    (a4 : FVec F S128 .f32) (a5 : FVec F S128x128 .f32) (a6 : FVec F S128 .f32) (a7 : FVec F S128x128 .f32) (a8 : FVec F S128 .f32)
    (a9 : FVec F S128x128 .f32) (a10 : FVec F S128 .f32) (a11 : FVec F S1 .f32) (a12 a13 : FVec F S128 .f32) :
    FVec F S50000x128 .f32 :=
  outOf (preT a0 a1 a2 a3 a4 a5 a6 a7 a8 a9 a10 a11) (meanOf (preT a0 a1 a2 a3 a4 a5 a6 a7 a8 a9 a10 a11))
    (varOf (preT a0 a1 a2 a3 a4 a5 a6 a7 a8 a9 a10 a11) (constantI S_ 32 0#32)) a12 a13

end Cert.ReferenceIdeal.RefRun

end
-- ==== Proof.RefChunks.lean ====
/-
  Each stretch of the reference's operations read back: what it leaves in the buffers later stretches read, as the
  stage's pure function of the buffers it reads, and that it leaves every buffer it does not write as it found it.
  Then the six stretches in order: the result buffer holds `resOf` of the fourteen arrays, which are unchanged.
-/
import proofs.«163893_j72421738545669_2_alg».proof.Proof.RefOps
import proofs.«163893_j72421738545669_2_alg».proof.Proof.RefStage

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Two stretches run one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- One operation writes only its result buffer, which is in the stretch's list. -/
local macro "writes_one" : tactic =>
  `(tactic| (simp only [nullary_writes, unary_writes, binary_writes, ternary_writes, reshape_writes,
      Finset.singleton_subset_iff, List.mem_toFinset]; exact List.mem_map_of_mem (by decide)))

/-- No operation of a literal stretch leaves a buffer undetermined. -/
local macro "fresh_all" : tactic =>
  `(tactic| (intro _ h; (repeat (cases h with | head => rfl | tail _ h => ?_)); exact nomatch h))

/-! ## What each stretch writes -/

abbrev c1_W : List (Ref sig .tc) :=
  [main_v0, main_v1, main_v2, main_v3, main_v4, main_v5, main_v6, main_v7, main_c, main_v8, main_v9, main_c_0, main_v10,
    main_v11, main_v12, main_v13, main_v14, main_v15, main_cst, main_v16, main_v17]
abbrev c2_W : List (Ref sig .tc) :=
  [main_v18, main_cst_1, main_v19, main_cst_2, main_v20, main_v21, main_v22, main_cst_3, main_v23, main_v24, main_v25,
    main_v26, main_v27]
abbrev c3_W : List (Ref sig .tc) :=
  [main_v28, main_cst_4, main_v29, main_v30, main_v31, main_v32, main_v33, main_v34, main_v35, main_v36, main_call0_cst,
    main_call0_v0, main_v37, main_v38, main_v39, main_v40, main_v41, main_v42, main_v43, main_v44, main_v45, main_v46]
abbrev c4_W : List (Ref sig .tc) := [main_cst_5, main_v47, main_cst_6, main_v48, main_v49, main_c_7]
abbrev c5_W : List (Ref sig .tc) :=
  [main_call1_cst, main_call1_v0, main_call1_v1, main_call1_cst_0, main_call1_v2, main_call1_v3, main_call1_v4, main_call1_v5,
    main_call1_v6, main_call1_v7, main_call1_cst_1, main_call1_v8, main_call1_cst_2, main_call1_v9, main_call1_v10,
    main_call1_v11, main_call1_cst_3, main_call1_v12, main_call1_cst_4, main_call1_call0_v0, main_call1_call0_v1, main_v50]
abbrev c6_W : List (Ref sig .tc) :=
  [main_v51, main_v52, main_v53, main_cst_8, main_v54, main_v55, main_v56, main_v57, main_v58, main_v59, main_v60, main_v61,
    main_v62, main_v63, main_v64, main_v65, main_call2_cst, main_call2_v0, main_v66]

theorem c1_writes : (c1 : List (HloOp τ sig (Elt F))).Forall fun op =>
    op.writes ⊆ (c1_W.map (Proc.devRef (τ := τ) .tc)).toFinset := by
  simp only [c1, List.Forall]; and_intros <;> writes_one
theorem c2_writes : (c2 : List (HloOp τ sig (Elt F))).Forall fun op =>
    op.writes ⊆ (c2_W.map (Proc.devRef (τ := τ) .tc)).toFinset := by
  simp only [c2, List.Forall]; and_intros <;> writes_one
theorem c3_writes : (c3 : List (HloOp τ sig (Elt F))).Forall fun op =>
    op.writes ⊆ (c3_W.map (Proc.devRef (τ := τ) .tc)).toFinset := by
  simp only [c3, List.Forall]; and_intros <;> writes_one
theorem c4_writes : (c4 : List (HloOp τ sig (Elt F))).Forall fun op =>
    op.writes ⊆ (c4_W.map (Proc.devRef (τ := τ) .tc)).toFinset := by
  simp only [c4, List.Forall]; and_intros <;> writes_one
theorem c5_writes : (c5 : List (HloOp τ sig (Elt F))).Forall fun op =>
    op.writes ⊆ (c5_W.map (Proc.devRef (τ := τ) .tc)).toFinset := by
  simp only [c5, List.Forall]; and_intros <;> writes_one
theorem c6_writes : (c6 : List (HloOp τ sig (Elt F))).Forall fun op =>
    op.writes ⊆ (c6_W.map (Proc.devRef (τ := τ) .tc)).toFinset := by
  simp only [c6, List.Forall]; and_intros <;> writes_one

theorem c1_keep (V : Valuation τ sig (Elt F)) (r : Ref sig .tc) (h : r ∉ c1_W) :
    after c1 V (Proc.devRef .tc r) = V (Proc.devRef .tc r) := after_of_writes_sub c1 V c1_writes h
theorem c2_keep (V : Valuation τ sig (Elt F)) (r : Ref sig .tc) (h : r ∉ c2_W) :
    after c2 V (Proc.devRef .tc r) = V (Proc.devRef .tc r) := after_of_writes_sub c2 V c2_writes h
theorem c3_keep (V : Valuation τ sig (Elt F)) (r : Ref sig .tc) (h : r ∉ c3_W) :
    after c3 V (Proc.devRef .tc r) = V (Proc.devRef .tc r) := after_of_writes_sub c3 V c3_writes h
theorem c4_keep (V : Valuation τ sig (Elt F)) (r : Ref sig .tc) (h : r ∉ c4_W) :
    after c4 V (Proc.devRef .tc r) = V (Proc.devRef .tc r) := after_of_writes_sub c4 V c4_writes h
theorem c5_keep (V : Valuation τ sig (Elt F)) (r : Ref sig .tc) (h : r ∉ c5_W) :
    after c5 V (Proc.devRef .tc r) = V (Proc.devRef .tc r) := after_of_writes_sub c5 V c5_writes h
theorem c6_keep (V : Valuation τ sig (Elt F)) (r : Ref sig .tc) (h : r ∉ c6_W) :
    after c6 V (Proc.devRef .tc r) = V (Proc.devRef .tc r) := after_of_writes_sub c6 V c6_writes h

/-! ## What each stretch leaves for the later ones -/

theorem c1_v15 (V : Valuation τ sig (Elt F)) :
    after c1 V (Proc.devRef .tc main_v15) = msgs (V (Proc.devRef .tc main_arg0)) (V (Proc.devRef .tc main_arg1)) (V (Proc.devRef .tc main_arg2))
      (V (Proc.devRef .tc main_arg3)) (V (Proc.devRef .tc main_arg4)) := by
  simp only [c1]; after_results_simp <;> rfl
theorem c1_v16 (V : Valuation τ sig (Elt F)) : after c1 V (Proc.devRef .tc main_v16) = zerosT := by
  simp only [c1]; after_results_simp <;> rfl
theorem c1_v17 (V : Valuation τ sig (Elt F)) : after c1 V (Proc.devRef .tc main_v17) = dstIdx (V (Proc.devRef .tc main_arg1)) := by
  simp only [c1]; after_results_simp <;> rfl
theorem c1_v3 (V : Valuation τ sig (Elt F)) : after c1 V (Proc.devRef .tc main_v3) = dstWords (V (Proc.devRef .tc main_arg1)) := by
  simp only [c1]; after_results_simp <;> rfl

theorem c2_v27 (V : Valuation τ sig (Elt F)) :
    after c2 V (Proc.devRef .tc main_v27) = aggrOf (V (Proc.devRef .tc main_v16)) (V (Proc.devRef .tc main_v17)) (V (Proc.devRef .tc main_v15)) (V (Proc.devRef .tc main_v3)) := by
  simp only [c2]; after_results_simp <;> rfl

theorem c3_v46 (V : Valuation τ sig (Elt F)) :
    after c3 V (Proc.devRef .tc main_v46) = preOf (V (Proc.devRef .tc main_arg0)) (V (Proc.devRef .tc main_arg11)) (V (Proc.devRef .tc main_v27))
      (V (Proc.devRef .tc main_arg5)) (V (Proc.devRef .tc main_arg6)) (V (Proc.devRef .tc main_arg7)) (V (Proc.devRef .tc main_arg8)) (V (Proc.devRef .tc main_arg9))
      (V (Proc.devRef .tc main_arg10)) := by
  simp only [c3]; after_results_simp <;> rfl

theorem c4_v49 (V : Valuation τ sig (Elt F)) : after c4 V (Proc.devRef .tc main_v49) = meanOf (V (Proc.devRef .tc main_v46)) := by
  simp only [c4]; after_results_simp <;> rfl
theorem c4_c7 (V : Valuation τ sig (Elt F)) : after c4 V (Proc.devRef .tc main_c_7) = constantI S_ 32 0#32 := by
  simp only [c4]; after_results_simp <;> rfl

theorem c5_v50 (V : Valuation τ sig (Elt F)) :
    after c5 V (Proc.devRef .tc main_v50) = varOf (V (Proc.devRef .tc main_v46)) (V (Proc.devRef .tc main_c_7)) := by
  simp only [c5]; after_results_simp <;> rfl

theorem c6_v66 (V : Valuation τ sig (Elt F)) :
    after c6 V (Proc.devRef .tc main_v66) = outOf (V (Proc.devRef .tc main_v46)) (V (Proc.devRef .tc main_v49)) (V (Proc.devRef .tc main_v50))
      (V (Proc.devRef .tc main_arg12)) (V (Proc.devRef .tc main_arg13)) := by
  simp only [c6]; after_results_simp <;> rfl

/-! ## The six stretches in order -/

/-- A buffer none of the six stretches writes is unchanged by @main. -/
theorem ops_keep (V : Valuation τ sig (Elt F)) (r : Ref sig .tc) (h1 : r ∉ c1_W) (h2 : r ∉ c2_W) (h3 : r ∉ c3_W)
    (h4 : r ∉ c4_W) (h5 : r ∉ c5_W) (h6 : r ∉ c6_W) : after ops V (Proc.devRef .tc r) = V (Proc.devRef .tc r) := by
  simp only [ops, opsA, opsB, after_app]
  rw [c6_keep _ r h6, c5_keep _ r h5, c4_keep _ r h4, c3_keep _ r h3, c2_keep _ r h2, c1_keep _ r h1]

/-- The result buffer after @main holds `resOf` of the fourteen arrays as @main found them. -/
theorem ops_v66 (V : Valuation τ sig (Elt F)) :
    after ops V (Proc.devRef .tc main_v66) = resOf (V (Proc.devRef .tc main_arg0)) (V (Proc.devRef .tc main_arg1)) (V (Proc.devRef .tc main_arg2))
      (V (Proc.devRef .tc main_arg3)) (V (Proc.devRef .tc main_arg4)) (V (Proc.devRef .tc main_arg5)) (V (Proc.devRef .tc main_arg6)) (V (Proc.devRef .tc main_arg7))
      (V (Proc.devRef .tc main_arg8)) (V (Proc.devRef .tc main_arg9)) (V (Proc.devRef .tc main_arg10)) (V (Proc.devRef .tc main_arg11)) (V (Proc.devRef .tc main_arg12))
      (V (Proc.devRef .tc main_arg13)) := by
  simp only [ops, opsA, opsB, after_app]
  rw [c6_v66, c5_v50, c5_keep _ main_v46 (by decide), c5_keep _ main_v49 (by decide), c5_keep _ main_arg12 (by decide),
    c5_keep _ main_arg13 (by decide),
    c4_v49, c4_c7, c4_keep _ main_v46 (by decide), c4_keep _ main_arg12 (by decide), c4_keep _ main_arg13 (by decide),
    c3_v46, c3_keep _ main_arg12 (by decide), c3_keep _ main_arg13 (by decide),
    c2_v27, c2_keep _ main_arg0 (by decide), c2_keep _ main_arg5 (by decide), c2_keep _ main_arg6 (by decide),
    c2_keep _ main_arg7 (by decide), c2_keep _ main_arg8 (by decide), c2_keep _ main_arg9 (by decide),
    c2_keep _ main_arg10 (by decide), c2_keep _ main_arg11 (by decide), c2_keep _ main_arg12 (by decide),
    c2_keep _ main_arg13 (by decide),
    c1_v15, c1_v16, c1_v17, c1_v3, c1_keep _ main_arg0 (by decide), c1_keep _ main_arg5 (by decide),
    c1_keep _ main_arg6 (by decide), c1_keep _ main_arg7 (by decide), c1_keep _ main_arg8 (by decide),
    c1_keep _ main_arg9 (by decide), c1_keep _ main_arg10 (by decide), c1_keep _ main_arg11 (by decide),
    c1_keep _ main_arg12 (by decide), c1_keep _ main_arg13 (by decide)]
  rfl

/-! ## What the run theorem asks of the list -/

theorem c1_sub : (c1 : List (HloOp τ sig (Elt F))).Forall fun op => op.bufs ⊆ tcRefs τ sig := by
  simp only [c1, List.Forall, nullary_bufs_sub, unary_bufs_sub, binary_bufs_sub, ternary_bufs_sub, reshape_bufs_sub, and_self]
theorem c2_sub : (c2 : List (HloOp τ sig (Elt F))).Forall fun op => op.bufs ⊆ tcRefs τ sig := by
  simp only [c2, List.Forall, nullary_bufs_sub, unary_bufs_sub, binary_bufs_sub, ternary_bufs_sub, reshape_bufs_sub, and_self]
theorem c3_sub : (c3 : List (HloOp τ sig (Elt F))).Forall fun op => op.bufs ⊆ tcRefs τ sig := by
  simp only [c3, List.Forall, nullary_bufs_sub, unary_bufs_sub, binary_bufs_sub, ternary_bufs_sub, reshape_bufs_sub, and_self]
theorem c4_sub : (c4 : List (HloOp τ sig (Elt F))).Forall fun op => op.bufs ⊆ tcRefs τ sig := by
  simp only [c4, List.Forall, nullary_bufs_sub, unary_bufs_sub, binary_bufs_sub, ternary_bufs_sub, reshape_bufs_sub, and_self]
theorem c5_sub : (c5 : List (HloOp τ sig (Elt F))).Forall fun op => op.bufs ⊆ tcRefs τ sig := by
  simp only [c5, List.Forall, nullary_bufs_sub, unary_bufs_sub, binary_bufs_sub, ternary_bufs_sub, reshape_bufs_sub, and_self]
theorem c6_sub : (c6 : List (HloOp τ sig (Elt F))).Forall fun op => op.bufs ⊆ tcRefs τ sig := by
  simp only [c6, List.Forall, nullary_bufs_sub, unary_bufs_sub, binary_bufs_sub, ternary_bufs_sub, reshape_bufs_sub, and_self]

theorem ops_sub : (ops : List (HloOp τ sig (Elt F))).Forall fun op => op.bufs ⊆ tcRefs τ sig :=
  List.forall_iff_forall_mem.mpr fun op h => by
    simp only [ops, opsA, opsB, List.mem_append] at h
    rcases h with (h | h | h | h) | h | h
    exacts [List.forall_iff_forall_mem.mp c1_sub op h, List.forall_iff_forall_mem.mp c2_sub op h,
      List.forall_iff_forall_mem.mp c3_sub op h, List.forall_iff_forall_mem.mp c4_sub op h,
      List.forall_iff_forall_mem.mp c5_sub op h, List.forall_iff_forall_mem.mp c6_sub op h]

theorem c1_fresh : ∀ op ∈ (c1 : List (HloOp τ sig (Elt F))), op.fresh = ∅ := by fresh_all
theorem c2_fresh : ∀ op ∈ (c2 : List (HloOp τ sig (Elt F))), op.fresh = ∅ := by fresh_all
theorem c3_fresh : ∀ op ∈ (c3 : List (HloOp τ sig (Elt F))), op.fresh = ∅ := by fresh_all
theorem c4_fresh : ∀ op ∈ (c4 : List (HloOp τ sig (Elt F))), op.fresh = ∅ := by fresh_all
theorem c5_fresh : ∀ op ∈ (c5 : List (HloOp τ sig (Elt F))), op.fresh = ∅ := by fresh_all
theorem c6_fresh : ∀ op ∈ (c6 : List (HloOp τ sig (Elt F))), op.fresh = ∅ := by fresh_all

theorem ops_fresh : ∀ op ∈ (ops : List (HloOp τ sig (Elt F))), op.fresh = ∅ := fun op h => by
  simp only [ops, opsA, opsB, List.mem_append] at h
  rcases h with (h | h | h | h) | h | h
  exacts [c1_fresh op h, c2_fresh op h, c3_fresh op h, c4_fresh op h, c5_fresh op h, c6_fresh op h]

end Cert.ReferenceIdeal.RefRun

end
-- ==== Proof.RefRun.lean ====
/-
  The reference's run with its result named: every weakly fair execution of @main terminates, the result buffer
  holds the composed term `res` of the fourteen argument arrays as the launch memory has them, and those arrays are unchanged.
-/
import proofs.«163893_j72421738545669_2_alg».proof.Proof.RefChunks
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The reference's result on device `c`, of the launch memory `m`: `resOf` of the fourteen argument arrays. -/
def res (m : (ℓ : Loc nD τ sig) → Buf (Elt Ideal) ℓ) (c : Dev nD) : FVec Ideal S50000x128 .f32 :=
  resOf (F := Ideal)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13))

/-- From any memory with zero counters: every weakly fair execution of @main terminates with the result buffer at `res`
    and the fourteen arguments as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v66) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨(h c main_v66).trans (ops_v66 (launchContents m c)),
      (h c main_arg0).trans (ops_keep _ main_arg0 (by decide) (by decide) (by decide) (by decide) (by decide) (by decide)),
      (h c main_arg1).trans (ops_keep _ main_arg1 (by decide) (by decide) (by decide) (by decide) (by decide) (by decide)),
      (h c main_arg2).trans (ops_keep _ main_arg2 (by decide) (by decide) (by decide) (by decide) (by decide) (by decide)),
      (h c main_arg3).trans (ops_keep _ main_arg3 (by decide) (by decide) (by decide) (by decide) (by decide) (by decide)),
      (h c main_arg4).trans (ops_keep _ main_arg4 (by decide) (by decide) (by decide) (by decide) (by decide) (by decide)),
      (h c main_arg5).trans (ops_keep _ main_arg5 (by decide) (by decide) (by decide) (by decide) (by decide) (by decide)),
      (h c main_arg6).trans (ops_keep _ main_arg6 (by decide) (by decide) (by decide) (by decide) (by decide) (by decide)),
      (h c main_arg7).trans (ops_keep _ main_arg7 (by decide) (by decide) (by decide) (by decide) (by decide) (by decide)),
      (h c main_arg8).trans (ops_keep _ main_arg8 (by decide) (by decide) (by decide) (by decide) (by decide) (by decide)),
      (h c main_arg9).trans (ops_keep _ main_arg9 (by decide) (by decide) (by decide) (by decide) (by decide) (by decide)),
      (h c main_arg10).trans (ops_keep _ main_arg10 (by decide) (by decide) (by decide) (by decide) (by decide) (by decide)),
      (h c main_arg11).trans (ops_keep _ main_arg11 (by decide) (by decide) (by decide) (by decide) (by decide) (by decide)),
      (h c main_arg12).trans (ops_keep _ main_arg12 (by decide) (by decide) (by decide) (by decide) (by decide) (by decide)),
      (h c main_arg13).trans (ops_keep _ main_arg13 (by decide) (by decide) (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.RefRead.lean ====
/-
  The reference's stages read entry by entry on the extended reals.

  A broadcast reads its operand at the kept coordinates; a product of a table with a 128×128 matrix at (n, c) is the
  sum over k of the row's entry k times the matrix's entry (k, c); a column sum is the initial value plus the sum over
  the 50000 rows; a scatter that adds rows lands every edge's row on the row its destination word names. With these each
  stage of the reference is, at an entry, the specification's formula of the arrays' entries.
-/
import proofs.«163893_j72421738545669_2_alg».proof.Proof.RefStage
import proofs.«163893_j72421738545669_2_alg».proof.Proof.Spec
import proofs.«163893_j72421738545669_2_alg».proof.Proof.LibSegment
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.RefRun Idealize.ShloMosaic Idealize.ShloMosaic.ValueIdx
open Cert.LibSegment (idx2_ext idx1_ext)

/-! ## Broadcasts at an entry -/

/-- A row of 128 laid as a 1×128 table reads the row's entry. -/
theorem rows1_apply (b : FVec Ideal S128 .f32) (c : Fin 128) :
    broadcastInDim S1x128 ![1] bcast_S128_S1x128_1 b (ix2 (0 : Fin 1) c) = b (ix1 c) := by
  refine broadcastInDim_apply _ _ _ _ (ix1 c) ?_
  intro a; match a with | ⟨0, _⟩ => rfl

/-- A 1×128 table repeated down the 50000 rows reads its one row. -/
theorem rowsFrom1_apply (y : FVec Ideal S1x128 .f32) (n : Fin 50000) (c : Fin 128) :
    broadcastInDim S50000x128 ![0, 1] bcast_S1x128_S50000x128_0_1 y (ix2 n c) = y (ix2 (0 : Fin 1) c) := by
  refine broadcastInDim_apply _ _ _ _ (ix2 (0 : Fin 1) c) ?_
  intro a; match a with | ⟨0, _⟩ => rfl | ⟨1, _⟩ => rfl

/-- A row of 128 repeated down the 50000 rows reads the row's entry. -/
theorem rowsOf_apply (b : FVec Ideal S128 .f32) (n : Fin 50000) (c : Fin 128) : rowsOf b (ix2 n c) = b (ix1 c) := by
  unfold rowsOf
  rw [rowsFrom1_apply, rows1_apply]

/-- A row of 128 repeated down the 1600000 edges reads the row's entry. -/
theorem rowsE_apply (b : FVec Ideal S128 .f32) (e : Fin 1600000) (c : Fin 128) :
    broadcastInDim S1600000x128 ![0, 1] bcast_S1x128_S1600000x128_0_1 (broadcastInDim S1x128 ![1] bcast_S128_S1x128_1 b) (ix2 e c)
      = b (ix1 c) := by
  refine (broadcastInDim_apply _ _ _ _ (ix2 (0 : Fin 1) c) ?_).trans (rows1_apply b c)
  intro a; match a with | ⟨0, _⟩ => rfl | ⟨1, _⟩ => rfl

/-- The table of zeros reads the zero word. -/
theorem zerosT_apply (i : S50000x128.Idx) : zerosT (F := Ideal) i = Spec.zero := by
  unfold zerosT
  exact broadcastInDim_scalar_apply _ _ _

/-! ## Products and column sums at an entry -/

/-- A table times a 128×128 matrix, at (n, c): the sum over k of the row's entry k times the matrix's entry (k, c). -/
theorem dotT_apply (l : FVec Ideal S50000x128 .f32) (r : FVec Ideal S128x128 .f32) (n : Fin 50000) (c : Fin 128) :
    Host.dotGeneral dot_S50000x128_S128x128_S50000x128_1_0_0_1_n_n none l r (ix2 n c) = ∑ k : Fin 128, l (ix2 n k) * r (ix2 k c) := by
  refine (Ideal.dotGeneral_apply _ none .single l r (ix2 n c)).trans ?_
  refine (Equiv.sum_comp (contrEquiv1 dot_S50000x128_S128x128_S50000x128_1_0_0_1_n_n 128 rfl rfl).symm _).symm.trans ?_
  refine Finset.sum_congr rfl fun k _ => ?_
  have hl : DotDims.lhsIdx dot_S50000x128_S128x128_S50000x128_1_0_0_1_n_n (ix2 n c)
      ((contrEquiv1 dot_S50000x128_S128x128_S50000x128_1_0_0_1_n_n 128 rfl rfl).symm k) = ix2 n k :=
    idx2_ext _ _ rfl ((DotDims.lhsIdx_val_of_single _ rfl _ _).trans (contrEquiv1_symm_val _ 128 rfl rfl k))
  have hr : DotDims.rhsIdx dot_S50000x128_S128x128_S50000x128_1_0_0_1_n_n (ix2 n c)
      ((contrEquiv1 dot_S50000x128_S128x128_S50000x128_1_0_0_1_n_n 128 rfl rfl).symm k) = ix2 k c :=
    idx2_ext _ _ ((DotDims.rhsIdx_val_of_single _ rfl _ _).trans (contrEquiv1_symm_val _ 128 rfl rfl k)) rfl
  rw [hl, hr]

/-- The edge attributes (one per edge) times the 1×128 weight row, at (e, c): the one product. -/
theorem dotE_apply (l : FVec Ideal S1600000x1 .f32) (r : FVec Ideal S1x128 .f32) (e : Fin 1600000) (c : Fin 128) :
    Host.dotGeneral dot_S1600000x1_S1x128_S1600000x128_1_0_0_1_n_n none l r (ix2 e c) = l (ix2 e 0) * r (ix2 0 c) := by
  refine (Ideal.dotGeneral_apply _ none .single l r (ix2 e c)).trans ?_
  refine (Equiv.sum_comp (contrEquiv1 dot_S1600000x1_S1x128_S1600000x128_1_0_0_1_n_n 1 rfl rfl).symm _).symm.trans ?_
  refine (Fin.sum_univ_one _).trans ?_
  have hl : DotDims.lhsIdx dot_S1600000x1_S1x128_S1600000x128_1_0_0_1_n_n (ix2 e c)
      ((contrEquiv1 dot_S1600000x1_S1x128_S1600000x128_1_0_0_1_n_n 1 rfl rfl).symm 0) = ix2 e 0 :=
    idx2_ext _ _ rfl ((DotDims.lhsIdx_val_of_single _ rfl _ _).trans (contrEquiv1_symm_val _ 1 rfl rfl 0))
  have hr : DotDims.rhsIdx dot_S1600000x1_S1x128_S1600000x128_1_0_0_1_n_n (ix2 e c)
      ((contrEquiv1 dot_S1600000x1_S1x128_S1600000x128_1_0_0_1_n_n 1 rfl rfl).symm 0) = ix2 0 c :=
    idx2_ext _ _ ((DotDims.rhsIdx_val_of_single _ rfl _ _).trans (contrEquiv1_symm_val _ 1 rfl rfl 0)) rfl
  rw [hl, hr]

/-- A column sum of a table from an initial scalar, at column c: the scalar plus the sum over the 50000 rows. -/
theorem colSum_apply (O : FVec Ideal S50000x128 .f32) (init : FVec Ideal S_ .f32) (c : Fin 128) :
    Host.reduceAdd O init reducesTo_S50000x128_S128_d0 h_S_ (ix1 c) = init ix0 + ∑ n : Fin 50000, O (ix2 n c) := by
  have hR : S50000x128.Reduces [0] S128 := by decide
  refine (hostReduceAdd_apply O init reducesTo_S50000x128_S128_d0 h_S_ (ix1 c)).trans ?_
  refine (Ideal.hostReduceAdd_single reducesTo_S50000x128_S128_d0 hR O _ (ix1 c)).trans ?_
  refine congrArg₂ (· + ·) (congrArg init (eq_ix0 _)) ?_
  exact Finset.sum_congr rfl fun k _ => congrArg O (idx2_ext _ _ rfl rfl)

/-! ## The stages at an entry -/

/-- `(1 + eps) · x + aggregate` at (n, c). -/
theorem hOfT_apply (x : FVec Ideal S50000x128 .f32) (e : FVec Ideal S1 .f32) (ag : FVec Ideal S50000x128 .f32)
    (n : Fin 50000) (c : Fin 128) :
    hOfT x e ag (ix2 n c) = (Spec.one + e (ix1 0)) * x (ix2 n c) + ag (ix2 n c) := by
  unfold hOfT
  rw [addf_apply, mulf_apply, broadcastInDim_scalar_apply, addf_apply,
    shapeCast_apply e shapeCasts_S1_S_ ix0 (ix1 0) rfl]
  rfl

/-- An edge's message at (e, c). -/
theorem msgs_apply (a0 : FVec Ideal S50000x128 .f32) (a1 : IVec S2x1600000 32) (a2 : FVec Ideal S1600000x1 .f32)
    (a3 : FVec Ideal S1x128 .f32) (a4 : FVec Ideal S128 .f32) (e : Fin 1600000) (c : Fin 128) :
    msgs a0 a1 a2 a3 a4 (ix2 e c) = gathered a0 a1 (ix2 e c) + (a2 (ix2 e 0) * a3 (ix2 0 c) + a4 (ix1 c)) := by
  unfold msgs
  rw [addf_apply, addf_apply, dotE_apply, rowsE_apply]

/-- The table scatter at (n, c): the operand's entry plus the updates' entries over the row's segment. -/
theorem sums_apply (z : FVec Ideal S50000x128 .f32) (di : IVec S1600000x1 32) (ms : FVec Ideal S1600000x128 .f32)
    (n : Fin 50000) (c : Fin 128) :
    Host.scatterAdd scatter_S50000x128_S1600000x1_S1600000x128_1_0_0_1 z di ms (ix2 n c)
      = z (ix2 n c) + ∑ e ∈ Spec.seg (fun e => di (ix2 e 0)) n, ms (ix2 e c) :=
  Cert.LibSegment.scatterAdd2_apply scatter_S50000x128_S1600000x1_S1600000x128_1_0_0_1 rfl rfl rfl rfl z di ms n c

/-- The vector scatter at n: the operand's entry plus the updates over the row's segment. -/
theorem cnt_apply (x : FVec Ideal S50000 .f32) (di : IVec S1600000x1 32) (u : FVec Ideal S1600000 .f32) (n : Fin 50000) :
    Host.scatterAdd scatter_S50000_S1600000x1_S1600000_n_0_0_1 x di u (ix1 n)
      = x (ix1 n) + ∑ e ∈ Spec.seg (fun e => di (ix2 e 0)) n, u (ix1 e) :=
  Cert.LibSegment.scatterAdd1_apply scatter_S50000_S1600000x1_S1600000_n_0_0_1 rfl rfl rfl rfl x di u n

/-- A vector of 50000 laid as a column and repeated along the 128 channels reads the row's entry. -/
theorem colOf_apply (v : FVec Ideal S50000 .f32) (n : Fin 50000) (c : Fin 128) :
    broadcastInDim S50000x128 ![0, 1] bcast_S50000x1_S50000x128_0_1 (broadcastInDim S50000x1 ![0] bcast_S50000_S50000x1_0 v) (ix2 n c)
      = v (ix1 n) := by
  refine (broadcastInDim_apply _ _ _ _ (ix2 n (0 : Fin 1)) ?_).trans (broadcastInDim_apply _ _ _ _ (ix1 n) ?_)
  · intro a; match a with | ⟨0, _⟩ => rfl | ⟨1, _⟩ => rfl
  · intro a; match a with | ⟨0, _⟩ => rfl

/-- A scalar constant repeated along the 50000 rows reads the word's value. -/
theorem bcN_apply (w : BitVec 32) (n : Fin 50000) :
    broadcastInDim S50000 ![] bcast_S_S50000 (constant (F := Ideal) S_ .f32 w) (ix1 n) = Ideal.ofBits .f32 w := rfl

/-- The mean message at (n, c): the messages and the ones summed over the row's segment, and their quotient. -/
theorem aggrOf_apply (z : FVec Ideal S50000x128 .f32) (di : IVec S1600000x1 32) (ms : FVec Ideal S1600000x128 .f32)
    (dw : IVec S1600000 32) (hdi : di = broadcastInDim S1600000x1 ![0] bcast_S1600000_S1600000x1_0 dw)
    (n : Fin 50000) (c : Fin 128) :
    aggrOf z di ms dw (ix2 n c)
      = Ideal.div (z (ix2 n c) + ∑ e ∈ Spec.seg (fun e => di (ix2 e 0)) n, ms (ix2 e c))
          (max (Spec.zero + ∑ _e ∈ Spec.seg (fun e => di (ix2 e 0)) n, Spec.one) Spec.one) := by
  subst hdi
  unfold aggrOf
  rw [hostDivf_apply, sums_apply, colOf_apply, maximumf_apply, cnt_apply, bcN_apply, bcN_apply]
  rfl

/-- An affine map of a table's rows at (n, c). -/
theorem linT_apply (H : FVec Ideal S50000x128 .f32) (w : FVec Ideal S128x128 .f32) (b : FVec Ideal S128 .f32)
    (n : Fin 50000) (c : Fin 128) :
    addf (Host.dotGeneral dot_S50000x128_S128x128_S50000x128_1_0_0_1_n_n none H w) (rowsOf b) (ix2 n c)
      = Spec.lin (fun n k => H (ix2 n k)) (fun j k => w (ix2 j k)) (fun k => b (ix1 k)) n c := by
  rw [addf_apply, dotT_apply, rowsOf_apply]
  rfl

/-- The table before normalisation at (n, c). -/
theorem preOf_apply (x : FVec Ideal S50000x128 .f32) (e : FVec Ideal S1 .f32) (ag : FVec Ideal S50000x128 .f32)
    (w1 : FVec Ideal S128x128 .f32) (b1 : FVec Ideal S128 .f32) (w2 : FVec Ideal S128x128 .f32) (b2 : FVec Ideal S128 .f32)
    (wr : FVec Ideal S128x128 .f32) (br : FVec Ideal S128 .f32) (n : Fin 50000) (c : Fin 128) :
    preOf x e ag w1 b1 w2 b2 wr br (ix2 n c)
      = Spec.lin
          (fun n c => max (Spec.lin (fun n k => hOfT x e ag (ix2 n k)) (fun j k => w1 (ix2 j k)) (fun k => b1 (ix1 k)) n c) Spec.zero)
          (fun j k => w2 (ix2 j k)) (fun k => b2 (ix1 k)) n c
        + Spec.lin (fun n k => x (ix2 n k)) (fun j k => wr (ix2 j k)) (fun k => br (ix1 k)) n c := by
  unfold preOf
  rw [addf_apply, linT_apply, linT_apply]
  refine congrArg (· + _) ?_
  refine congrArg (fun h => Spec.lin h _ _ n c) ?_
  funext n' k
  rw [maximumf_apply, linT_apply, zerosT_apply]

/-- A column's mean. -/
theorem meanOf_apply (O : FVec Ideal S50000x128 .f32) (c : Fin 128) :
    meanOf O (ix1 c) = Spec.meanR (fun n c => O (ix2 n c)) c := by
  unfold meanOf Spec.meanR
  rw [hostDivf_apply, colSum_apply, broadcastInDim_scalar_apply]
  rfl

/-- The table less its column's mean, at (n, c). -/
theorem centredOf_apply (O : FVec Ideal S50000x128 .f32) (n : Fin 50000) (c : Fin 128) :
    centredOf O (ix2 n c) = O (ix2 n c) - Spec.meanR (fun n c => O (ix2 n c)) c := by
  unfold centredOf Spec.meanR
  rw [subf_apply, rowsFrom1_apply, hostDivf_apply, rows1_apply, colSum_apply, broadcastInDim_scalar_apply]
  rfl

/-- A column's variance, as the variance routine called with the word 0 states it. -/
theorem varOf_apply (O : FVec Ideal S50000x128 .f32) (c : Fin 128) :
    varOf O (constantI S_ 32 0#32) (ix1 c) = Spec.varR (fun n c => O (ix2 n c)) c := by
  unfold varOf Spec.varR
  rw [select_apply, hostDivf_apply, colSum_apply]
  simp only [broadcastInDim_scalar_apply, mulf_apply, centredOf_apply]
  rfl

/-- The normalised, scaled, shifted and rectified table at (n, c). -/
theorem outOf_apply (O : FVec Ideal S50000x128 .f32) (mu va g b : FVec Ideal S128 .f32) (n : Fin 50000) (c : Fin 128) :
    outOf O mu va g b (ix2 n c)
      = max ((((O (ix2 n c) - mu (ix1 c)) * Ideal.rsqrt (va (ix1 c) + Spec.bnEps)) * g (ix1 c)) + b (ix1 c)) Spec.zero := by
  unfold outOf
  rw [maximumf_apply, addf_apply, mulf_apply, mulf_apply, subf_apply, zerosT_apply]
  simp only [rowsOf_apply]
  rfl

end Cert.ReferenceIdeal.RefValue

end
-- ==== Proof.RefValue.lean ====
/-
  The reference's result read entry by entry: it is the specification's `refOut` of the arguments' entries.
-/
import proofs.«163893_j72421738545669_2_alg».proof.Proof.RefRun
import proofs.«163893_j72421738545669_2_alg».proof.Proof.RefRead

noncomputable section

open scoped BigOperators

namespace Cert.ReferenceIdeal.RefValue

open Cert.ReferenceIdeal Cert.ReferenceIdeal.Gen Cert.ReferenceIdeal.RefRun Idealize.ShloMosaic Idealize.ShloMosaic.ValueIdx
  Idealize.ShloMosaic.TcCoe Idealize.SL.Sem

/-- The specification's arguments, of the fourteen arrays: their entries by coordinates; the gathered source rows
    are the gather's result, an edge's destination word is the scatters' index column at that edge. -/
def argsOf (a0 : FVec Ideal S50000x128 .f32) (a1 : IVec S2x1600000 32) (a2 : FVec Ideal S1600000x1 .f32)
    (a3 : FVec Ideal S1x128 .f32) (a4 : FVec Ideal S128 .f32) (a5 : FVec Ideal S128x128 .f32) (a6 : FVec Ideal S128 .f32)
    (a7 : FVec Ideal S128x128 .f32) (a8 : FVec Ideal S128 .f32) (a9 : FVec Ideal S128x128 .f32) (a10 : FVec Ideal S128 .f32)
    (a11 : FVec Ideal S1 .f32) (a12 a13 : FVec Ideal S128 .f32) : Cert.Spec.Args where
  x := fun n k => a0 (ix2 n k)
  gx := fun e k => gathered a0 a1 (ix2 e k)
  dst := fun e => dstIdx a1 (ix2 e 0)
  ea := fun e => a2 (ix2 e 0)
  ew := fun k => a3 (ix2 0 k)
  eb := fun k => a4 (ix1 k)
  w1 := fun j k => a5 (ix2 j k)
  b1 := fun k => a6 (ix1 k)
  w2 := fun j k => a7 (ix2 j k)
  b2 := fun k => a8 (ix1 k)
  wr := fun j k => a9 (ix2 j k)
  br := fun k => a10 (ix1 k)
  eps := a11 (ix1 0)
  gamma := fun k => a12 (ix1 k)
  beta := fun k => a13 (ix1 k)

/-- The table before normalisation is the specification's `preR`. -/
theorem preT_apply (a0 : FVec Ideal S50000x128 .f32) (a1 : IVec S2x1600000 32) (a2 : FVec Ideal S1600000x1 .f32)
    (a3 : FVec Ideal S1x128 .f32) (a4 : FVec Ideal S128 .f32) (a5 : FVec Ideal S128x128 .f32) (a6 : FVec Ideal S128 .f32)
    (a7 : FVec Ideal S128x128 .f32) (a8 : FVec Ideal S128 .f32) (a9 : FVec Ideal S128x128 .f32) (a10 : FVec Ideal S128 .f32)
    (a11 : FVec Ideal S1 .f32) (a12 a13 : FVec Ideal S128 .f32) (n : Fin 50000) (c : Fin 128) :
    preT a0 a1 a2 a3 a4 a5 a6 a7 a8 a9 a10 a11 (ix2 n c)
      = Spec.preR (argsOf a0 a1 a2 a3 a4 a5 a6 a7 a8 a9 a10 a11 a12 a13) n c := by
  unfold preT
  rw [preOf_apply]
  have hh : (fun n k => hOfT a0 a11 (aggrOf zerosT (dstIdx a1) (msgs a0 a1 a2 a3 a4) (dstWords a1)) (ix2 n k))
      = Spec.hOf (argsOf a0 a1 a2 a3 a4 a5 a6 a7 a8 a9 a10 a11 a12 a13)
          (Spec.aggrR (argsOf a0 a1 a2 a3 a4 a5 a6 a7 a8 a9 a10 a11 a12 a13)) := by
    funext n' k
    rw [hOfT_apply, aggrOf_apply zerosT (dstIdx a1) (msgs a0 a1 a2 a3 a4) (dstWords a1) rfl n' k, zerosT_apply]
    have hs : (∑ e ∈ Spec.seg (fun e => dstIdx a1 (ix2 e 0)) n', msgs a0 a1 a2 a3 a4 (ix2 e k))
        = ∑ e ∈ Spec.seg (fun e => dstIdx a1 (ix2 e 0)) n',
            (gathered a0 a1 (ix2 e k) + (a2 (ix2 e 0) * a3 (ix2 0 k) + a4 (ix1 k))) :=
      Finset.sum_congr rfl fun e _ => msgs_apply a0 a1 a2 a3 a4 e k
    rw [hs]
    rfl
  rw [hh]
  rfl

/-- The reference's composed term is the specification's `refOut`, entry by entry. -/
theorem resOf_eq (a0 : FVec Ideal S50000x128 .f32) (a1 : IVec S2x1600000 32) (a2 : FVec Ideal S1600000x1 .f32)
    (a3 : FVec Ideal S1x128 .f32) (a4 : FVec Ideal S128 .f32) (a5 : FVec Ideal S128x128 .f32) (a6 : FVec Ideal S128 .f32)
    (a7 : FVec Ideal S128x128 .f32) (a8 : FVec Ideal S128 .f32) (a9 : FVec Ideal S128x128 .f32) (a10 : FVec Ideal S128 .f32)
    (a11 : FVec Ideal S1 .f32) (a12 a13 : FVec Ideal S128 .f32) :
    resOf a0 a1 a2 a3 a4 a5 a6 a7 a8 a9 a10 a11 a12 a13
      = fun i => Spec.refOut (argsOf a0 a1 a2 a3 a4 a5 a6 a7 a8 a9 a10 a11 a12 a13) (i 0) (i 1) := by
  funext i
  obtain ⟨n, c, rfl⟩ : ∃ (n : Fin 50000) (c : Fin 128), i = ix2 n c := ⟨i 0, i 1, eq_ix2 i⟩
  have hP : (fun n c => preT a0 a1 a2 a3 a4 a5 a6 a7 a8 a9 a10 a11 (ix2 n c))
      = Spec.preR (argsOf a0 a1 a2 a3 a4 a5 a6 a7 a8 a9 a10 a11 a12 a13) := by
    funext n' c'; exact preT_apply a0 a1 a2 a3 a4 a5 a6 a7 a8 a9 a10 a11 a12 a13 n' c'
  unfold resOf
  rw [outOf_apply, meanOf_apply, varOf_apply, hP, preT_apply a0 a1 a2 a3 a4 a5 a6 a7 a8 a9 a10 a11 a12 a13 n c]
  rfl

/-- The specification's arguments on device `c`, of the launch memory. -/
def args (m : (ℓ : Loc nD τ sig) → Buf (Elt Ideal) ℓ) (c : Dev nD) : Cert.Spec.Args :=
  argsOf
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13))

/-- The result the run names is `refOut` of those arguments. -/
theorem res_eq (m : (ℓ : Loc nD τ sig) → Buf (Elt Ideal) ℓ) (c : Dev nD) :
    RefRun.res m c = fun i => Cert.Spec.refOut (args m c) (i 0) (i 1) :=
  resOf_eq _ _ _ _ _ _ _ _ _ _ _ _ _ _

/-- From any memory with zero counters: every weakly fair execution of the reference terminates with the result buffer
    at `refOut` of the arguments' entries, and the fourteen arguments as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v66) = (fun i => Cert.Spec.refOut (args m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c).1.trans (res_eq m c), (h c).2⟩) (RefRun.run m ρ)

end Cert.ReferenceIdeal.RefValue

end
-- ==== Proof.MathBasics.lean ====
/-
  Finite extended reals. The algebra that joins the two programs — distributing a product over a sum, expanding a
  square, folding a scale and a shift — holds on the reals and fails at the infinities, so it is done on real
  witnesses: an extended real that is the image of a real is called finite here, and sums, products, differences,
  maxima and quotients by a nonzero real of finite values are finite. Also: the literal words' values, and a sum over
  50000 rows cut into 25 blocks of 2000.
-/
import Idealize.ShloMosaic.PureOps.Ideal
import proofs.«163893_j72421738545669_2_alg».proof.Proof.Spec

noncomputable section

open scoped BigOperators
open Idealize.ShloMosaic

namespace Cert.Math

/-- An extended real that is a real. -/
def IsR (v : EReal) : Prop := ∃ r : ℝ, v = (r : EReal)

theorem IsR.coe (r : ℝ) : IsR (r : EReal) := ⟨r, rfl⟩
theorem IsR.add {a b : EReal} (ha : IsR a) (hb : IsR b) : IsR (a + b) := by
  obtain ⟨x, rfl⟩ := ha; obtain ⟨y, rfl⟩ := hb; exact ⟨x + y, (EReal.coe_add x y).symm⟩
theorem IsR.mul {a b : EReal} (ha : IsR a) (hb : IsR b) : IsR (a * b) := by
  obtain ⟨x, rfl⟩ := ha; obtain ⟨y, rfl⟩ := hb; exact ⟨x * y, (EReal.coe_mul x y).symm⟩
theorem IsR.sub {a b : EReal} (ha : IsR a) (hb : IsR b) : IsR (a - b) := by
  obtain ⟨x, rfl⟩ := ha; obtain ⟨y, rfl⟩ := hb; exact ⟨x - y, (EReal.coe_sub x y).symm⟩

/-- The maximum of two reals, in the extended reals. -/
theorem coe_max (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]
theorem IsR.max {a b : EReal} (ha : IsR a) (hb : IsR b) : IsR (max a b) := by
  obtain ⟨x, rfl⟩ := ha; obtain ⟨y, rfl⟩ := hb; exact ⟨_, coe_max x y⟩

/-- The image of a finite sum of reals is the sum of the images. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]
theorem IsR.sum {ι : Type} (s : Finset ι) (f : ι → EReal) (h : ∀ i ∈ s, IsR (f i)) : IsR (∑ i ∈ s, f i) := by
  classical
  choose! g hg using h
  exact ⟨∑ i ∈ s, g i, by rw [coe_sum]; exact Finset.sum_congr rfl hg⟩

/-- The quotient by a nonzero real. -/
theorem div_real (a b : ℝ) (hb : b ≠ 0) : Ideal.div (a : EReal) (b : EReal) = ((a / b : ℝ) : EReal) := by
  rw [Ideal.div_coe hb, ← EReal.coe_mul, mul_one_div]
theorem IsR.div {a : EReal} (ha : IsR a) (b : ℝ) (hb : b ≠ 0) : IsR (Ideal.div a (b : EReal)) := by
  obtain ⟨x, rfl⟩ := ha; exact ⟨_, div_real x b hb⟩

/-! ## The literal words -/

theorem one_eq : Cert.Spec.one = ((1 : ℝ) : EReal) := by
  simp [Cert.Spec.one, Ideal.ofBits, Ideal.ieee, -EReal.coe_mul]; norm_num
theorem zero_eq : Cert.Spec.zero = ((0 : ℝ) : EReal) := by
  simp [Cert.Spec.zero, Ideal.ofBits, Ideal.ieee]
theorem count_eq : Cert.Spec.count = ((50000 : ℝ) : EReal) := by
  simp [Cert.Spec.count, Ideal.ofBits, Ideal.ieee, -EReal.coe_mul]; norm_num
theorem ddof_eq : Cert.Spec.ddof = ((0 : ℝ) : EReal) := by
  simp [Cert.Spec.ddof]
/-- The normalisation's small constant is a positive real. -/
theorem bnEps_pos : ∃ e : ℝ, 0 < e ∧ Cert.Spec.bnEps = (e : EReal) := by
  refine ⟨(10995116 : ℝ) * (2 : ℝ) ^ (-40 : Int), by positivity, ?_⟩
  simp [Cert.Spec.bnEps, Ideal.ofBits, Ideal.ieee, -EReal.coe_mul]

/-! ## Rows in blocks -/

/-- A sum over the 50000 rows is the sum over the 25 blocks of the sums over each block's 2000 rows. -/
theorem sum_blocks {M : Type} [AddCommMonoid M] (f : Fin 50000 → M) :
    ∑ t : Fin 25, ∑ j : Fin 2000, f (Cert.Spec.row t j) = ∑ n : Fin 50000, f n := by
  rw [← Fintype.sum_prod_type']
  refine Fintype.sum_equiv (finProdFinEquiv (m := 25) (n := 2000)) _ _ ?_
  rintro ⟨t, j⟩
  refine congrArg f (Fin.ext ?_)
  simp [Cert.Spec.row, finProdFinEquiv]
  omega

end Cert.Math

end
-- ==== Proof.PreFinite.lean ====
/-
  What the precondition gives. The precondition says, array by array, that every entry's absolute value is below
  `+∞`, all conjoined into one bit. An extended real whose absolute value `max x (-x)` is below `⊤` is neither
  `⊤` nor `⊥`: it is a real. So under the precondition every entry of every float argument is a real.
-/
import proofs.«163893_j72421738545669_2_alg».proof.Pre_finite_inputs
import proofs.«163893_j72421738545669_2_alg».proof.Proof.MathBasics
import Idealize.ShloMosaic.Lib.ReduceAll
import Idealize.ShloMosaic.Lib.Affine
import Idealize.ShloMosaic.Lib.ValueIdx

noncomputable section

open Idealize.ShloMosaic

namespace Cert.PreFinite

open Cert.Pre_finite_inputs Cert.Math

/-- The scalar shape has one index. -/
instance : Subsingleton S_.Idx := ⟨fun a b => funext fun d => d.elim0⟩

/-- An extended real whose absolute value is below the `+∞` word is a real. -/
theorem isR_of_abs_lt (x : EReal) (h : Ideal.cmp .olt (max x (-x)) (Ideal.ofBits .f32 0x7F800000#32) = 1#1) : IsR x := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

variable [Facts]

/-- Under the precondition every float argument's every entry is a real. -/
theorem finite_of_fn (a0 : FVec Ideal S50000x128 .f32) (a1 : IVec S2x1600000 32) (a2 : FVec Ideal S1600000x1 .f32)
    (a3 : FVec Ideal S1x128 .f32) (a4 : FVec Ideal S128 .f32) (a5 : FVec Ideal S128x128 .f32) (a6 : FVec Ideal S128 .f32)
    (a7 : FVec Ideal S128x128 .f32) (a8 : FVec Ideal S128 .f32) (a9 : FVec Ideal S128x128 .f32) (a10 : FVec Ideal S128 .f32)
    (a11 : FVec Ideal S1 .f32) (a12 : FVec Ideal S128 .f32) (a13 : FVec Ideal S128 .f32)
    (h : fn (F := Ideal) a0 a1 a2 a3 a4 a5 a6 a7 a8 a9 a10 a11 a12 a13 = fun _ => 1#1) :
    (∀ i, IsR (a0 i)) ∧ (∀ i, IsR (a2 i)) ∧ (∀ i, IsR (a3 i)) ∧ (∀ i, IsR (a4 i)) ∧ (∀ i, IsR (a5 i)) ∧ (∀ i, IsR (a6 i))
      ∧ (∀ i, IsR (a7 i)) ∧ (∀ i, IsR (a8 i)) ∧ (∀ i, IsR (a9 i)) ∧ (∀ i, IsR (a10 i)) ∧ (∀ i, IsR (a11 i))
      ∧ (∀ i, IsR (a12 i)) ∧ (∀ i, IsR (a13 i)) := by
  have h0 := congrFun h ValueIdx.ix0
  dsimp only [fn, fn_part1, fn_part2, fn_part3] at h0
  simp only [andi, IntOp.andi_eq_one] at h0
  obtain ⟨⟨⟨⟨⟨⟨⟨⟨⟨⟨⟨⟨e0, e2⟩, e3⟩, e4⟩, e5⟩, e6⟩, e7⟩, e8⟩, e9⟩, e10⟩, e11⟩, e12⟩, e13⟩ := h0
  exact ⟨fun i => isR_of_abs_lt _ (Host.reduce_andi_all _ _ _ _ _ e0 i), fun i => isR_of_abs_lt _ (Host.reduce_andi_all _ _ _ _ _ e2 i),
    fun i => isR_of_abs_lt _ (Host.reduce_andi_all _ _ _ _ _ e3 i), fun i => isR_of_abs_lt _ (Host.reduce_andi_all _ _ _ _ _ e4 i),
    fun i => isR_of_abs_lt _ (Host.reduce_andi_all _ _ _ _ _ e5 i), fun i => isR_of_abs_lt _ (Host.reduce_andi_all _ _ _ _ _ e6 i),
    fun i => isR_of_abs_lt _ (Host.reduce_andi_all _ _ _ _ _ e7 i), fun i => isR_of_abs_lt _ (Host.reduce_andi_all _ _ _ _ _ e8 i),
    fun i => isR_of_abs_lt _ (Host.reduce_andi_all _ _ _ _ _ e9 i), fun i => isR_of_abs_lt _ (Host.reduce_andi_all _ _ _ _ _ e10 i),
    fun i => isR_of_abs_lt _ (Host.reduce_andi_all _ _ _ _ _ e11 i), fun i => isR_of_abs_lt _ (Host.reduce_andi_all _ _ _ _ _ e12 i),
    fun i => isR_of_abs_lt _ (Host.reduce_andi_all _ _ _ _ _ e13 i)⟩

end Cert.PreFinite

end
-- ==== Proof.LibCount.lean ====
/-
  The counting scatter, over any spelling of its operands: a vector that is the word `0` at every entry, updates that
  are the word `1` at every entry. Adding them up per destination row leaves the size of the row's segment.
-/
import proofs.«163893_j72421738545669_2_alg».proof.Proof.LibSegment

noncomputable section

open scoped BigOperators
open Idealize.ShloMosaic Idealize.ShloMosaic.ValueIdx

namespace Cert.LibSegment

theorem scatterCount_apply' (d : ScatterDims ⟨1, ![50000]⟩ ⟨2, ![1600000, 1]⟩ ⟨1, ![1600000]⟩)
    (h1 : d.updateWindowDims = []) (h2 : d.insertedWindowDims = [0]) (h3 : d.scatterDimsToOperandDims = [0]) (h4 : d.indexVectorDim = 1)
    (f : BitVec 32 → BitVec 32 → BitVec 32) (hf : ∀ a b, f a b = a + b) (idx : IVec ⟨2, ![1600000, 1]⟩ 32)
    (z : IVec ⟨1, ![50000]⟩ 32) (o : IVec ⟨1, ![1600000]⟩ 32) (hz : ∀ i, z i = 0#32) (ho : ∀ j, o j = 1#32) (n : Fin 50000) :
    (Host.scatter d f z idx o (ix1 n)).toInt = ((Cert.Spec.seg (fun e => idx (ix2 e 0)) n).card : Int) := by
  have ez : z = fun _ => 0#32 := funext hz
  have eo : o = fun _ => 1#32 := funext ho
  rw [ez, eo]
  exact scatterCount_apply d h1 h2 h3 h4 f hf idx n

/-- The converted count at row `n`: the segment's size as a real. -/
theorem sitofp_count (d : ScatterDims ⟨1, ![50000]⟩ ⟨2, ![1600000, 1]⟩ ⟨1, ![1600000]⟩)
    (h1 : d.updateWindowDims = []) (h2 : d.insertedWindowDims = [0]) (h3 : d.scatterDimsToOperandDims = [0]) (h4 : d.indexVectorDim = 1)
    (idx : IVec ⟨2, ![1600000, 1]⟩ 32) (z : IVec ⟨1, ![50000]⟩ 32) (o : IVec ⟨1, ![1600000]⟩ 32)
    (hz : ∀ i, z i = 0#32) (ho : ∀ j, o j = 1#32) (n : Fin 50000) :
    sitofp (F := Ideal) .f32 (Host.scatter d IntOp.addi z idx o) (ix1 n)
      = (((Cert.Spec.seg (fun e => idx (ix2 e 0)) n).card : ℝ) : EReal) := by
  show (((Host.scatter d IntOp.addi z idx o (ix1 n)).toInt : ℝ) : EReal) = _
  rw [scatterCount_apply' d h1 h2 h3 h4 IntOp.addi (fun _ _ => rfl) idx z o hz ho n, Int.cast_natCast]

end Cert.LibSegment

end
-- ==== Proof.MathAggr.lean ====
/-
  The aggregate. Over a row's segment S the reference sums the messages `gx e c + (ea e · ew c + eb c)`; the kernel
  sums `gx e c` and `ea e` separately and counts S. With finite `ea`, `ew`, `eb`,
      ∑_S (gx e c + (ea e · ew c + eb c)) = ∑_S gx e c + (∑_S ea e) · ew c + |S| · eb c,
  (the sum of the gathered rows needs no finiteness: addition alone is commutative and associative on the extended
  reals), and both programs divide by `max |S| 1`. So the two aggregated tables are one table, and so are the two
  tables before normalisation; with finite arguments every entry of that table is finite.
-/
import proofs.«163893_j72421738545669_2_alg».proof.Proof.MathBasics

noncomputable section

open scoped BigOperators
open Idealize.ShloMosaic Cert.Spec

namespace Cert.Math

/-- Every entry of every float argument is a real. -/
structure Finite (A : Args) : Prop where
  x : ∀ n c, IsR (A.x n c)
  gx : ∀ e c, IsR (A.gx e c)
  ea : ∀ e, IsR (A.ea e)
  ew : ∀ c, IsR (A.ew c)
  eb : ∀ c, IsR (A.eb c)
  w1 : ∀ j k, IsR (A.w1 j k)
  b1 : ∀ c, IsR (A.b1 c)
  w2 : ∀ j k, IsR (A.w2 j k)
  b2 : ∀ c, IsR (A.b2 c)
  wr : ∀ j k, IsR (A.wr j k)
  br : ∀ c, IsR (A.br c)
  eps : IsR A.eps
  gamma : ∀ c, IsR (A.gamma c)
  beta : ∀ c, IsR (A.beta c)

/-- A segment's size as the reference sums it: ones added up. -/
theorem cntR_eq (A : Args) (n : Fin 50000) : cntR A n = (((seg A.dst n).card : ℝ) : EReal) := by
  unfold cntR
  rw [zero_eq, one_eq, ← coe_sum (seg A.dst n) (fun _ => (1 : ℝ)), ← EReal.coe_add]
  rw [Finset.sum_const, nsmul_eq_mul, mul_one, zero_add]

/-- The summed messages split into the three segment sums. -/
theorem sumsR_eq (A : Args) (hF : Finite A) (n : Fin 50000) (c : Fin 128) :
    sumsR A n c = (segx A n c + sega A n * A.ew c) + (((seg A.dst n).card : ℝ) : EReal) * A.eb c := by
  obtain ⟨a, ha⟩ : ∃ a : Fin 1600000 → ℝ, ∀ e, A.ea e = (a e : EReal) := ⟨fun e => (hF.ea e).choose, fun e => (hF.ea e).choose_spec⟩
  obtain ⟨w, hw⟩ := hF.ew c
  obtain ⟨b, hb⟩ := hF.eb c
  have h1 : ∑ e ∈ seg A.dst n, A.ea e * A.ew c = (∑ e ∈ seg A.dst n, A.ea e) * A.ew c := by
    simp only [ha, hw]
    rw [← coe_sum, ← EReal.coe_mul, Finset.sum_mul, coe_sum]
    exact Finset.sum_congr rfl fun e _ => (EReal.coe_mul _ _).symm
  have h2 : ∑ _e ∈ seg A.dst n, A.eb c = (((seg A.dst n).card : ℝ) : EReal) * A.eb c := by
    rw [hb, ← coe_sum (seg A.dst n) (fun _ => b), ← EReal.coe_mul, Finset.sum_const, nsmul_eq_mul]
  unfold sumsR segx sega msg
  rw [zero_eq, EReal.coe_zero, zero_add, zero_add, zero_add, Finset.sum_add_distrib, Finset.sum_add_distrib, h1, h2, add_assoc]

/-- With the kernel's count the segment's size, the two aggregates are one. -/
theorem aggr_eq (A : Args) (hF : Finite A) (cnt : Fin 50000 → EReal)
    (hcnt : ∀ n, cnt n = (((seg A.dst n).card : ℝ) : EReal)) : aggrK A cnt = aggrR A := by
  funext n c
  unfold aggrK aggrR
  rw [sumsR_eq A hF, cntR_eq, hcnt]

/-- So the two tables before normalisation are one. -/
theorem pre_eq (A : Args) (hF : Finite A) (cnt : Fin 50000 → EReal)
    (hcnt : ∀ n, cnt n = (((seg A.dst n).card : ℝ) : EReal)) : preK A cnt = preR A := by
  unfold preK preR
  rw [aggr_eq A hF cnt hcnt]

/-! ## Every entry of the table before normalisation is finite -/

theorem isR_one : IsR one := ⟨1, one_eq⟩
theorem isR_zero : IsR zero := ⟨0, zero_eq⟩

theorem isR_lin {h : Fin 50000 → Fin 128 → EReal} {w : Fin 128 → Fin 128 → EReal} {b : Fin 128 → EReal}
    (hh : ∀ n k, IsR (h n k)) (hw : ∀ j k, IsR (w j k)) (hb : ∀ k, IsR (b k)) (n : Fin 50000) (c : Fin 128) :
    IsR (lin h w b n c) :=
  IsR.add (IsR.sum _ _ fun k _ => IsR.mul (hh n k) (hw k c)) (hb c)

theorem isR_aggrR (A : Args) (hF : Finite A) (n : Fin 50000) (c : Fin 128) : IsR (aggrR A n c) := by
  unfold aggrR
  rw [cntR_eq, one_eq, coe_max]
  refine IsR.div ?_ _ (ne_of_gt (lt_of_lt_of_le one_pos (le_max_right _ _)))
  unfold sumsR msg
  exact IsR.add isR_zero (IsR.sum _ _ fun e _ => IsR.add (hF.gx e c) (IsR.add (IsR.mul (hF.ea e) (hF.ew c)) (hF.eb c)))

theorem isR_preR (A : Args) (hF : Finite A) (n : Fin 50000) (c : Fin 128) : IsR (preR A n c) := by
  unfold preR outPre
  refine IsR.add (isR_lin (fun n k => IsR.max (isR_lin (fun n k => ?_) hF.w1 hF.b1 n k) isR_zero) hF.w2 hF.b2 n c)
    (isR_lin hF.x hF.wr hF.br n c)
  unfold hOf
  exact IsR.add (IsR.mul (IsR.add isR_one hF.eps) (hF.x n k)) (isR_aggrR A hF n k)

end Cert.Math

end
-- ==== Proof.BridgeArgs.lean ====
/-
  The two programs' arguments, and the kernel's count. On memories that agree on the fourteen argument arrays the
  reference's and the kernel's argument entries are the same functions (the gathered rows and the destination words
  are built by the same operations of the same arrays); under the precondition every one of them is finite (a
  gathered row is a row of `x`); and the kernel's integer count, converted, is the size of each row's segment.
-/
import proofs.«163893_j72421738545669_2_alg».proof.Defs
import proofs.«163893_j72421738545669_2_alg».proof.Proof.KerVal0Args
import proofs.«163893_j72421738545669_2_alg».proof.Proof.RefValue
import proofs.«163893_j72421738545669_2_alg».proof.Proof.PreFinite
import proofs.«163893_j72421738545669_2_alg».proof.Proof.LibSegment
import proofs.«163893_j72421738545669_2_alg».proof.Proof.LibCount
import proofs.«163893_j72421738545669_2_alg».proof.Proof.MathAggr

noncomputable section

open Idealize.ShloMosaic Idealize.ShloMosaic.TcCoe Idealize.SL.Sem Idealize.ShloMosaic.ValueIdx

namespace Cert.Bridge

/-- Under the precondition every entry of the kernel's arguments is finite. -/
theorem finite_args [Cert.Pre_finite_inputs.Facts] [Cert.KernelIdeal.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) : Cert.Math.Finite (Cert.KernelIdeal.KerVal0.args m c) := by
  obtain ⟨h0, h2, h3, h4, h5, h6, h7, h8, h9, h10, h11, h12, h13⟩ :=
    Cert.PreFinite.finite_of_fn _ _ _ _ _ _ _ _ _ _ _ _ _ _ (hpre c)
  exact
    { x := fun n k => h0 _, gx := fun e k => h0 _, ea := fun e => h2 _, ew := fun k => h3 _, eb := fun k => h4 _,
      w1 := fun j k => h5 _, b1 := fun k => h6 _, w2 := fun j k => h7 _, b2 := fun k => h8 _, wr := fun j k => h9 _,
      br := fun k => h10 _, eps := h11 _, gamma := fun k => h12 _, beta := fun k => h13 _ }

/-- The kernel's count is the size of each row's segment. -/
theorem cnt_eq [Cert.KernelIdeal.Facts]
    (m : (ℓ : Loc Cert.KernelIdeal.nD Cert.KernelIdeal.τ Cert.KernelIdeal.sig) → Buf (Elt Ideal) ℓ)
    (c : Dev Cert.KernelIdeal.nD) (n : Fin 50000) :
    Cert.KernelIdeal.KerVal0.cnt m c n
      = (((Cert.Spec.seg (Cert.KernelIdeal.KerVal0.args m c).dst n).card : ℝ) : EReal) := by
  unfold Cert.KernelIdeal.KerVal0.cnt Cert.KernelIdeal.KerVal0.cntT
  exact Cert.LibSegment.sitofp_count _ rfl rfl rfl rfl _ _ _ (fun _ => rfl) (fun _ => rfl) n

/-- On memories that agree on the arguments, the reference's argument entries are the kernel's. -/
theorem args_agree [Cert.KernelIdeal.Facts] [Cert.ReferenceIdeal.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.ReferenceIdeal.RefValue.args m' c = Cert.KernelIdeal.KerVal0.args m c := by
  obtain ⟨h0, h1, h2, h3, h4, h5, h6, h7, h8, h9, h10, h11, h12, h13⟩ := h
  unfold Cert.ReferenceIdeal.RefValue.args
  rw [h0, h1, h2, h3, h4, h5, h6, h7, h8, h9, h10, h11, h12, h13]
  rfl

end Cert.Bridge

end
-- ==== Proof.KerRun.lean ====
/-
  The idealized kernel's run with its result array named.

  @main is four segments: the host operations before the first launch, the first launch (25 grid points, blocks
  of 2000 rows), the host operations between the launches, and the second launch (10 grid points, blocks of 5000
  rows). The contents of every buffer at each boundary are a fold from the launch memory: `W1` after the first
  stretch, `W2` with the first launch's arrays at what its write-backs leave, `W3` after the second stretch, `W4`
  with the second launch's arrays at what its write-backs leave. The run over these segments ends with EVERY
  unscoped buffer at `W4`; read at the fourteen arguments this is the frame claim, and read at the result buffer
  `main_v52` it names the result: the output array of the second launch after its ten write-backs.
-/
import proofs.«163893_j72421738545669_2_alg».proof.Proof.PatchedFrameKernelIdeal

set_option maxRecDepth 16384

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; afterwards the result buffer holds what the
    fold `W4` holds at it, and the fourteen argument arrays are as launched. -/
theorem run_result : θ_run defs (onTc (τ := τ) (main (F := F))) ⟨m, fun _ => 0, ρ⟩ (fun r => ∀ c : Dev nD,
      r.2.mem ((c.tc : Thread nD τ).loc main_v52) = W4 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v52 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c)⟩)

/-- The result buffer is the array of the second launch's output window (window 3), so the fold at it is that
    window's array after all ten grid points have written back. -/
theorem result_arr (c : Dev nD) :
    W4 m ρ c (Proc.devRef .tc main_v52) = (dat1 (V3 m ρ) c).arrAt 3 cfg1.N :=
  W4_arr m ρ c 3

end Cert.KernelIdeal.KerRun

end
-- ==== Proof.KerVal1Pay.lean ====
/-
  The second launch's body at one entry.

  At a grid point the body loads its block of 5000 rows, a scale row and a shift row (one entry per column),
  multiplies every entry of the block by its column's scale, adds its column's shift, and cuts the result below
  at zero. Read at row r and column k of the block this is  max (o r k · scale k + shift k) 0 : the row broadcasts
  read the row vectors at column k whatever the row, and the shape casts between equal shapes are the identity.
-/
import proofs.«163893_j72421738545669_2_alg».proof.Proof.Gen.KernelIdeal.Skeleton
import proofs.«163893_j72421738545669_2_alg».proof.Proof.Spec
import Idealize.ShloMosaic.Lib.ValueIdx
import Idealize.ShloMosaic.Lib.Pipeline.Value

noncomputable section

namespace Cert.KernelIdeal.KerVal1

open Cert.KernelIdeal Cert.KernelIdeal.Gen
open Idealize.ShloMosaic Idealize.ShloMosaic.ValueIdx

/-- A row of 128 entries spread over 5000 rows reads, at row r and column k, the row's entry k. -/
theorem rowSpread_apply (v : Vec Ideal S1x128 .f32) (r : Fin 5000) (k : Fin 128) :
    broadcastTo S5000x128 (shapeCast S1x128 v shapeCasts_S1x128_S1x128) broadcasts_S1x128_S5000x128 (ix2 r k) = v (ix2 0 k) := by
  rw [shapeCast_self]
  refine broadcastTo_apply v _ (ix2 r k) (ix2 0 k) fun a => ?_
  match a with
  | ⟨0, _⟩ => rfl
  | ⟨1, _⟩ => rfl

/-- The second body's stored value at row r, column k of its block: the block's entry times the scale row's
    entry k, plus the shift row's entry k, cut below at zero. -/
theorem pay_apply (o : Vec Ideal S5000x128 .f32) (sc sh : Vec Ideal S1x128 .f32) (r : Fin 5000) (k : Fin 128) :
    k1_pay1 o sc sh (ix2 r k) = max (o (ix2 r k) * sc (ix2 0 k) + sh (ix2 0 k)) Cert.Spec.zero := by
  unfold k1_pay1
  rw [maximumf_apply, addf_apply, mulf_apply, rowSpread_apply, rowSpread_apply, shapeCast_self]
  rfl

end Cert.KernelIdeal.KerVal1

end
-- ==== Proof.KerVal1Blocks.lean ====
/-
  The second launch, from blocks to the whole array.

  The launch runs the body at ten grid points. At point t the input table's window and the output's window are both
  at block (t, 0) — rows 5000·t … 5000·t + 4999, all 128 columns — and the scale and shift rows stay at their one
  block. So what point t writes back is block t of ONE function of the three arrays the launch reads: the table's
  entry times its column's scale, plus its column's shift, cut below at zero. The ten blocks tile the 50000 rows
  (row n lies in block n / 5000), so after the ten write-backs the output array IS that function.

  Everything is stated at a parameter `V`, the buffers' contents when the launch is entered.
-/
import proofs.«163893_j72421738545669_2_alg».proof.Proof.PatchedFrameKernelIdeal
import proofs.«163893_j72421738545669_2_alg».proof.Proof.KerVal1Pay
import Idealize.ShloMosaic.Lib.Pipeline.Value

set_option maxRecDepth 16384

noncomputable section

namespace Cert.KernelIdeal.KerVal1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the second launch's output array ends holding, as one function of the three arrays it reads: the table
    entry times its column's scale plus its column's shift, cut below at zero. -/
abbrev G1 (o : S50000x128.Idx → EReal) (sc sh : S1x128.Idx → EReal) : S50000x128.Idx → EReal :=
  fun i => max (o i * sc (ix2 0 (i 1)) + sh (ix2 0 (i 1))) Cert.Spec.zero

/-- The printed index maps over the ten grid points: the table's block moves with the output's block, the scale
    and shift rows stay at block (0, 0), and the output's block at point t is (t, 0). -/
theorem idx_facts : ∀ t : Fin cfg1.N, win1_0.index t (0 : Fin 2) = win1_3.index t (0 : Fin 2)
    ∧ win1_0.index t (1 : Fin 2) = win1_3.index t (1 : Fin 2)
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One entry of one block: if the loaded block's entry j is the table's entry i, the loaded rows are the scale and
    shift rows, and i lies in column (j 1), the stored value at j is `G1` at i. -/
theorem point_eq (o : Vec Ideal S5000x128 .f32) (sc sh : Vec Ideal S1x128 .f32) (A0 : S50000x128.Idx → EReal)
    (A1 A2 : S1x128.Idx → EReal) (j : S5000x128.Idx) (i : S50000x128.Idx)
    (ho : o j = A0 i) (hsc : ∀ k : Fin 128, sc (ix2 0 k) = A1 (ix2 0 k)) (hsh : ∀ k : Fin 128, sh (ix2 0 k) = A2 (ix2 0 k))
    (hi1 : (i 1).val = (j 1).val) : k1_pay1 o sc sh j = G1 A0 A1 A2 i := by
  obtain ⟨r, k, rfl⟩ : ∃ (r : Fin 5000) (k : Fin 128), j = ix2 r k := ⟨j 0, j 1, eq_ix2 j⟩
  rw [pay_apply, ho, hsc, hsh]
  have hk : (i 1 : Fin 128) = k := Fin.ext hi1
  show max (A0 i * A1 (ix2 0 k) + A2 (ix2 0 k)) _ = max (A0 i * A1 (ix2 0 (i 1)) + A2 (ix2 0 (i 1))) _
  rw [hk]

/-- WHAT POINT t WRITES BACK is block t of `G1` of the arrays as the launch finds them. -/
theorem flushed_eq (c : Dev nD) (t : Fin cfg1.N) :
    (dat1 V c).flushed 3 t = ((cfg1.win 3).blk t).view.read (Elt Ideal) (G1 (V c main_v31_0) (V c main_v50) (V c main_v51)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz]
  obtain ⟨e0, e1, e2, e3, e4, e5, e6, e7⟩ := idx_facts t
  funext j
  show k1_pay1 (iblk1 V c 0 t) (iblk1 V c 1 t) (iblk1 V c 2 t) j = G1 (V c main_v31_0) (V c main_v50) (V c main_v51) (((cfg1.win 3).blk t).view.emb j)
  refine point_eq (iblk1 V c 0 t) (iblk1 V c 1 t) (iblk1 V c 2 t) (V c main_v31_0) (V c main_v50) (V c main_v51) j (((cfg1.win 3).blk t).view.emb j) ?_ (fun k => ?_) (fun k => ?_) ?_
  · show V c main_v31_0 (((cfg1.win 0).blk t).view.emb j) = V c main_v31_0 (((cfg1.win 3).blk t).view.emb j)
    have h0 : ((cfg1.win 0).blk t).view.emb j = ((cfg1.win 3).blk t).view.emb j := by
      funext a; apply Fin.ext
      match a with
      | ⟨0, _⟩ => show win1_0.index t (0 : Fin 2) * 5000 + 1 * (j 0).val = win1_3.index t (0 : Fin 2) * 5000 + 1 * (j 0).val; omega
      | ⟨1, _⟩ => show win1_0.index t (1 : Fin 2) * 128 + 1 * (j 1).val = win1_3.index t (1 : Fin 2) * 128 + 1 * (j 1).val; omega
    rw [h0]
  · show V c main_v50 (((cfg1.win 1).blk t).view.emb (ix2 0 k)) = V c main_v50 (ix2 0 k)
    have h1 : ((cfg1.win 1).blk t).view.emb (ix2 0 k) = ix2 0 k := by
      funext a; apply Fin.ext
      match a with
      | ⟨0, _⟩ => show win1_1.index t (0 : Fin 2) * 1 + 1 * 0 = 0; omega
      | ⟨1, _⟩ => show win1_1.index t (1 : Fin 2) * 128 + 1 * k.val = k.val; omega
    rw [h1]
  · show V c main_v51 (((cfg1.win 2).blk t).view.emb (ix2 0 k)) = V c main_v51 (ix2 0 k)
    have h2 : ((cfg1.win 2).blk t).view.emb (ix2 0 k) = ix2 0 k := by
      funext a; apply Fin.ext
      match a with
      | ⟨0, _⟩ => show win1_2.index t (0 : Fin 2) * 1 + 1 * 0 = 0; omega
      | ⟨1, _⟩ => show win1_2.index t (1 : Fin 2) * 128 + 1 * k.val = k.val; omega
    rw [h2]
  · show win1_3.index t (1 : Fin 2) * 128 + 1 * (j 1).val = (j 1).val
    omega

/-- An index of the array is in point t's block iff each coordinate is in the block's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v52).slice (win1_3.rect t)).set ↔ _
  rw [View.set_slice_whole, Rect.mem_set_unit]
  exact Iff.rfl

/-- The ten blocks of 5000 rows tile the 50000 rows: row n is in the block of point n / 5000. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : grid1.N = 10 := N_1
  have ht : (i 0).val / 5000 < cfg1.N := by show (i 0).val / 5000 < grid1.N; rw [hN]; omega
  obtain ⟨-, -, -, -, -, -, e6, e7⟩ := idx_facts ⟨(i 0).val / 5000, ht⟩
  refine ⟨⟨(i 0).val / 5000, ht⟩, flush1_3 _, ?_⟩
  rw [mem_blk]
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win1_3.index ⟨(i 0).val / 5000, ht⟩ (1 : Fin 2) * 128 ≤ (i 1).val ∧ (i 1).val < win1_3.index ⟨(i 0).val / 5000, ht⟩ (1 : Fin 2) * 128 + 128
    rw [e7]; omega

/-- THE ARRAY after the second launch: `G1` of the three arrays as the launch finds them. -/
theorem final_of_entry (c : Dev nD) :
    (dat1 V c).arrAt 3 cfg1.N = G1 (V c main_v31_0) (V c main_v50) (V c main_v51) :=
  (dat1 V c).arrAt_eq_of_cover 3 _ (fun t _ => flushed_eq V c t) cover

end Cert.KernelIdeal.KerVal1

end
-- ==== Proof.KerMid.lean ====
/-
  The host operations between the two launches, read column by column.

  The first launch leaves a statistics array of 25 blocks × 8 rows × 128 columns: in block t, row 0 holds the column
  sums of that block's 2000 rows and row 1 the column sums of their squares. Between the launches the host cuts out
  row 0 and row 1 of every block as two 25 × 128 tables, adds each table's 25 rows from the zero word (so a column's
  total is  zero + ∑ t, entry t), divides both totals by the row count 50000 (the mean and the mean square), takes
  the variance as the mean square minus the squared mean, and folds the normalisation into a scale
  gamma · rsqrt (variance + ε)  and a shift  beta − mean · scale,  each reshaped to a single row of 128 entries.

  Each step is stated as a pure function of the statistics array and of the gamma and beta vectors, and read at a
  column k. At the statistics the specification names (`Spec.stats O`) the two rows are the specification's
  `scaleK` and `shiftK`.
-/
import proofs.«163893_j72421738545669_2_alg».proof.Proof.Gen.KernelIdeal
import proofs.«163893_j72421738545669_2_alg».proof.Proof.Spec
import Idealize.ShloMosaic.Lib.IdealHost
import Idealize.ShloMosaic.Lib.Pipeline.Value

noncomputable section

namespace Cert.KernelIdeal.KerMid

open Cert.KernelIdeal Cert.KernelIdeal.Gen
open Idealize.ShloMosaic Idealize.ShloMosaic.ValueIdx
open scoped BigOperators

/-! ## The statistics array's rows 0 and 1 as 25 × 128 tables -/

/-- Row 0 of every block's statistics: the slice [0:25, 0:1, 0:128] flattened to 25 × 128. -/
def sumsT (S : FVec Ideal S25x8x128 .f32) : FVec Ideal S25x128 .f32 :=
  shapeCast S25x128 (extractStridedSlice S25x1x128 ![0, 0, 0] S slices_S25x8x128_S25x1x128_0_0_0) shapeCasts_S25x1x128_S25x128
/-- Row 1 of every block's statistics: the slice [0:25, 1:2, 0:128] flattened to 25 × 128. -/
def sqsT (S : FVec Ideal S25x8x128 .f32) : FVec Ideal S25x128 .f32 :=
  shapeCast S25x128 (extractStridedSlice S25x1x128 ![0, 1, 0] S slices_S25x8x128_S25x1x128_0_1_0) shapeCasts_S25x1x128_S25x128

theorem sumsT_apply (S : FVec Ideal S25x8x128 .f32) (t : Fin 25) (k : Fin 128) : sumsT S (ix2 t k) = S (ix3 t 0 k) := by
  unfold sumsT
  refine (shapeCast_apply _ _ (ix2 t k) (ix3 t 0 k) ?_).trans
    (extractStridedSlice_apply _ S _ (ix3 t 0 k) (ix3 t 0 k) fun a => ?_)
  · rw [Shape.rowMajor_val_three, Shape.rowMajor_val_two]
    show (t.val * 1 + 0) * 128 + k.val = t.val * 128 + k.val
    omega
  · match a with
    | ⟨0, _⟩ => show t.val = 0 + t.val; omega
    | ⟨1, _⟩ => rfl
    | ⟨2, _⟩ => show k.val = 0 + k.val; omega

theorem sqsT_apply (S : FVec Ideal S25x8x128 .f32) (t : Fin 25) (k : Fin 128) : sqsT S (ix2 t k) = S (ix3 t 1 k) := by
  unfold sqsT
  refine (shapeCast_apply _ _ (ix2 t k) (ix3 t 0 k) ?_).trans
    (extractStridedSlice_apply _ S _ (ix3 t 0 k) (ix3 t 1 k) fun a => ?_)
  · rw [Shape.rowMajor_val_three, Shape.rowMajor_val_two]
    show (t.val * 1 + 0) * 128 + k.val = t.val * 128 + k.val
    omega
  · match a with
    | ⟨0, _⟩ => show t.val = 0 + t.val; omega
    | ⟨1, _⟩ => rfl
    | ⟨2, _⟩ => show k.val = 0 + k.val; omega

/-! ## The 25 blocks' rows added up -/

/-- A 25 × 128 table's column sums, from the zero word. -/
def colSum (X : FVec Ideal S25x128 .f32) : FVec Ideal S128 .f32 :=
  Host.reduceAdd (F := Ideal) X (constant (F := Ideal) S_ .f32 0x00000000#32) reducesTo_S25x128_S128_d0 h_S_

theorem colSum_apply (X : FVec Ideal S25x128 .f32) (k : Fin 128) :
    colSum X (ix1 k) = Cert.Spec.zero + ∑ t : Fin 25, X (ix2 t k) := by
  unfold colSum
  rw [hostReduceAdd_apply, Ideal.hostReduceAdd_single reducesTo_S25x128_S128_d0 (by decide)]
  refine congrArg (_ + ·) (Finset.sum_congr rfl fun t _ => ?_)
  exact congrArg X (funext fun a => Fin.ext (by match a with | ⟨0, _⟩ => rfl | ⟨1, _⟩ => rfl))

/-- The row count 50000 spread over the 128 columns. -/
def countV : FVec Ideal S128 .f32 := broadcastInDim S128 ![] bcast_S_S128 (constant (F := Ideal) S_ .f32 0x47435000#32)
/-- The normalisation's small constant spread over the 128 columns. -/
def epsV : FVec Ideal S128 .f32 := broadcastInDim S128 ![] bcast_S_S128 (constant (F := Ideal) S_ .f32 0x3727C5AC#32)

theorem countV_apply (k : Fin 128) : countV (ix1 k) = Cert.Spec.count := by
  unfold countV; rw [broadcastInDim_scalar_apply]; rfl
theorem epsV_apply (k : Fin 128) : epsV (ix1 k) = Cert.Spec.bnEps := by
  unfold epsV; rw [broadcastInDim_scalar_apply]; rfl

/-! ## Mean, variance, scale and shift, column by column -/

def meanV (S : FVec Ideal S25x8x128 .f32) : FVec Ideal S128 .f32 := Host.divf (F := Ideal) (colSum (sumsT S)) countV
def varV (S : FVec Ideal S25x8x128 .f32) : FVec Ideal S128 .f32 :=
  subf (Host.divf (F := Ideal) (colSum (sqsT S)) countV) (mulf (meanV S) (meanV S))
def scaleV (S : FVec Ideal S25x8x128 .f32) (g : FVec Ideal S128 .f32) : FVec Ideal S128 .f32 :=
  mulf g (Host.rsqrt (F := Ideal) (addf (varV S) epsV))
def shiftV (S : FVec Ideal S25x8x128 .f32) (g b : FVec Ideal S128 .f32) : FVec Ideal S128 .f32 :=
  subf b (mulf (meanV S) (scaleV S g))

theorem meanV_apply (S : FVec Ideal S25x8x128 .f32) (k : Fin 128) :
    meanV S (ix1 k) = Ideal.div (Cert.Spec.zero + ∑ t : Fin 25, S (ix3 t 0 k)) Cert.Spec.count := by
  unfold meanV
  rw [hostDivf_apply, colSum_apply, countV_apply]
  simp only [sumsT_apply]

theorem varV_apply (S : FVec Ideal S25x8x128 .f32) (k : Fin 128) :
    varV S (ix1 k) = Ideal.div (Cert.Spec.zero + ∑ t : Fin 25, S (ix3 t 1 k)) Cert.Spec.count - meanV S (ix1 k) * meanV S (ix1 k) := by
  unfold varV
  rw [subf_apply, mulf_apply, hostDivf_apply, colSum_apply, countV_apply]
  simp only [sqsT_apply]

theorem scaleV_apply (S : FVec Ideal S25x8x128 .f32) (g : FVec Ideal S128 .f32) (k : Fin 128) :
    scaleV S g (ix1 k) = g (ix1 k) * Ideal.rsqrt (varV S (ix1 k) + Cert.Spec.bnEps) := by
  unfold scaleV
  rw [mulf_apply]
  show g (ix1 k) * Ideal.rsqrt (addf (varV S) epsV (ix1 k)) = _
  rw [addf_apply, epsV_apply]

theorem shiftV_apply (S : FVec Ideal S25x8x128 .f32) (g b : FVec Ideal S128 .f32) (k : Fin 128) :
    shiftV S g b (ix1 k) = b (ix1 k) - meanV S (ix1 k) * scaleV S g (ix1 k) := by
  unfold shiftV
  rw [subf_apply, mulf_apply]

/-! ## The scale and shift rows, and the specification -/

/-- A vector of 128 entries as a single row reads, at column k, the vector's entry k. -/
theorem rowOf_apply (v : FVec Ideal S128 .f32) (k : Fin 128) :
    shapeCast S1x128 v shapeCasts_S128_S1x128 (ix2 0 k) = v (ix1 k) := by
  refine shapeCast_apply v _ (ix2 0 k) (ix1 k) ?_
  rw [Shape.rowMajor_val_one, Shape.rowMajor_val_two]
  show k.val = 0 * 128 + k.val
  omega

/-- The scale row and the shift row the second launch is given. -/
def scaleRow (S : FVec Ideal S25x8x128 .f32) (g : FVec Ideal S128 .f32) : FVec Ideal S1x128 .f32 :=
  shapeCast S1x128 (scaleV S g) shapeCasts_S128_S1x128
def shiftRow (S : FVec Ideal S25x8x128 .f32) (g b : FVec Ideal S128 .f32) : FVec Ideal S1x128 .f32 :=
  shapeCast S1x128 (shiftV S g b) shapeCasts_S128_S1x128

/-- The statistics array the specification names, entry by entry. -/
def statsArr (O : Fin 50000 → Fin 128 → EReal) : FVec Ideal S25x8x128 .f32 := fun i => Cert.Spec.stats O (i 0) (i 1) (i 2)

theorem meanV_stats (O : Fin 50000 → Fin 128 → EReal) (k : Fin 128) : meanV (statsArr O) (ix1 k) = Cert.Spec.meanK O k := by
  rw [meanV_apply]; rfl

theorem varV_stats (O : Fin 50000 → Fin 128 → EReal) (k : Fin 128) : varV (statsArr O) (ix1 k) = Cert.Spec.varK O k := by
  rw [varV_apply, meanV_stats]; rfl

/-- At the specification's statistics, and a gamma vector that is the specification's, the scale row is `scaleK`. -/
theorem scaleRow_stats (A : Cert.Spec.Args) (O : Fin 50000 → Fin 128 → EReal) (g : FVec Ideal S128 .f32)
    (hg : ∀ k : Fin 128, g (ix1 k) = A.gamma k) (k : Fin 128) :
    scaleRow (statsArr O) g (ix2 0 k) = Cert.Spec.scaleK A O k := by
  unfold scaleRow
  rw [rowOf_apply, scaleV_apply, varV_stats, hg]; rfl

/-- Likewise the shift row is `shiftK`. -/
theorem shiftRow_stats (A : Cert.Spec.Args) (O : Fin 50000 → Fin 128 → EReal) (g b : FVec Ideal S128 .f32)
    (hg : ∀ k : Fin 128, g (ix1 k) = A.gamma k) (hb : ∀ k : Fin 128, b (ix1 k) = A.beta k) (k : Fin 128) :
    shiftRow (statsArr O) g b (ix2 0 k) = Cert.Spec.shiftK A O k := by
  unfold shiftRow
  rw [rowOf_apply, shiftV_apply, meanV_stats, hb]
  have e := scaleRow_stats A O g hg k
  unfold scaleRow at e
  rw [rowOf_apply] at e
  rw [e]; rfl

end Cert.KernelIdeal.KerMid

end
-- ==== Proof.KerMidRun.lean ====
/-
  What the second launch finds in the three arrays it reads.

  The buffers' contents at the second launch's entry are the host operations between the launches folded over
  the contents at the first launch's exit. The table (the first launch's first output array) is written by none
  of those operations, so it is found as the first launch's write-backs left it. The scale row and the shift row are
  the last two results of the stretch: unfolding the stretch operation by operation — each shared intermediate
  visited once — leaves exactly the composed pure terms `scaleRow` and `shiftRow` over the statistics array (the first
  launch's second output array) and the gamma and beta arguments, which no launch and no host operation has written
  and which are therefore still the launch memory's.
-/
import proofs.«163893_j72421738545669_2_alg».proof.Proof.PatchedFrameKernelIdeal
import proofs.«163893_j72421738545669_2_alg».proof.Proof.KerMid
import Idealize.ShloMosaic.Lib.StableHlo.Run

set_option maxRecDepth 16384

noncomputable section

namespace Cert.KernelIdeal.KerMid

open Cert.KernelIdeal Cert.KernelIdeal.Gen
open Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-- No operation between the launches writes the table the first launch left, so the second launch finds it as
    the first launch's write-backs left it. -/
theorem V3_table (c : Dev nD) : V3 m ρ c main_v31_0 = (dat0 (V1 m ρ) c).arrAt 12 cfg0.N :=
  calc V3 m ρ c main_v31_0
    _ = W2 m ρ c (Proc.devRef .tc main_v31_0) := StableHlo.after_of_forall_not_mem (b := Proc.devRef .tc main_v31_0) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = (dat0 (V1 m ρ) c).arrAt 12 cfg0.N := W2_arr m ρ c 12

/-- The statistics array as the host operations between the launches find it. -/
theorem W2_stats (c : Dev nD) : W2 m ρ c (Proc.devRef .tc main_v31_1) = (dat0 (V1 m ρ) c).arrAt 13 cfg0.N := W2_arr m ρ c 13

/-- An argument array no launch and no host operation has written is still the launch memory's. -/
theorem W2_gamma (c : Dev nD) : W2 m ρ c (Proc.devRef .tc main_arg12) = m ((c : Thread nD τ).loc main_arg12) :=
  calc W2 m ρ c (Proc.devRef .tc main_arg12)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg12) := rfl
theorem W2_beta (c : Dev nD) : W2 m ρ c (Proc.devRef .tc main_arg13) = m ((c : Thread nD τ).loc main_arg13) :=
  calc W2 m ρ c (Proc.devRef .tc main_arg13)
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg13) := rfl

/-- The scale row the second launch finds: the host operations' composed term over the statistics array and gamma. -/
theorem V3_scale (c : Dev nD) :
    (V3 m ρ c main_v50 : S1x128.Idx → EReal)
      = scaleRow (W2 m ρ c (Proc.devRef .tc main_v31_1)) (W2 m ρ c (Proc.devRef .tc main_arg12)) := by
  show StableHlo.after hostOps1 (W2 m ρ c) (Proc.devRef .tc main_v50) = _
  generalize W2 m ρ c = W
  after_results_simp
  rfl

/-- The shift row the second launch finds: the composed term over the statistics array, gamma and beta. -/
theorem V3_shift (c : Dev nD) :
    (V3 m ρ c main_v51 : S1x128.Idx → EReal)
      = shiftRow (W2 m ρ c (Proc.devRef .tc main_v31_1)) (W2 m ρ c (Proc.devRef .tc main_arg12)) (W2 m ρ c (Proc.devRef .tc main_arg13)) := by
  show StableHlo.after hostOps1 (W2 m ρ c) (Proc.devRef .tc main_v51) = _
  generalize W2 m ρ c = W
  after_results_simp
  rfl

end Cert.KernelIdeal.KerMid

end
-- ==== Proof.KerVal1.lean ====
/-
  The second launch's output array as the specification's table.

  The first launch leaves a table O (50000 rows × 128 columns) and the statistics array of its 25 blocks. Nothing
  between the launches writes the table; the scale and shift rows the second launch is given are the host
  operations' functions of the statistics array and of the gamma and beta arguments, which at the specification's
  statistics are the specification's folded scale and shift. The second launch's output array is, entry by entry,
  max (table · scale + shift) 0  of those three arrays. Together: the output array at row n and column k is
  max (O n k · scaleK k + shiftK k) 0.
-/
import proofs.«163893_j72421738545669_2_alg».proof.Proof.KerVal1Blocks
import proofs.«163893_j72421738545669_2_alg».proof.Proof.KerMidRun

set_option maxRecDepth 16384

noncomputable section

namespace Cert.KernelIdeal.KerVal1

open Cert.KernelIdeal Cert.KernelIdeal.Gen Cert.KernelIdeal.KerMid
open Idealize.ShloMosaic Idealize.ShloMosaic.TcCoe Idealize.ShloMosaic.ValueIdx Idealize.SL.Sem

/-- `G1` at a table given entry by entry and at rows that read as two column functions. -/
theorem G1_eq (o : S50000x128.Idx → EReal) (sc sh : S1x128.Idx → EReal) (O : Fin 50000 → Fin 128 → EReal) (s t : Fin 128 → EReal)
    (ho : o = fun i => O (i 0) (i 1)) (hsc : ∀ k : Fin 128, sc (ix2 0 k) = s k) (hsh : ∀ k : Fin 128, sh (ix2 0 k) = t k) :
    G1 o sc sh = fun i => max (O (i 0) (i 1) * s (i 1) + t (i 1)) Cert.Spec.zero := by
  funext i
  obtain ⟨n, k, rfl⟩ : ∃ (n : Fin 50000) (k : Fin 128), i = ix2 n k := ⟨i 0, i 1, eq_ix2 i⟩
  show max (o (ix2 n k) * sc (ix2 0 k) + sh (ix2 0 k)) Cert.Spec.zero = max (O n k * s k + t k) Cert.Spec.zero
  rw [hsc, hsh, ho]

variable (m : (ℓ : Loc nD τ sig) → Buf (Elt Ideal) ℓ) (ρ : Dev nD → PrngReg)

/-- The table the second launch finds is the table the first launch left. -/
theorem entry_table (c : Dev nD) (O : Fin 50000 → Fin 128 → EReal)
    (hO : (dat0 (V1 m ρ) c).arrAt 12 cfg0.N = fun i => O (i 0) (i 1)) :
    (V3 m ρ c main_v31_0 : S50000x128.Idx → EReal) = fun i => O (i 0) (i 1) :=
  (V3_table m ρ c).trans hO

/-- The statistics array the host operations between the launches find is the specification's. -/
theorem entry_stats (c : Dev nD) (O : Fin 50000 → Fin 128 → EReal)
    (hS : (dat0 (V1 m ρ) c).arrAt 13 cfg0.N = fun i => Cert.Spec.stats O (i 0) (i 1) (i 2)) :
    W2 m ρ c (Proc.devRef .tc main_v31_1) = statsArr O :=
  (W2_stats m ρ c).trans hS

/-- The scale row the second launch finds is the specification's folded scale. -/
theorem entry_scale (c : Dev nD) (A : Cert.Spec.Args) (O : Fin 50000 → Fin 128 → EReal)
    (hS : (dat0 (V1 m ρ) c).arrAt 13 cfg0.N = fun i => Cert.Spec.stats O (i 0) (i 1) (i 2))
    (hg : ∀ k : Fin 128, m ((c.tc : Thread nD τ).loc main_arg12) (ix1 k) = A.gamma k) (k : Fin 128) :
    (V3 m ρ c main_v50 : S1x128.Idx → EReal) (ix2 0 k) = Cert.Spec.scaleK A O k := by
  rw [V3_scale, entry_stats m ρ c O hS, W2_gamma]
  exact scaleRow_stats A O _ hg k

/-- The shift row the second launch finds is the specification's folded shift. -/
theorem entry_shift (c : Dev nD) (A : Cert.Spec.Args) (O : Fin 50000 → Fin 128 → EReal)
    (hS : (dat0 (V1 m ρ) c).arrAt 13 cfg0.N = fun i => Cert.Spec.stats O (i 0) (i 1) (i 2))
    (hg : ∀ k : Fin 128, m ((c.tc : Thread nD τ).loc main_arg12) (ix1 k) = A.gamma k)
    (hb : ∀ k : Fin 128, m ((c.tc : Thread nD τ).loc main_arg13) (ix1 k) = A.beta k) (k : Fin 128) :
    (V3 m ρ c main_v51 : S1x128.Idx → EReal) (ix2 0 k) = Cert.Spec.shiftK A O k := by
  rw [V3_shift, entry_stats m ρ c O hS, W2_gamma, W2_beta]
  exact shiftRow_stats A O _ _ hg hb k

/-- The second launch's output array after its ten write-backs, given what the first launch left: the table `O`
    in its first output array (`hO`) and the specification's statistics of `O` in its second (`hS`), and gamma and
    beta in the launch memory (`hg`, `hb`). -/
theorem final (c : Dev nD) (A : Cert.Spec.Args) (O : Fin 50000 → Fin 128 → EReal)
    (hO : (dat0 (V1 m ρ) c).arrAt 12 cfg0.N = fun i => O (i 0) (i 1))
    (hS : (dat0 (V1 m ρ) c).arrAt 13 cfg0.N = fun i => Cert.Spec.stats O (i 0) (i 1) (i 2))
    (hg : ∀ k : Fin 128, m ((c.tc : Thread nD τ).loc main_arg12) (ix1 k) = A.gamma k)
    (hb : ∀ k : Fin 128, m ((c.tc : Thread nD τ).loc main_arg13) (ix1 k) = A.beta k) :
    (dat1 (V3 m ρ) c).arrAt 3 cfg1.N
      = fun i => max (O (i 0) (i 1) * Cert.Spec.scaleK A O (i 1) + Cert.Spec.shiftK A O (i 1)) Cert.Spec.zero :=
  (final_of_entry (V3 m ρ) c).trans
    (G1_eq _ _ _ O _ _ (entry_table m ρ c O hO) (entry_scale m ρ c A O hS hg) (entry_shift m ρ c A O hS hg hb))

end Cert.KernelIdeal.KerVal1

end
-- ==== Proof.KerVal0Pay.lean ====
/-
  The first kernel's arithmetic, entry by entry, on the extended reals.

  At a grid point the body reads a 2000-row block of `x`, of the summed gathered rows and of the [·, 2] table that holds
  the summed attributes beside the segment sizes, together with the nine parameter arrays whole. From them it forms, row
  by row, the aggregate `((segx + sega · ew) + cnt · eb) / max cnt 1`, then `(1 + eps) · x + aggregate`, multiplies by
  the first weights, adds the bias and rectifies; multiplies that by the second weights, adds the bias, and adds the
  block of `x` times the residual weights plus its bias. Narrowing a float to sixteen bits is the identity on the
  extended reals, and a block product into the zero accumulator is the sum over the 128 contracted coordinates.
  Beside the table the body stores an [8, 128] block: the table's column sums over the 2000 rows on row 0, the column
  sums of squares on row 1, zero below, selected by two one-hot masks built from the row number.
-/
import proofs.«163893_j72421738545669_2_alg».proof.Proof.Gen.KernelIdeal.Skeleton
import proofs.«163893_j72421738545669_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.KerVal0

open Cert.KernelIdeal

/-- A block product into the zero accumulator, entry by entry: the sum over the 128 contracted coordinates. -/
theorem dot_apply {φ₁ φ₂ : FTy} (A : FVec Ideal S2000x128 φ₁) (B : FVec Ideal S128x128 φ₂) (a : Fin 2000) (b : Fin 128) :
    matmul dot_S2000x128_S128x128_S2000x128_1_0_0_1_n_n none A B (constant (F := Ideal) S2000x128 .f32 0x00000000#32) (ix2 a b)
      = ∑ k : Fin 128, A (ix2 a k) * B (ix2 k b) := by
  show FloatOps.matmul _ none A B _ (ix2 a b) = _
  rw [Ideal.matmul_constant_zero_apply,
    ← Equiv.sum_comp (contrEquiv1 dot_S2000x128_S128x128_S2000x128_1_0_0_1_n_n 128 rfl rfl).symm]
  refine Finset.sum_congr rfl fun k _ => ?_
  have c2 := contrEquiv1_symm_val dot_S2000x128_S128x128_S2000x128_1_0_0_1_n_n 128 rfl rfl k
  have l2 : dot_S2000x128_S128x128_S2000x128_1_0_0_1_n_n.lhsIdx (ix2 a b) ((contrEquiv1 _ 128 rfl rfl).symm k) = ix2 a k := by
    funext ax; apply Fin.ext
    match ax with
    | ⟨0, _⟩ => simp [DotDims.lhsIdx, dot_S2000x128_S128x128_S2000x128_1_0_0_1_n_n]; rfl
    | ⟨1, _⟩ => simp [DotDims.lhsIdx, dot_S2000x128_S128x128_S2000x128_1_0_0_1_n_n]; exact c2
  have r2 : dot_S2000x128_S128x128_S2000x128_1_0_0_1_n_n.rhsIdx (ix2 a b) ((contrEquiv1 _ 128 rfl rfl).symm k) = ix2 k b := by
    funext ax; apply Fin.ext
    match ax with
    | ⟨0, _⟩ => simp [DotDims.rhsIdx, dot_S2000x128_S128x128_S2000x128_1_0_0_1_n_n]; exact c2
    | ⟨1, _⟩ => simp [DotDims.rhsIdx, dot_S2000x128_S128x128_S2000x128_1_0_0_1_n_n]; rfl
  rw [l2, r2]

/-- A column of 2000 entries spread over the 128 lanes reads its row's entry. -/
theorem bcast_col {α : Type} (v : S2000x1.Idx → α) (h : S2000x1.Broadcasts S2000x128) (j : Fin 2000) (c : Fin 128) :
    broadcastTo S2000x128 v h (ix2 j c) = v (ix2 j 0) := by
  refine broadcastTo_apply v h (ix2 j c) (ix2 j 0) fun ax => ?_
  match ax with
  | ⟨0, _⟩ => rfl
  | ⟨1, _⟩ => rfl

/-- A row of 128 entries spread over the 2000 rows reads its lane's entry. -/
theorem bcast_row {α : Type} (v : S1x128.Idx → α) (h : S1x128.Broadcasts S2000x128) (j : Fin 2000) (c : Fin 128) :
    broadcastTo S2000x128 v h (ix2 j c) = v (ix2 0 c) :=
  broadcastTo_1b_ab_apply v h j c

/-- A single entry spread over the whole block. -/
theorem bcast_one {α : Type} (v : S1x1.Idx → α) (h : S1x1.Broadcasts S2000x128) (j : Fin 2000) (c : Fin 128) :
    broadcastTo S2000x128 v h (ix2 j c) = v (ix2 0 0) := by
  refine broadcastTo_apply v h (ix2 j c) (ix2 0 0) fun ax => ?_
  match ax with
  | ⟨0, _⟩ => rfl
  | ⟨1, _⟩ => rfl

/-- The two columns of a [2000, 2] block. -/
theorem col0 {α : Type} (v : S2000x2.Idx → α) (h : S2000x2.Slices ![0, 0] S2000x1) (j : Fin 2000) :
    extractStridedSlice S2000x1 ![0, 0] v h (ix2 j 0) = v (ix2 j 0) :=
  slice2_axis1_apply 0 v h j 0 0 rfl
theorem col1 {α : Type} (v : S2000x2.Idx → α) (h : S2000x2.Slices ![0, 1] S2000x1) (j : Fin 2000) :
    extractStridedSlice S2000x1 ![0, 1] v h (ix2 j 0) = v (ix2 j 1) :=
  slice2_axis1_apply 1 v h j 0 1 rfl

/-- The second payload at an entry: the rectified table times the second weights plus its bias, plus the block of `x` times
    the residual weights plus its bias. -/
theorem pay2_at (v0 : Vec Ideal S2000x128 .f32) (v38 : FVec Ideal S2000x128 .f32) (v40 : Vec Ideal S128x128 .f32)
    (v43 : Vec Ideal S1x128 .f32) (v48 : Vec Ideal S128x128 .f32) (v51 : Vec Ideal S1x128 .f32) (j : Fin 2000) (c : Fin 128) :
    Gen.k0_pay2 (F := Ideal) v0 v38 v40 v43 v48 v51 (ix2 j c)
      = ((∑ k : Fin 128, v38 (ix2 j k) * v40 (ix2 k c)) + v43 (ix2 0 c))
        + ((∑ k : Fin 128, v0 (ix2 j k) * v48 (ix2 k c)) + v51 (ix2 0 c)) := by
  unfold Gen.k0_pay2
  simp only [addf_apply, dot_apply, bcast_row, shapeCast_self, truncf_apply]

/-- The first payload at an entry: the aggregated row times the first weights plus its bias, rectified. -/
theorem pay1_at (v0 v1 : Vec Ideal S2000x128 .f32) (v3 : Vec Ideal S2000x2 .f32) (v7 v8 : Vec Ideal S1x128 .f32)
    (v22 : Vec Ideal S1x1 .f32) (v30 : Vec Ideal S128x128 .f32) (v33 : Vec Ideal S1x128 .f32) (j : Fin 2000) (c : Fin 128) :
    Gen.k0_pay1 (F := Ideal) v0 v1 v3 v7 v8 v22 v30 v33 (ix2 j c)
      = max ((∑ k : Fin 128,
              ((Spec.one + v22 (ix2 0 0)) * v0 (ix2 j k)
                + Ideal.div ((v1 (ix2 j k) + v3 (ix2 j 0) * v7 (ix2 0 k)) + v3 (ix2 j 1) * v8 (ix2 0 k)) (max (v3 (ix2 j 1)) Spec.one))
              * v30 (ix2 k c)) + v33 (ix2 0 c)) Spec.zero := by
  unfold Gen.k0_pay1
  simp only [maximumf_apply, addf_apply, mulf_apply, divf_apply, truncf_apply, dot_apply, bcast_row, bcast_col, bcast_one,
    col0, col1, shapeCast_self, broadcast_apply]
  rfl

/-- A row selector of the statistics block, as the body builds it — the row number compared with a word, widened,
    converted — is the one-hot mask. -/
theorem onehot0 (r : Fin 8) :
    FloatOps.sitofp (F := Ideal) .f32 ((IntOp.cmpi .eq (BitVec.ofNat 32 r.val) 0#32).setWidth 32) = Spec.mask 0 r := by
  show (((((IntOp.cmpi .eq (BitVec.ofNat 32 r.val) 0#32).setWidth 32).toInt : ℝ)) : EReal) = Spec.mask 0 r
  fin_cases r <;> simp [Spec.mask, IntOp.cmpi]
theorem onehot1 (r : Fin 8) :
    FloatOps.sitofp (F := Ideal) .f32 ((IntOp.cmpi .eq (BitVec.ofNat 32 r.val) 1#32).setWidth 32) = Spec.mask 1 r := by
  show (((((IntOp.cmpi .eq (BitVec.ofNat 32 r.val) 1#32).setWidth 32).toInt : ℝ)) : EReal) = Spec.mask 1 r
  fin_cases r <;> simp [Spec.mask, IntOp.cmpi]

/-- A block's column sum: the lane reduction over the 2000 rows. -/
theorem colsum (src : FVec Ideal S2000x128 .f32) (h : S2000x128.Reduces [0] S128) (hφ : FKind.Formats .f32)
    (hacc : (0x00000000#32 : BitVec 32) = 0x00000000#32) (c : Fin 128) :
    multiReduction .add [0] S128 src 0x00000000#32 h hφ hacc (ix1 c) = ∑ j : Fin 2000, src (ix2 j c) :=
  (Ideal.multiReduction_add_single src 0x00000000#32 h hφ hacc (ix1 c)).trans
    (Finset.sum_congr rfl fun k _ => congrArg src (funext fun a => by
      match a with
      | ⟨0, _⟩ => rfl
      | ⟨1, _⟩ => rfl))

theorem cmpi_apply {s : Shape} {w : Nat} (p : CmpIPredicate) (x y : IVec s w) (i : s.Idx) : cmpi p x y i = IntOp.cmpi p (x i) (y i) := rfl

/-- A row of 128 entries spread over the 8 rows of the statistics block. -/
theorem bcast_row8 {α : Type} (v : S1x128.Idx → α) (h : S1x128.Broadcasts S8x128) (r : Fin 8) (c : Fin 128) :
    broadcastTo S8x128 v h (ix2 r c) = v (ix2 0 c) :=
  broadcastTo_1b_ab_apply v h r c

/-- The third payload at an entry: row 0 the block's column sums, row 1 its column sums of squares. -/
theorem pay3_at (v0 : Vec Ideal S2000x128 .f32) (v38 : FVec Ideal S2000x128 .f32) (v40 : Vec Ideal S128x128 .f32)
    (v43 : Vec Ideal S1x128 .f32) (v48 : Vec Ideal S128x128 .f32) (v51 : Vec Ideal S1x128 .f32) (r : Fin 8) (c : Fin 128) :
    Gen.k0_pay3 (F := Ideal) v0 v38 v40 v43 v48 v51 (ix3 0 r c)
      = Spec.mask 0 r * (∑ j : Fin 2000, Gen.k0_pay2 (F := Ideal) v0 v38 v40 v43 v48 v51 (ix2 j c))
        + Spec.mask 1 r * (∑ j : Fin 2000, Gen.k0_pay2 (F := Ideal) v0 v38 v40 v43 v48 v51 (ix2 j c)
            * Gen.k0_pay2 (F := Ideal) v0 v38 v40 v43 v48 v51 (ix2 j c)) := by
  unfold Gen.k0_pay3
  rw [shapeCast_ab_1ab_apply]
  simp only [addf_apply, mulf_apply, sitofp_apply, extui_apply, cmpi_apply, broadcast_apply, bcast_row8, shapeCast_a_1a_apply]
  refine congrArg₂ (· + ·) (congrArg₂ (· * ·) ?_ ?_) (congrArg₂ (· * ·) ?_ ?_)
  · exact (congrArg (fun b => FloatOps.sitofp (F := Ideal) .f32 ((IntOp.cmpi .eq b 0#32).setWidth 32))
      (iota_single_apply .tc S8x128 32 0 _ (ix2 r c))).trans (onehot0 r)
  · exact colsum _ _ _ _ c
  · exact (congrArg (fun b => FloatOps.sitofp (F := Ideal) .f32 ((IntOp.cmpi .eq b 1#32).setWidth 32))
      (iota_single_apply .tc S8x128 32 0 _ (ix2 r c))).trans (onehot1 r)
  · exact (colsum _ _ _ _ c).trans (Finset.sum_congr rfl fun j _ => rfl)

/-! ## A grid point's payloads in the specification's terms -/

/-- What the twelve blocks a grid point reads hold, entry by entry: block `t` of the three tables cut in 2000-row blocks
    (`x`, the summed gathered rows, the summed attributes beside the segment sizes) and the nine parameter arrays whole. -/
structure Blocks (A : Spec.Args) (cnt : Fin 50000 → EReal) (t : Fin 25)
    (x0 x1 : Vec Ideal S2000x128 .f32) (x2 : Vec Ideal S2000x2 .f32) (x3 : Vec Ideal S1x1 .f32) (x4 x5 : Vec Ideal S1x128 .f32)
    (x6 : Vec Ideal S128x128 .f32) (x7 : Vec Ideal S1x128 .f32) (x8 : Vec Ideal S128x128 .f32) (x9 : Vec Ideal S1x128 .f32)
    (x10 : Vec Ideal S128x128 .f32) (x11 : Vec Ideal S1x128 .f32) : Prop where
  x : ∀ j k, x0 (ix2 j k) = A.x (Spec.row t j) k
  segx : ∀ j k, x1 (ix2 j k) = Spec.segx A (Spec.row t j) k
  sega : ∀ j, x2 (ix2 j 0) = Spec.sega A (Spec.row t j)
  cnt : ∀ j, x2 (ix2 j 1) = cnt (Spec.row t j)
  eps : x3 (ix2 0 0) = A.eps
  ew : ∀ k, x4 (ix2 0 k) = A.ew k
  eb : ∀ k, x5 (ix2 0 k) = A.eb k
  w1 : ∀ a b, x6 (ix2 a b) = A.w1 a b
  b1 : ∀ k, x7 (ix2 0 k) = A.b1 k
  w2 : ∀ a b, x8 (ix2 a b) = A.w2 a b
  b2 : ∀ k, x9 (ix2 0 k) = A.b2 k
  wr : ∀ a b, x10 (ix2 a b) = A.wr a b
  br : ∀ k, x11 (ix2 0 k) = A.br k

variable {A : Spec.Args} {cnt : Fin 50000 → EReal} {t : Fin 25}
  {x0 x1 : Vec Ideal S2000x128 .f32} {x2 : Vec Ideal S2000x2 .f32} {x3 : Vec Ideal S1x1 .f32} {x4 x5 : Vec Ideal S1x128 .f32}
  {x6 : Vec Ideal S128x128 .f32} {x7 : Vec Ideal S1x128 .f32} {x8 : Vec Ideal S128x128 .f32} {x9 : Vec Ideal S1x128 .f32}
  {x10 : Vec Ideal S128x128 .f32} {x11 : Vec Ideal S1x128 .f32}

/-- The table the point stores is block `t` of the pre-normalisation table: row `j` of the block is row `2000 t + j`. -/
theorem pre_of_blocks (B : Blocks A cnt t x0 x1 x2 x3 x4 x5 x6 x7 x8 x9 x10 x11) (j : Fin 2000) (c : Fin 128) :
    Gen.k0_pay2 (F := Ideal) x0 (Gen.k0_pay1 (F := Ideal) x0 x1 x2 x4 x5 x3 x6 x7) x8 x9 x10 x11 (ix2 j c)
      = Spec.preK A cnt (Spec.row t j) c := by
  rw [pay2_at]
  simp only [pay1_at, B.x, B.segx, B.sega, B.cnt, B.eps, B.ew, B.eb, B.w1, B.b1, B.w2, B.b2, B.wr, B.br]
  rfl

/-- The statistics the point stores: the block's column sums on row 0, its column sums of squares on row 1. -/
theorem stats_of_blocks (B : Blocks A cnt t x0 x1 x2 x3 x4 x5 x6 x7 x8 x9 x10 x11) (r : Fin 8) (c : Fin 128) :
    Gen.k0_pay3 (F := Ideal) x0 (Gen.k0_pay1 (F := Ideal) x0 x1 x2 x4 x5 x3 x6 x7) x8 x9 x10 x11 (ix3 0 r c)
      = Spec.stats (Spec.preK A cnt) t r c := by
  rw [pay3_at]
  simp only [pre_of_blocks B]
  rfl

end Cert.KernelIdeal.KerVal0

end
-- ==== Proof.KerVal0Seg.lean ====
/-
  The two segment sums the first kernel reads, entry by entry: the gathered source rows, and the edge attributes, each
  added into zeros at the row the edge's destination word names, are at row n the sum over n's segment of edges.
-/
import proofs.«163893_j72421738545669_2_alg».proof.Proof.KerVal0Args

noncomputable section

open scoped BigOperators
open Idealize.ShloMosaic Idealize.ShloMosaic.ValueIdx Idealize.ShloMosaic.TcCoe
open Idealize.SL.Sem

namespace Cert.KernelIdeal.KerVal0

open Cert.KernelIdeal

variable (m : (ℓ : Loc nD τ sig) → Buf (Elt Ideal) ℓ)

/-- The table scatter at (n, k), for any operand, index column and updates: the operand's entry plus the updates'
    entries over the row's segment. -/
theorem scatter2_at (z : FVec Ideal S50000x128 .f32) (di : IVec S1600000x1 32) (u : FVec Ideal S1600000x128 .f32)
    (n : Fin 50000) (k : Fin 128) :
    Host.scatterAdd scatter_S50000x128_S1600000x1_S1600000x128_1_0_0_1 z di u (ix2 n k)
      = z (ix2 n k) + ∑ e ∈ Spec.seg (fun e => di (ix2 e 0)) n, u (ix2 e k) :=
  LibSegment.scatterAdd2_apply scatter_S50000x128_S1600000x1_S1600000x128_1_0_0_1 rfl rfl rfl rfl z di u n k

/-- The vector scatter at n, for any operand, index column and updates. -/
theorem scatter1_at (z : FVec Ideal S50000 .f32) (di : IVec S1600000x1 32) (u : FVec Ideal S1600000 .f32) (n : Fin 50000) :
    Host.scatterAdd scatter_S50000_S1600000x1_S1600000_n_0_0_1 z di u (ix1 n)
      = z (ix1 n) + ∑ e ∈ Spec.seg (fun e => di (ix2 e 0)) n, u (ix1 e) :=
  LibSegment.scatterAdd1_apply scatter_S50000_S1600000x1_S1600000_n_0_0_1 rfl rfl rfl rfl z di u n

/-- A column of 1600000 entries read as a vector: entry e is the column's entry (e, 0). -/
theorem flat_at (a : FVec Ideal S1600000x1 .f32) (e : Fin 1600000) :
    shapeCast S1600000 a Gen.shapeCasts_S1600000x1_S1600000 (ix1 e) = a (ix2 e 0) :=
  shapeCast_apply _ _ (ix1 e) (ix2 e 0) (by
    rw [Shape.rowMajor_val_two, Shape.rowMajor_val_one]
    show e.val * 1 + 0 = e.val
    omega)

/-- The summed gathered rows: the scatter of the gathered rows into zeros, by destination. -/
theorem segx_of (c : Dev nD) (X : S50000x128.Idx → EReal)
    (hX : X = Host.scatterAdd scatter_S50000x128_S1600000x1_S1600000x128_1_0_0_1
        (broadcastInDim S50000x128 ![] Gen.bcast_S_S50000x128 (constant (F := Ideal) S_ .f32 0x00000000#32)) (dstT m c) (gxT m c))
    (n : Fin 50000) (k : Fin 128) : X (ix2 n k) = Spec.segx (args m c) n k := by
  subst hX
  rw [scatter2_at, zeros2_at]
  rfl

/-- The summed attributes: the scatter of the attribute column, read as a vector, into zeros, by destination. -/
theorem sega_of (c : Dev nD) (X : S50000.Idx → EReal)
    (hX : X = Host.scatterAdd scatter_S50000_S1600000x1_S1600000_n_0_0_1
        (broadcastInDim S50000 ![] Gen.bcast_S_S50000 (constant (F := Ideal) S_ .f32 0x00000000#32)) (dstT m c)
        (shapeCast S1600000 (m ((c : Thread nD τ).loc main_arg2)) Gen.shapeCasts_S1600000x1_S1600000))
    (n : Fin 50000) : X (ix1 n) = Spec.sega (args m c) n := by
  subst hX
  rw [scatter1_at, zeros1_at]
  unfold Spec.sega
  refine congrArg (Spec.zero + ·) (Finset.sum_congr rfl fun e _ => ?_)
  exact flat_at _ e

end Cert.KernelIdeal.KerVal0

end
-- ==== Proof.KerVal0Host.lean ====
/-
  The first kernel's three computed input arrays as it finds them, entry by entry.

  The kernel is entered after 37 host operations. What they leave in the array of summed gathered rows is the scatter
  of the gathered rows into zeros; in the [50000, 2] table, the summed attributes and the segment sizes, each stood up as a
  column, side by side. Read at an entry, the first two are the sums over a row's segment of edges that the specification
  names `segx` and `sega`; the third is the segment size as the kernel holds it.
  The table is the result of the 32nd operation, and its two operands sit inside a list of pieces, where the operations
  that computed them cannot be opened in place: the operation list is cut in front of it, the contents after the first 31
  operations are named, and the last six operations are read against that name.
-/
import proofs.«163893_j72421738545669_2_alg».proof.Proof.PatchedFrameKernelIdeal
import proofs.«163893_j72421738545669_2_alg».proof.Proof.KerVal0Args
import proofs.«163893_j72421738545669_2_alg».proof.Proof.KerVal0Seg
import proofs.«163893_j72421738545669_2_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

open scoped BigOperators
open Idealize.ShloMosaic Idealize.ShloMosaic.ValueIdx Idealize.ShloMosaic.TcCoe Idealize.ShloMosaic.StableHlo
open Idealize.SL.Sem

namespace Cert.KernelIdeal.KerVal0

open Cert.KernelIdeal

variable (m : (ℓ : Loc nD τ sig) → Buf (Elt Ideal) ℓ) (ρ : Dev nD → PrngReg)
/-- A [50000, 2] table made of two columns side by side reads each column back. -/
theorem concat_cols {α : Type} (a b : S50000x1.Idx → α) (h : Shape.Concatenates [S50000x1, S50000x1] S50000x2 1) (n : Fin 50000) :
    concatenate S50000x2 1 [⟨S50000x1, a⟩, ⟨S50000x1, b⟩] h (ix2 n (0 : Fin 2)) = a (ix2 n (0 : Fin 1))
    ∧ concatenate S50000x2 1 [⟨S50000x1, a⟩, ⟨S50000x1, b⟩] h (ix2 n (1 : Fin 2)) = b (ix2 n (0 : Fin 1)) := by
  constructor
  · refine concatenate_pair_apply_left (t := S50000x2) (s₁ := S50000x1) (s₂ := S50000x1) (1 : Fin 2) a b h
      (ix2 n (0 : Fin 2)) rfl (ix2 n (0 : Fin 1)) (fun x => ?_)
    match x with
    | ⟨0, _⟩ => rfl
    | ⟨1, _⟩ => rfl
  · refine concatenate_pair_apply_right (t := S50000x2) (s₁ := S50000x1) (s₂ := S50000x1) (1 : Fin 2) a b h
      (ix2 n (1 : Fin 2)) rfl rfl (ix2 n (0 : Fin 1)) (fun x hx => ?_) ?_
    · match x with
      | ⟨0, _⟩ => rfl
      | ⟨1, _⟩ => exact absurd rfl hx
    · rfl

/-- A vector of 50000 entries stood up as a column. -/
theorem column_at {α : Type} (v : S50000.Idx → α) (h : S50000.BroadcastsInDim S50000x1 ![0]) (n : Fin 50000) :
    broadcastInDim S50000x1 ![0] h v (ix2 n 0) = v (ix1 n) := by
  refine broadcastInDim_apply _ h v (ix2 n 0) (ix1 n) fun a => ?_
  match a with
  | ⟨0, _⟩ => rfl

/-- A vector of 128 entries laid as one row, and the one entry of `eps` laid as a [1, 1] table. -/
theorem row_at {α : Type} (v : S128.Idx → α) (h : S128.ShapeCasts S1x128) (k : Fin 128) :
    shapeCast S1x128 v h (ix2 0 k) = v (ix1 k) := shapeCast_a_1a_apply v h 0 k
theorem one_at {α : Type} (v : S1.Idx → α) (h : S1.ShapeCasts S1x1) :
    shapeCast S1x1 v h (ix2 0 0) = v (ix1 0) := shapeCast_a_1a_apply v h 0 0

/-- The contents after two stretches of operations run one after the other. -/
theorem after_append {Val : EltTy → Type} (l₁ l₂ : List (HloOp τ sig Val)) (W : Valuation τ sig Val) :
    StableHlo.after (l₁ ++ l₂) W = StableHlo.after l₂ (StableHlo.after l₁ W) := by
  induction l₁ generalizing W with
  | nil => rfl
  | cons op l ih => simp only [List.cons_append, StableHlo.after_cons, ih]

/-- The kernel's entry contents, with the operations cut in front of the concatenation. -/
theorem V1_split (c : Dev nD) (b : Ref sig .tc) :
    Gen.V1 m ρ c b = StableHlo.after (List.drop 31 (Gen.hostOps0 (F := Ideal)))
      (StableHlo.after (List.take 31 (Gen.hostOps0 (F := Ideal))) (Gen.W0 m ρ c)) (Proc.devRef .tc b) := by
  show StableHlo.after Gen.hostOps0 (Gen.W0 m ρ c) _ = _
  rw [← after_append, List.take_append_drop]

/-- The [50000, 2] table is its two columns side by side. -/
theorem V1_v25 (c : Dev nD) : (Gen.V1 m ρ c main_v25 : S50000x2.Idx → EReal)
    = concatenate S50000x2 1 [⟨S50000x1, Gen.V1 m ρ c main_v23⟩, ⟨S50000x1, Gen.V1 m ρ c main_v24⟩]
        Gen.concatenates_S50000x1_S50000x1_S50000x2_d1 := by
  rw [V1_split m ρ c main_v25, V1_split m ρ c main_v23, V1_split m ρ c main_v24]
  generalize StableHlo.after (List.take 31 (Gen.hostOps0 (F := Ideal))) (Gen.W0 m ρ c) = Fv
  have e23 : StableHlo.after (List.drop 31 (Gen.hostOps0 (F := Ideal))) Fv (Proc.devRef .tc main_v23) = Fv (Proc.devRef .tc main_v23) := by
    dsimp only [Gen.hostOps0, List.drop]
    after_results_simp
  have e24 : StableHlo.after (List.drop 31 (Gen.hostOps0 (F := Ideal))) Fv (Proc.devRef .tc main_v24) = Fv (Proc.devRef .tc main_v24) := by
    dsimp only [Gen.hostOps0, List.drop]
    after_results_simp
  rw [e23, e24]
  dsimp only [Gen.hostOps0, List.drop]
  after_results_simp

theorem V1_v23 (c : Dev nD) : (Gen.V1 m ρ c main_v23 : S50000x1.Idx → EReal)
    = broadcastInDim S50000x1 ![0] Gen.bcast_S50000_S50000x1_0
        (Host.scatterAdd scatter_S50000_S1600000x1_S1600000_n_0_0_1
          (broadcastInDim S50000 ![] Gen.bcast_S_S50000 (constant (F := Ideal) S_ .f32 0x00000000#32)) (dstT m c)
          (shapeCast S1600000 (m ((c : Thread nD τ).loc main_arg2)) Gen.shapeCasts_S1600000x1_S1600000)) := by
  dsimp only [Gen.V1, Gen.W1, Gen.hostOps0]
  after_results_simp
  rfl

theorem V1_v24 (c : Dev nD) : (Gen.V1 m ρ c main_v24 : S50000x1.Idx → EReal)
    = broadcastInDim S50000x1 ![0] Gen.bcast_S50000_S50000x1_0 (cntT m c) := by
  dsimp only [Gen.V1, Gen.W1, Gen.hostOps0]
  after_results_simp
  rfl

theorem V1_v13 (c : Dev nD) : (Gen.V1 m ρ c main_v13 : S50000x128.Idx → EReal)
    = Host.scatterAdd scatter_S50000x128_S1600000x1_S1600000x128_1_0_0_1
        (broadcastInDim S50000x128 ![] Gen.bcast_S_S50000x128 (constant (F := Ideal) S_ .f32 0x00000000#32)) (dstT m c) (gxT m c) := by
  dsimp only [Gen.V1, Gen.W1, Gen.hostOps0]
  after_results_simp
  rfl

/-! ## Entry by entry -/

/-- The summed gathered rows. -/
theorem segx_at (c : Dev nD) (n : Fin 50000) (k : Fin 128) :
    (Gen.V1 m ρ c main_v13 : S50000x128.Idx → EReal) (ix2 n k) = Spec.segx (args m c) n k :=
  segx_of m c _ (V1_v13 m ρ c) n k

/-- The summed attributes, column 0 of the table. -/
theorem sega_at (c : Dev nD) (n : Fin 50000) :
    (Gen.V1 m ρ c main_v25 : S50000x2.Idx → EReal) (ix2 n 0) = Spec.sega (args m c) n := by
  refine (congrFun (V1_v25 m ρ c) (ix2 n 0)).trans ?_
  refine (concat_cols _ _ _ n).1.trans ?_
  refine (congrFun (V1_v23 m ρ c) (ix2 n 0)).trans ?_
  refine (column_at _ _ n).trans ?_
  exact sega_of m c _ rfl n

/-- The segment sizes, column 1 of the table. -/
theorem cnt_at (c : Dev nD) (n : Fin 50000) :
    (Gen.V1 m ρ c main_v25 : S50000x2.Idx → EReal) (ix2 n 1) = cnt m c n := by
  refine (congrFun (V1_v25 m ρ c) (ix2 n 1)).trans ?_
  refine (concat_cols _ _ _ n).2.trans ?_
  refine (congrFun (V1_v24 m ρ c) (ix2 n 0)).trans ?_
  exact column_at _ _ n

end Cert.KernelIdeal.KerVal0

end
-- ==== Proof.KerVal0Small.lean ====
/-
  What the first launch finds in its small arrays.

  The buffers' contents at the first launch's entry are the host operations before it folded over the launch
  memory. None of those operations writes an argument array, so `x`, the edge weights' row and the three weight
  matrices are found as launched. The one-entry eps array and the four bias rows the launch reads are reshapes of
  argument vectors — a vector of 128 entries laid out as a single row, the one-entry vector as a 1 × 1 table —
  and reading the fold at each of them leaves exactly that reshape of the launch memory's array.
-/
import proofs.«163893_j72421738545669_2_alg».proof.Proof.PatchedFrameKernelIdeal
import Idealize.ShloMosaic.Lib.StableHlo.Run
import Idealize.ShloMosaic.PureOps.Ideal

set_option maxRecDepth 16384

noncomputable section

namespace Cert.KernelIdeal.KerVal0

open Cert.KernelIdeal
open Idealize.ShloMosaic Idealize.ShloMosaic.TcCoe Idealize.ShloMosaic.StableHlo Idealize.SL.Sem

variable (m : (ℓ : Loc nD τ sig) → Buf (Elt Ideal) ℓ) (ρ : Dev nD → PrngReg)

/-! ## Argument arrays: as launched -/

theorem V1_arg0 (c : Dev nD) : Gen.V1 m ρ c main_arg0 = m ((c : Thread nD τ).loc main_arg0) :=
  calc Gen.V1 m ρ c main_arg0
    _ = Gen.W0 m ρ c (Proc.devRef .tc main_arg0) := StableHlo.after_of_forall_not_mem (b := Proc.devRef .tc main_arg0) _ _ (List.forall_iff_forall_mem.mp (by
          simp only [Gen.hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg0) := rfl

theorem V1_arg3 (c : Dev nD) : Gen.V1 m ρ c main_arg3 = m ((c : Thread nD τ).loc main_arg3) :=
  calc Gen.V1 m ρ c main_arg3
    _ = Gen.W0 m ρ c (Proc.devRef .tc main_arg3) := StableHlo.after_of_forall_not_mem (b := Proc.devRef .tc main_arg3) _ _ (List.forall_iff_forall_mem.mp (by
          simp only [Gen.hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg3) := rfl

theorem V1_arg5 (c : Dev nD) : Gen.V1 m ρ c main_arg5 = m ((c : Thread nD τ).loc main_arg5) :=
  calc Gen.V1 m ρ c main_arg5
    _ = Gen.W0 m ρ c (Proc.devRef .tc main_arg5) := StableHlo.after_of_forall_not_mem (b := Proc.devRef .tc main_arg5) _ _ (List.forall_iff_forall_mem.mp (by
          simp only [Gen.hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg5) := rfl

theorem V1_arg7 (c : Dev nD) : Gen.V1 m ρ c main_arg7 = m ((c : Thread nD τ).loc main_arg7) :=
  calc Gen.V1 m ρ c main_arg7
    _ = Gen.W0 m ρ c (Proc.devRef .tc main_arg7) := StableHlo.after_of_forall_not_mem (b := Proc.devRef .tc main_arg7) _ _ (List.forall_iff_forall_mem.mp (by
          simp only [Gen.hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg7) := rfl

theorem V1_arg9 (c : Dev nD) : Gen.V1 m ρ c main_arg9 = m ((c : Thread nD τ).loc main_arg9) :=
  calc Gen.V1 m ρ c main_arg9
    _ = Gen.W0 m ρ c (Proc.devRef .tc main_arg9) := StableHlo.after_of_forall_not_mem (b := Proc.devRef .tc main_arg9) _ _ (List.forall_iff_forall_mem.mp (by
          simp only [Gen.hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg9) := rfl

/-! ## Reshaped argument vectors -/

/-- The one-entry eps array as a 1 × 1 table. -/
theorem V1_v26 (c : Dev nD) :
    (Gen.V1 m ρ c main_v26 : S1x1.Idx → EReal) = shapeCast S1x1 (m ((c : Thread nD τ).loc main_arg11)) Gen.shapeCasts_S1_S1x1 := by
  dsimp only [Gen.V1, Gen.W1, Gen.hostOps0]
  after_results_simp
  rfl

/-- The edge bias vector as a single row. -/
theorem V1_v27 (c : Dev nD) :
    (Gen.V1 m ρ c main_v27 : S1x128.Idx → EReal) = shapeCast S1x128 (m ((c : Thread nD τ).loc main_arg4)) Gen.shapeCasts_S128_S1x128 := by
  dsimp only [Gen.V1, Gen.W1, Gen.hostOps0]
  after_results_simp
  rfl

/-- The first bias vector as a single row. -/
theorem V1_v28 (c : Dev nD) :
    (Gen.V1 m ρ c main_v28 : S1x128.Idx → EReal) = shapeCast S1x128 (m ((c : Thread nD τ).loc main_arg6)) Gen.shapeCasts_S128_S1x128 := by
  dsimp only [Gen.V1, Gen.W1, Gen.hostOps0]
  after_results_simp
  rfl

/-- The second bias vector as a single row. -/
theorem V1_v29 (c : Dev nD) :
    (Gen.V1 m ρ c main_v29 : S1x128.Idx → EReal) = shapeCast S1x128 (m ((c : Thread nD τ).loc main_arg8)) Gen.shapeCasts_S128_S1x128 := by
  dsimp only [Gen.V1, Gen.W1, Gen.hostOps0]
  after_results_simp
  rfl

/-- The residual bias vector as a single row. -/
theorem V1_v30 (c : Dev nD) :
    (Gen.V1 m ρ c main_v30 : S1x128.Idx → EReal) = shapeCast S1x128 (m ((c : Thread nD τ).loc main_arg10)) Gen.shapeCasts_S128_S1x128 := by
  dsimp only [Gen.V1, Gen.W1, Gen.hostOps0]
  after_results_simp
  rfl

end Cert.KernelIdeal.KerVal0

end
-- ==== Proof.KerVal0Blocks.lean ====
/-
  The first launch, from blocks to the whole arrays.

  The launch runs the body at 25 grid points. At point t the three tables cut in blocks of 2000 rows are at block
  (t, 0) — rows 2000·t … 2000·t + 1999 — and the nine parameter arrays are whole; the body stores a 2000-row block
  of the pre-normalisation table and an 8 × 128 block of statistics, written back to block (t, 0) of the table and
  to slab (t, ·, ·) of the statistics array. If at every point the twelve blocks read hold what the specification
  names (`Blocks`), then what point t writes back is block t of the specification's table, and slab t of its
  statistics. The 25 blocks tile the 50000 rows (row n lies in block n / 2000) and the 25 slabs tile the
  statistics array (slab t is the indices whose first coordinate is t), so after the write-backs the two arrays ARE
  the specification's table and statistics.

  Everything is stated at a parameter `V`, the buffers' contents when the launch is entered.
-/
import proofs.«163893_j72421738545669_2_alg».proof.Proof.PatchedFrameKernelIdeal
import proofs.«163893_j72421738545669_2_alg».proof.Proof.KerVal0Pay
import Idealize.ShloMosaic.Lib.Pipeline.Value

set_option maxRecDepth 16384

noncomputable section

namespace Cert.KernelIdeal.KerVal0

open Cert.KernelIdeal Cert.KernelIdeal.Gen
open Idealize.ShloMosaic Idealize.ShloMosaic.TcCoe Idealize.ShloMosaic.ValueIdx Idealize.SL.Sem
open Idealize.ShloMosaic.Pipeline (Dat)

/-- A grid point of the first launch as a block number. -/
def blk (t : Fin cfg0.N) : Fin 25 := ⟨t.val, Nat.lt_of_lt_of_eq t.isLt N_0⟩

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the 25 grid points: the table's output block at point t is (t, 0), the statistics'
    output slab is (t, 0, 0). -/
theorem idx_facts : ∀ t : Fin cfg0.N, win0_12.index t (0 : Fin 2) = t.val ∧ win0_12.index t (1 : Fin 2) = 0
    ∧ win0_13.index t (0 : Fin 3) = t.val ∧ win0_13.index t (1 : Fin 3) = 0 ∧ win0_13.index t (2 : Fin 3) = 0 :=
  (by decide +kernel : ∀ t : Fin grid0.N, _)

/-! ## One entry of one block -/

/-- If the twelve blocks hold what the specification names for block `tb`, and the table's index i is row
    2000·tb + (j 0), column (j 1), the stored table entry j is the specification's table at i. -/
theorem point12 (A : Cert.Spec.Args) (cnt : Fin 50000 → EReal) (tb : Fin 25) (x0 x1 : Vec Ideal S2000x128 .f32) (x2 : Vec Ideal S2000x2 .f32) (x3 : Vec Ideal S1x1 .f32) (x4 x5 : Vec Ideal S1x128 .f32)
    (x6 : Vec Ideal S128x128 .f32) (x7 : Vec Ideal S1x128 .f32) (x8 : Vec Ideal S128x128 .f32) (x9 : Vec Ideal S1x128 .f32)
    (x10 : Vec Ideal S128x128 .f32) (x11 : Vec Ideal S1x128 .f32)
    (B : Blocks A cnt tb x0 x1 x2 x3 x4 x5 x6 x7 x8 x9 x10 x11) (j : S2000x128.Idx) (i : S50000x128.Idx)
    (h0 : (i 0).val = 2000 * tb.val + (j 0).val) (h1 : (i 1).val = (j 1).val) :
    k0_pay2 (F := Ideal) x0 (k0_pay1 (F := Ideal) x0 x1 x2 x4 x5 x3 x6 x7) x8 x9 x10 x11 j = Cert.Spec.preK A cnt (i 0) (i 1) := by
  obtain ⟨r, k, rfl⟩ : ∃ (r : Fin 2000) (k : Fin 128), j = ix2 r k := ⟨j 0, j 1, eq_ix2 j⟩
  rw [pre_of_blocks B r k]
  have e0 : (i 0 : Fin 50000) = Cert.Spec.row tb r := Fin.ext h0
  have e1 : (i 1 : Fin 128) = k := Fin.ext h1
  rw [e0, e1]

/-- Likewise the stored statistics entry j is the specification's statistics at slab tb, row (j 1), column (j 2). -/
theorem point13 (A : Cert.Spec.Args) (cnt : Fin 50000 → EReal) (tb : Fin 25) (x0 x1 : Vec Ideal S2000x128 .f32) (x2 : Vec Ideal S2000x2 .f32) (x3 : Vec Ideal S1x1 .f32) (x4 x5 : Vec Ideal S1x128 .f32)
    (x6 : Vec Ideal S128x128 .f32) (x7 : Vec Ideal S1x128 .f32) (x8 : Vec Ideal S128x128 .f32) (x9 : Vec Ideal S1x128 .f32)
    (x10 : Vec Ideal S128x128 .f32) (x11 : Vec Ideal S1x128 .f32)
    (B : Blocks A cnt tb x0 x1 x2 x3 x4 x5 x6 x7 x8 x9 x10 x11) (j : S1x8x128.Idx) (i : S25x8x128.Idx)
    (h0 : (i 0).val = tb.val) (h1 : (i 1).val = (j 1).val) (h2 : (i 2).val = (j 2).val) :
    k0_pay3 (F := Ideal) x0 (k0_pay1 (F := Ideal) x0 x1 x2 x4 x5 x3 x6 x7) x8 x9 x10 x11 j
      = Cert.Spec.stats (Cert.Spec.preK A cnt) (i 0) (i 1) (i 2) := by
  obtain ⟨z, r, k, rfl⟩ : ∃ (z : Fin 1) (r : Fin 8) (k : Fin 128), j = ix3 z r k := ⟨j 0, j 1, j 2, eq_ix3 j⟩
  obtain rfl : z = 0 := Subsingleton.elim _ _
  rw [stats_of_blocks B r k]
  have e0 : (i 0 : Fin 25) = tb := Fin.ext h0
  have e1 : (i 1 : Fin 8) = r := Fin.ext h1
  have e2 : (i 2 : Fin 128) = k := Fin.ext h2
  rw [e0, e1, e2]

variable (V : (c : Dev nD) → (b : Ref sig .tc) → Buf (Elt Ideal) ((c : Thread nD τ).loc b))

/-! ## The table (output window 12) -/

/-- WHAT POINT t WRITES BACK to the table is block t of the specification's table. -/
theorem flushed12_eq (c : Dev nD) (A : Cert.Spec.Args) (cnt : Fin 50000 → EReal)
    (hB : ∀ t : Fin cfg0.N, Blocks A cnt (blk t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)) (t : Fin cfg0.N) :
    (dat0 V c).flushed 12 t = ((cfg0.win 12).blk t).view.read (Elt Ideal) (fun i => Cert.Spec.preK A cnt (i 0) (i 1)) := by
  show (cfg0.win 12).cut (grid0.coords t) ((dat0 V c).after 12 t) = _
  rw [after0_12]
  unfold out0_12
  rw [View.canon_unit_zero hz2]
  simp only [View.ld_unit_zero (S := S2000x128) hz2, View.ld_unit_zero (S := S2000x2) hz2, View.ld_unit_zero (S := S1x128) hz2,
    View.ld_unit_zero (S := S1x1) hz2, View.ld_unit_zero (S := S128x128) hz2]
  obtain ⟨e0, e1, -, -, -⟩ := idx_facts t
  funext j
  refine point12 A cnt (blk t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (hB t) j (((cfg0.win 12).blk t).view.emb j) ?_ ?_
  · show win0_12.index t (0 : Fin 2) * 2000 + 1 * (j 0).val = 2000 * t.val + (j 0).val
    omega
  · show win0_12.index t (1 : Fin 2) * 128 + 1 * (j 1).val = (j 1).val
    omega

/-- An index of the table is in point t's block iff each coordinate is in the block's range on its axis. -/
theorem mem_blk12 (t : Fin cfg0.N) (i : S50000x128.Idx) :
    i ∈ ((cfg0.win 12).blk t).view.set ↔ ∀ a : Fin 2, win0_12.index t a * S2000x128.size a ≤ (i a).val ∧ (i a).val < win0_12.index t a * S2000x128.size a + S2000x128.size a := by
  show i ∈ ((View.whole main_v31_0).slice (win0_12.rect t)).set ↔ _
  rw [View.set_slice_whole, Rect.mem_set_unit]
  exact Iff.rfl

/-- The 25 blocks of 2000 rows tile the 50000 rows: row n is in the block of point n / 2000. -/
theorem cover12 (i : S50000x128.Idx) : ∃ t : Fin cfg0.N, (cfg0.win 12).flush t = true ∧ i ∈ ((cfg0.win 12).blk t).view.set := by
  have hi0 : (i 0).val < 50000 := (i 0).isLt
  have hi1 : (i 1).val < 128 := (i 1).isLt
  have hN : grid0.N = 25 := N_0
  have ht : (i 0).val / 2000 < cfg0.N := by show (i 0).val / 2000 < grid0.N; rw [hN]; omega
  obtain ⟨e0, e1, -, -, -⟩ := idx_facts ⟨(i 0).val / 2000, ht⟩
  refine ⟨⟨(i 0).val / 2000, ht⟩, flush0_12 _, ?_⟩
  rw [mem_blk12]
  intro a
  match a with
  | ⟨0, _⟩ =>
    show win0_12.index ⟨(i 0).val / 2000, ht⟩ (0 : Fin 2) * 2000 ≤ (i 0).val ∧ (i 0).val < win0_12.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_12.index ⟨(i 0).val / 2000, ht⟩ (1 : Fin 2) * 128 ≤ (i 1).val ∧ (i 1).val < win0_12.index ⟨(i 0).val / 2000, ht⟩ (1 : Fin 2) * 128 + 128
    rw [e1]; omega

/-- THE TABLE after the first launch is the specification's table. -/
theorem arr12_of (c : Dev nD) (A : Cert.Spec.Args) (cnt : Fin 50000 → EReal)
    (hB : ∀ t : Fin cfg0.N, Blocks A cnt (blk t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)) :
    (dat0 V c).arrAt 12 cfg0.N = fun i => Cert.Spec.preK A cnt (i 0) (i 1) :=
  (dat0 V c).arrAt_eq_of_cover 12 _ (fun t _ => flushed12_eq V c A cnt hB t) cover12

/-! ## The statistics array (output window 13) -/

/-- WHAT POINT t WRITES BACK to the statistics array is slab t of the specification's statistics. -/
theorem flushed13_eq (c : Dev nD) (A : Cert.Spec.Args) (cnt : Fin 50000 → EReal)
    (hB : ∀ t : Fin cfg0.N, Blocks A cnt (blk t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)) (t : Fin cfg0.N) :
    (dat0 V c).flushed 13 t
      = ((cfg0.win 13).blk t).view.read (Elt Ideal) (fun i => Cert.Spec.stats (Cert.Spec.preK A cnt) (i 0) (i 1) (i 2)) := by
  show (cfg0.win 13).cut (grid0.coords t) ((dat0 V c).after 13 t) = _
  rw [after0_13]
  unfold out0_13
  rw [View.canon_unit_zero hz3]
  simp only [View.ld_unit_zero (S := S2000x128) hz2, View.ld_unit_zero (S := S2000x2) hz2, View.ld_unit_zero (S := S1x128) hz2,
    View.ld_unit_zero (S := S1x1) hz2, View.ld_unit_zero (S := S128x128) hz2]
  obtain ⟨-, -, e2, e3, e4⟩ := idx_facts t
  funext j
  refine point13 A cnt (blk t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (hB t) j (((cfg0.win 13).blk t).view.emb j) ?_ ?_ ?_
  · show win0_13.index t (0 : Fin 3) * 1 + 1 * (j 0).val = t.val
    have hj : (j 0).val < 1 := (j 0).isLt
    omega
  · show win0_13.index t (1 : Fin 3) * 8 + 1 * (j 1).val = (j 1).val
    omega
  · show win0_13.index t (2 : Fin 3) * 128 + 1 * (j 2).val = (j 2).val
    omega

/-- An index of the statistics array is in point t's slab iff each coordinate is in the slab's range on its axis. -/
theorem mem_blk13 (t : Fin cfg0.N) (i : S25x8x128.Idx) :
    i ∈ ((cfg0.win 13).blk t).view.set ↔ ∀ a : Fin 3, win0_13.index t a * S1x8x128.size a ≤ (i a).val ∧ (i a).val < win0_13.index t a * S1x8x128.size a + S1x8x128.size a := by
  show i ∈ ((View.whole main_v31_1).slice (win0_13.rect t)).set ↔ _
  rw [View.set_slice_whole, Rect.mem_set_unit]
  exact Iff.rfl

/-- The 25 slabs tile the statistics array: an index is in the slab of the point its first coordinate names. -/
theorem cover13 (i : S25x8x128.Idx) : ∃ t : Fin cfg0.N, (cfg0.win 13).flush t = true ∧ i ∈ ((cfg0.win 13).blk t).view.set := by
  have hi0 : (i 0).val < 25 := (i 0).isLt
  have hi1 : (i 1).val < 8 := (i 1).isLt
  have hi2 : (i 2).val < 128 := (i 2).isLt
  have hN : grid0.N = 25 := N_0
  have ht : (i 0).val < cfg0.N := by show (i 0).val < grid0.N; rw [hN]; exact hi0
  obtain ⟨-, -, e2, e3, e4⟩ := idx_facts ⟨(i 0).val, ht⟩
  refine ⟨⟨(i 0).val, ht⟩, flush0_13 _, ?_⟩
  rw [mem_blk13]
  intro a
  match a with
  | ⟨0, _⟩ =>
    show win0_13.index ⟨(i 0).val, ht⟩ (0 : Fin 3) * 1 ≤ (i 0).val ∧ (i 0).val < win0_13.index ⟨(i 0).val, ht⟩ (0 : Fin 3) * 1 + 1
    rw [e2]; show (i 0).val * 1 ≤ (i 0).val ∧ (i 0).val < (i 0).val * 1 + 1; omega
  | ⟨1, _⟩ =>
    show win0_13.index ⟨(i 0).val, ht⟩ (1 : Fin 3) * 8 ≤ (i 1).val ∧ (i 1).val < win0_13.index ⟨(i 0).val, ht⟩ (1 : Fin 3) * 8 + 8
    rw [e3]; omega
  | ⟨2, _⟩ =>
    show win0_13.index ⟨(i 0).val, ht⟩ (2 : Fin 3) * 128 ≤ (i 2).val ∧ (i 2).val < win0_13.index ⟨(i 0).val, ht⟩ (2 : Fin 3) * 128 + 128
    rw [e4]; omega

/-- THE STATISTICS ARRAY after the first launch is the specification's statistics of its table. -/
theorem arr13_of (c : Dev nD) (A : Cert.Spec.Args) (cnt : Fin 50000 → EReal)
    (hB : ∀ t : Fin cfg0.N, Blocks A cnt (blk t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)) :
    (dat0 V c).arrAt 13 cfg0.N = fun i => Cert.Spec.stats (Cert.Spec.preK A cnt) (i 0) (i 1) (i 2) :=
  (dat0 V c).arrAt_eq_of_cover 13 _ (fun t _ => flushed13_eq V c A cnt hB t) cover13

end Cert.KernelIdeal.KerVal0

end
-- ==== Proof.KerVal0Reads.lean ====
/-
  A grid point's input blocks, entry by entry.

  The first kernel's grid has 25 points. Point `t` reads, of each of the three row-blocked arrays (`x`, the summed gathered
  rows, the [·, 2] table of summed attributes and segment sizes), the block of rows `2000 t … 2000 t + 1999`, and reads each
  of the nine parameter arrays whole: a parameter array is its own single block at every point. A block's entry `(j, k)` is
  the array's entry at `(block index · block size + j, k)` on each axis, and the index maps, decided over the 25 points,
  give the block index `t` on the row axis of the blocked arrays and `0` everywhere else.
-/
import proofs.«163893_j72421738545669_2_alg».proof.Proof.PatchedFrameKernelIdeal
import proofs.«163893_j72421738545669_2_alg».proof.Proof.KerVal0Blocks
import proofs.«163893_j72421738545669_2_alg».proof.Proof.Spec
import Idealize.ShloMosaic.Lib.ValueIdx
import Idealize.ShloMosaic.Lib.Pipeline.Value

noncomputable section

open scoped BigOperators
open Idealize.ShloMosaic Idealize.ShloMosaic.ValueIdx Idealize.ShloMosaic.TcCoe
open Idealize.SL.Sem

namespace Cert.KernelIdeal.KerVal0

open Cert.KernelIdeal
/-- The printed index maps over the 25 grid points: the three row-blocked inputs and the two outputs move with the
    point along the rows, the parameter arrays stay whole. -/
theorem in_idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = t.val ∧ win0_12.index t (1 : Fin 2) = 0
    ∧ win0_13.index t (0 : Fin 3) = t.val ∧ win0_13.index t (1 : Fin 3) = 0 ∧ win0_13.index t (2 : Fin 3) = 0 :=
  (by decide +kernel : ∀ t : Fin grid0.N, _)

variable {F : FTy → Type} [FloatOps F]
variable (V : (c : Dev nD) → (b : Ref sig .tc) → Buf (Elt F) ((c : Thread nD τ).loc b))

/-! ## A grid point's input blocks, entry by entry: block `t` of a row-blocked array starts at row `2000 t`; a parameter
    array is its own one block -/

theorem blk0_at (c : Dev nD) (t : Fin cfg0.N) (j : Fin 2000) (k : Fin 128) :
    Gen.iblk0 V c 0 t (ix2 j k) = V c main_arg0 (ix2 (Spec.row (blk t) j) k) := by
  unfold Gen.iblk0
  rw [View.read_apply]
  show V c main_arg0 (((cfg0.win 0).blk t).view.emb (ix2 j k)) = _
  refine congrArg (V c main_arg0) (funext fun a => Fin.ext ?_)
  obtain ⟨e0, e1, -⟩ := in_idx_facts t
  match a with
  | ⟨0, _⟩ => show win0_0.index t (0 : Fin 2) * 2000 + 1 * j.val = 2000 * t.val + j.val; rw [e0]; omega
  | ⟨1, _⟩ => show win0_0.index t (1 : Fin 2) * 128 + 1 * k.val = k.val; rw [e1]; omega

theorem blk1_at (c : Dev nD) (t : Fin cfg0.N) (j : Fin 2000) (k : Fin 128) :
    Gen.iblk0 V c 1 t (ix2 j k) = V c main_v13 (ix2 (Spec.row (blk t) j) k) := by
  unfold Gen.iblk0
  rw [View.read_apply]
  show V c main_v13 (((cfg0.win 1).blk t).view.emb (ix2 j k)) = _
  refine congrArg (V c main_v13) (funext fun a => Fin.ext ?_)
  obtain ⟨-, -, e0, e1, -⟩ := in_idx_facts t
  match a with
  | ⟨0, _⟩ => show win0_1.index t (0 : Fin 2) * 2000 + 1 * j.val = 2000 * t.val + j.val; rw [e0]; omega
  | ⟨1, _⟩ => show win0_1.index t (1 : Fin 2) * 128 + 1 * k.val = k.val; rw [e1]; omega

theorem blk2_at (c : Dev nD) (t : Fin cfg0.N) (j : Fin 2000) (k : Fin 2) :
    Gen.iblk0 V c 2 t (ix2 j k) = V c main_v25 (ix2 (Spec.row (blk t) j) k) := by
  unfold Gen.iblk0
  rw [View.read_apply]
  show V c main_v25 (((cfg0.win 2).blk t).view.emb (ix2 j k)) = _
  refine congrArg (V c main_v25) (funext fun a => Fin.ext ?_)
  obtain ⟨-, -, -, -, e0, e1, -⟩ := in_idx_facts t
  match a with
  | ⟨0, _⟩ => show win0_2.index t (0 : Fin 2) * 2000 + 1 * j.val = 2000 * t.val + j.val; rw [e0]; omega
  | ⟨1, _⟩ => show win0_2.index t (1 : Fin 2) * 2 + 1 * k.val = k.val; rw [e1]; omega

theorem blk3_at (c : Dev nD) (t : Fin cfg0.N) (a : Fin 1) (b : Fin 1) :
    Gen.iblk0 V c 3 t (ix2 a b) = V c main_v26 (ix2 a b) := by
  unfold Gen.iblk0
  rw [View.read_apply]
  show V c main_v26 (((cfg0.win 3).blk t).view.emb (ix2 a b)) = _
  refine congrArg (V c main_v26) (funext fun x => Fin.ext ?_)
  obtain ⟨-, -, -, -, -, -, e0, e1, -⟩ := in_idx_facts t
  match x with
  | ⟨0, _⟩ => show win0_3.index t (0 : Fin 2) * 1 + 1 * a.val = a.val; rw [e0]; omega
  | ⟨1, _⟩ => show win0_3.index t (1 : Fin 2) * 1 + 1 * b.val = b.val; rw [e1]; omega

theorem blk4_at (c : Dev nD) (t : Fin cfg0.N) (a : Fin 1) (b : Fin 128) :
    Gen.iblk0 V c 4 t (ix2 a b) = V c main_arg3 (ix2 a b) := by
  unfold Gen.iblk0
  rw [View.read_apply]
  show V c main_arg3 (((cfg0.win 4).blk t).view.emb (ix2 a b)) = _
  refine congrArg (V c main_arg3) (funext fun x => Fin.ext ?_)
  obtain ⟨-, -, -, -, -, -, -, -, e0, e1, -⟩ := in_idx_facts t
  match x with
  | ⟨0, _⟩ => show win0_4.index t (0 : Fin 2) * 1 + 1 * a.val = a.val; rw [e0]; omega
  | ⟨1, _⟩ => show win0_4.index t (1 : Fin 2) * 128 + 1 * b.val = b.val; rw [e1]; omega

theorem blk5_at (c : Dev nD) (t : Fin cfg0.N) (a : Fin 1) (b : Fin 128) :
    Gen.iblk0 V c 5 t (ix2 a b) = V c main_v27 (ix2 a b) := by
  unfold Gen.iblk0
  rw [View.read_apply]
  show V c main_v27 (((cfg0.win 5).blk t).view.emb (ix2 a b)) = _
  refine congrArg (V c main_v27) (funext fun x => Fin.ext ?_)
  obtain ⟨-, -, -, -, -, -, -, -, -, -, e0, e1, -⟩ := in_idx_facts t
  match x with
  | ⟨0, _⟩ => show win0_5.index t (0 : Fin 2) * 1 + 1 * a.val = a.val; rw [e0]; omega
  | ⟨1, _⟩ => show win0_5.index t (1 : Fin 2) * 128 + 1 * b.val = b.val; rw [e1]; omega

theorem blk6_at (c : Dev nD) (t : Fin cfg0.N) (a : Fin 128) (b : Fin 128) :
    Gen.iblk0 V c 6 t (ix2 a b) = V c main_arg5 (ix2 a b) := by
  unfold Gen.iblk0
  rw [View.read_apply]
  show V c main_arg5 (((cfg0.win 6).blk t).view.emb (ix2 a b)) = _
  refine congrArg (V c main_arg5) (funext fun x => Fin.ext ?_)
  obtain ⟨-, -, -, -, -, -, -, -, -, -, -, -, e0, e1, -⟩ := in_idx_facts t
  match x with
  | ⟨0, _⟩ => show win0_6.index t (0 : Fin 2) * 128 + 1 * a.val = a.val; rw [e0]; omega
  | ⟨1, _⟩ => show win0_6.index t (1 : Fin 2) * 128 + 1 * b.val = b.val; rw [e1]; omega

theorem blk7_at (c : Dev nD) (t : Fin cfg0.N) (a : Fin 1) (b : Fin 128) :
    Gen.iblk0 V c 7 t (ix2 a b) = V c main_v28 (ix2 a b) := by
  unfold Gen.iblk0
  rw [View.read_apply]
  show V c main_v28 (((cfg0.win 7).blk t).view.emb (ix2 a b)) = _
  refine congrArg (V c main_v28) (funext fun x => Fin.ext ?_)
  obtain ⟨-, -, -, -, -, -, -, -, -, -, -, -, -, -, e0, e1, -⟩ := in_idx_facts t
  match x with
  | ⟨0, _⟩ => show win0_7.index t (0 : Fin 2) * 1 + 1 * a.val = a.val; rw [e0]; omega
  | ⟨1, _⟩ => show win0_7.index t (1 : Fin 2) * 128 + 1 * b.val = b.val; rw [e1]; omega

theorem blk8_at (c : Dev nD) (t : Fin cfg0.N) (a : Fin 128) (b : Fin 128) :
    Gen.iblk0 V c 8 t (ix2 a b) = V c main_arg7 (ix2 a b) := by
  unfold Gen.iblk0
  rw [View.read_apply]
  show V c main_arg7 (((cfg0.win 8).blk t).view.emb (ix2 a b)) = _
  refine congrArg (V c main_arg7) (funext fun x => Fin.ext ?_)
  obtain ⟨-, -, -, -, -, -, -, -, -, -, -, -, -, -, -, -, e0, e1, -⟩ := in_idx_facts t
  match x with
  | ⟨0, _⟩ => show win0_8.index t (0 : Fin 2) * 128 + 1 * a.val = a.val; rw [e0]; omega
  | ⟨1, _⟩ => show win0_8.index t (1 : Fin 2) * 128 + 1 * b.val = b.val; rw [e1]; omega

theorem blk9_at (c : Dev nD) (t : Fin cfg0.N) (a : Fin 1) (b : Fin 128) :
    Gen.iblk0 V c 9 t (ix2 a b) = V c main_v29 (ix2 a b) := by
  unfold Gen.iblk0
  rw [View.read_apply]
  show V c main_v29 (((cfg0.win 9).blk t).view.emb (ix2 a b)) = _
  refine congrArg (V c main_v29) (funext fun x => Fin.ext ?_)
  obtain ⟨-, -, -, -, -, -, -, -, -, -, -, -, -, -, -, -, -, -, e0, e1, -⟩ := in_idx_facts t
  match x with
  | ⟨0, _⟩ => show win0_9.index t (0 : Fin 2) * 1 + 1 * a.val = a.val; rw [e0]; omega
  | ⟨1, _⟩ => show win0_9.index t (1 : Fin 2) * 128 + 1 * b.val = b.val; rw [e1]; omega

theorem blk10_at (c : Dev nD) (t : Fin cfg0.N) (a : Fin 128) (b : Fin 128) :
    Gen.iblk0 V c 10 t (ix2 a b) = V c main_arg9 (ix2 a b) := by
  unfold Gen.iblk0
  rw [View.read_apply]
  show V c main_arg9 (((cfg0.win 10).blk t).view.emb (ix2 a b)) = _
  refine congrArg (V c main_arg9) (funext fun x => Fin.ext ?_)
  obtain ⟨-, -, -, -, -, -, -, -, -, -, -, -, -, -, -, -, -, -, -, -, e0, e1, -⟩ := in_idx_facts t
  match x with
  | ⟨0, _⟩ => show win0_10.index t (0 : Fin 2) * 128 + 1 * a.val = a.val; rw [e0]; omega
  | ⟨1, _⟩ => show win0_10.index t (1 : Fin 2) * 128 + 1 * b.val = b.val; rw [e1]; omega

theorem blk11_at (c : Dev nD) (t : Fin cfg0.N) (a : Fin 1) (b : Fin 128) :
    Gen.iblk0 V c 11 t (ix2 a b) = V c main_v30 (ix2 a b) := by
  unfold Gen.iblk0
  rw [View.read_apply]
  show V c main_v30 (((cfg0.win 11).blk t).view.emb (ix2 a b)) = _
  refine congrArg (V c main_v30) (funext fun x => Fin.ext ?_)
  obtain ⟨-, -, -, -, -, -, -, -, -, -, -, -, -, -, -, -, -, -, -, -, -, -, e0, e1, -⟩ := in_idx_facts t
  match x with
  | ⟨0, _⟩ => show win0_11.index t (0 : Fin 2) * 1 + 1 * a.val = a.val; rw [e0]; omega
  | ⟨1, _⟩ => show win0_11.index t (1 : Fin 2) * 128 + 1 * b.val = b.val; rw [e1]; omega

end Cert.KernelIdeal.KerVal0

end
-- ==== Proof.KerVal0.lean ====
/-
  What the first kernel leaves in its two output arrays.

  Its table output holds, row by row, the pre-normalisation table of the specification with the kernel's own segment
  sizes; its statistics output holds, block by block, the column sums and column sums of squares of that table.
  Both follow from one fact about every grid point: the twelve blocks the point reads hold the specification's quantities
  for the rows `2000 t … 2000 t + 1999` — a block's entry is the array's entry at the block's rows, and the arrays, as the
  kernel finds them, are the arguments themselves, the arguments laid as rows, or the three segment sums.
-/
import proofs.«163893_j72421738545669_2_alg».proof.Proof.PatchedFrameKernelIdeal
import proofs.«163893_j72421738545669_2_alg».proof.Proof.KerVal0Pay
import proofs.«163893_j72421738545669_2_alg».proof.Proof.KerVal0Args
import proofs.«163893_j72421738545669_2_alg».proof.Proof.KerVal0Host
import proofs.«163893_j72421738545669_2_alg».proof.Proof.KerVal0Small
import proofs.«163893_j72421738545669_2_alg».proof.Proof.KerVal0Reads
import proofs.«163893_j72421738545669_2_alg».proof.Proof.KerVal0Blocks
import proofs.«163893_j72421738545669_2_alg».proof.Proof.Spec

noncomputable section

open scoped BigOperators
open Idealize.ShloMosaic Idealize.ShloMosaic.ValueIdx Idealize.ShloMosaic.TcCoe
open Idealize.SL.Sem

namespace Cert.KernelIdeal.KerVal0

open Cert.KernelIdeal

variable (m : (ℓ : Loc nD τ sig) → Buf (Elt Ideal) ℓ) (ρ : Dev nD → PrngReg)

/-- What the twelve blocks of grid point `t` hold, at the contents the kernel is entered with. -/
theorem blocks_at (c : Dev nD) (t : Fin cfg0.N) :
    Blocks (args m c) (cnt m c) (blk t) (Gen.iblk0 (Gen.V1 m ρ) c 0 t) (Gen.iblk0 (Gen.V1 m ρ) c 1 t) (Gen.iblk0 (Gen.V1 m ρ) c 2 t)
      (Gen.iblk0 (Gen.V1 m ρ) c 3 t) (Gen.iblk0 (Gen.V1 m ρ) c 4 t) (Gen.iblk0 (Gen.V1 m ρ) c 5 t) (Gen.iblk0 (Gen.V1 m ρ) c 6 t)
      (Gen.iblk0 (Gen.V1 m ρ) c 7 t) (Gen.iblk0 (Gen.V1 m ρ) c 8 t) (Gen.iblk0 (Gen.V1 m ρ) c 9 t) (Gen.iblk0 (Gen.V1 m ρ) c 10 t)
      (Gen.iblk0 (Gen.V1 m ρ) c 11 t) where
  x := fun j k => (blk0_at (Gen.V1 m ρ) c t j k).trans (congrFun (V1_arg0 m ρ c) _)
  segx := fun j k => (blk1_at (Gen.V1 m ρ) c t j k).trans (segx_at m ρ c _ k)
  sega := fun j => (blk2_at (Gen.V1 m ρ) c t j 0).trans (sega_at m ρ c _)
  cnt := fun j => (blk2_at (Gen.V1 m ρ) c t j 1).trans (cnt_at m ρ c _)
  eps := (blk3_at (Gen.V1 m ρ) c t 0 0).trans ((congrFun (V1_v26 m ρ c) (ix2 0 0)).trans (one_at _ _))
  ew := fun k => (blk4_at (Gen.V1 m ρ) c t 0 k).trans (congrFun (V1_arg3 m ρ c) _)
  eb := fun k => (blk5_at (Gen.V1 m ρ) c t 0 k).trans ((congrFun (V1_v27 m ρ c) (ix2 0 k)).trans (row_at _ _ k))
  w1 := fun a b => (blk6_at (Gen.V1 m ρ) c t a b).trans (congrFun (V1_arg5 m ρ c) _)
  b1 := fun k => (blk7_at (Gen.V1 m ρ) c t 0 k).trans ((congrFun (V1_v28 m ρ c) (ix2 0 k)).trans (row_at _ _ k))
  w2 := fun a b => (blk8_at (Gen.V1 m ρ) c t a b).trans (congrFun (V1_arg7 m ρ c) _)
  b2 := fun k => (blk9_at (Gen.V1 m ρ) c t 0 k).trans ((congrFun (V1_v29 m ρ c) (ix2 0 k)).trans (row_at _ _ k))
  wr := fun a b => (blk10_at (Gen.V1 m ρ) c t a b).trans (congrFun (V1_arg9 m ρ c) _)
  br := fun k => (blk11_at (Gen.V1 m ρ) c t 0 k).trans ((congrFun (V1_v30 m ρ c) (ix2 0 k)).trans (row_at _ _ k))

/-- The table output: the pre-normalisation table, row by row. -/
theorem arr12 (c : Dev nD) :
    (Gen.dat0 (Gen.V1 m ρ) c).arrAt 12 cfg0.N = fun i => Spec.preK (args m c) (cnt m c) (i 0) (i 1) :=
  arr12_of (Gen.V1 m ρ) c (args m c) (cnt m c) (blocks_at m ρ c)

/-- The statistics output: each block's column sums and column sums of squares. -/
theorem arr13 (c : Dev nD) :
    (Gen.dat0 (Gen.V1 m ρ) c).arrAt 13 cfg0.N = fun i => Spec.stats (Spec.preK (args m c) (cnt m c)) (i 0) (i 1) (i 2) :=
  arr13_of (Gen.V1 m ρ) c (args m c) (cnt m c) (blocks_at m ρ c)

end Cert.KernelIdeal.KerVal0

end
-- ==== Proof.BridgeValue.lean ====
/-
  The kernel's result array. After the run the result buffer holds what the second launch's write-backs leave; that is,
  block by block, the rectified affine image of the table the first launch left, with the scale and the shift the
  host computed from the statistics the first launch left; and the first launch left the pre-normalisation table and
  its block statistics. Put together, entry `(n, c)` of the result is the specification's `kerOut`.
-/
import proofs.«163893_j72421738545669_2_alg».proof.Proof.KerRun
import proofs.«163893_j72421738545669_2_alg».proof.Proof.KerVal1
import proofs.«163893_j72421738545669_2_alg».proof.Proof.KerVal0

noncomputable section

open Idealize.ShloMosaic Idealize.ShloMosaic.TcCoe Idealize.SL.Sem

namespace Cert.Bridge

open Cert.KernelIdeal

theorem ker_value (m : (ℓ : Loc nD τ sig) → Buf (Elt Ideal) ℓ) (ρ : Dev nD → PrngReg) (c : Dev nD) :
    Gen.W4 m ρ c (Proc.devRef .tc main_v52)
      = fun i => Cert.Spec.kerOut (KerVal0.args m c) (KerVal0.cnt m c) (i 0) (i 1) :=
  (KerRun.result_arr m ρ c).trans
    (KerVal1.final m ρ c (KerVal0.args m c) (Cert.Spec.preK (KerVal0.args m c) (KerVal0.cnt m c))
      (KerVal0.arr12 m ρ c) (KerVal0.arr13 m ρ c) (fun _ => rfl) (fun _ => rfl))

end Cert.Bridge

end
-- ==== Proof.MathNorm.lean ====
/-
  The normalisation. For one channel of a finite table `o` over N = 50000 rows, with mean `μ = (∑ o) / N`:
    * the 25 blocks' sums add up to the whole column's sum, so the kernel's mean is the reference's;
    * `(∑ o²) / N - μ² = (∑ (o - μ)²) / N` (expand the square; `∑ o = N μ`), so the two variances agree, and the
      common value is a sum of squares over N: nonnegative, so adding the positive constant gives a positive real
      and its reciprocal square root `r` is a real;
    * `o · (γ r) + (β - μ · (γ r)) = ((o - μ) · r) · γ + β`.
-/
import proofs.«163893_j72421738545669_2_alg».proof.Proof.MathBasics

noncomputable section

open scoped BigOperators
open Idealize.ShloMosaic Cert.Spec

namespace Cert.Math

/-- Row 0 of a block's statistics is its column sum, row 1 its column sum of squares. -/
theorem stats_zero (O : Fin 50000 → Fin 128 → EReal) (t : Fin 25) (c : Fin 128) :
    stats O t 0 c = ∑ j : Fin 2000, O (row t j) c := by
  simp [stats, mask]
theorem stats_one (O : Fin 50000 → Fin 128 → EReal) (t : Fin 25) (c : Fin 128) :
    stats O t 1 c = ∑ j : Fin 2000, O (row t j) c * O (row t j) c := by
  simp [stats, mask]

/-- The kernel's mean is the reference's. -/
theorem meanK_eq (O : Fin 50000 → Fin 128 → EReal) (c : Fin 128) : meanK O c = meanR O c := by
  unfold meanK meanR
  simp only [stats_zero]
  rw [sum_blocks (fun n => O n c)]

/-- The mean of a real column. -/
theorem meanR_real (O : Fin 50000 → Fin 128 → EReal) (o : Fin 50000 → Fin 128 → ℝ) (ho : ∀ n c, O n c = (o n c : EReal)) (c : Fin 128) :
    meanR O c = (((0 + ∑ n : Fin 50000, o n c) / 50000 : ℝ) : EReal) := by
  unfold meanR
  simp only [ho]
  rw [zero_eq, count_eq, ← coe_sum, ← EReal.coe_add, div_real _ _ (by norm_num)]

/-- The kernel's variance of a real column. -/
theorem varK_real (O : Fin 50000 → Fin 128 → EReal) (o : Fin 50000 → Fin 128 → ℝ) (ho : ∀ n c, O n c = (o n c : EReal)) (c : Fin 128) :
    varK O c = (((0 + ∑ n : Fin 50000, o n c * o n c) / 50000
      - ((0 + ∑ n : Fin 50000, o n c) / 50000) * ((0 + ∑ n : Fin 50000, o n c) / 50000) : ℝ) : EReal) := by
  unfold varK
  rw [meanK_eq, meanR_real O o ho]
  simp only [stats_one]
  rw [sum_blocks (fun n => O n c * O n c)]
  simp only [ho, ← EReal.coe_mul]
  rw [zero_eq, count_eq, ← coe_sum, ← EReal.coe_add, div_real _ _ (by norm_num), ← EReal.coe_sub]

/-- The reference's variance of a real column. -/
theorem varR_real (O : Fin 50000 → Fin 128 → EReal) (o : Fin 50000 → Fin 128 → ℝ) (ho : ∀ n c, O n c = (o n c : EReal)) (c : Fin 128) :
    varR O c = (((0 + ∑ n : Fin 50000, (o n c - (0 + ∑ n : Fin 50000, o n c) / 50000) * (o n c - (0 + ∑ n : Fin 50000, o n c) / 50000))
      / (50000 - 0) : ℝ) : EReal) := by
  unfold varR
  rw [meanR_real O o ho]
  simp only [ho, ← EReal.coe_sub, ← EReal.coe_mul]
  rw [zero_eq, count_eq, ddof_eq, ← coe_sum, ← EReal.coe_add, ← EReal.coe_sub, div_real _ _ (by norm_num)]
  have hlt : ((0 : ℝ) : EReal) < (((50000 : ℝ) - 0 : ℝ) : EReal) := EReal.coe_lt_coe_iff.2 (by norm_num)
  simp [Scalar.select, Ideal.cmp, hlt]

/-- Mean square minus squared mean is the mean squared deviation. -/
theorem var_identity (f : Fin 50000 → ℝ) :
    (0 + ∑ n, f n * f n) / 50000 - ((0 + ∑ n, f n) / 50000) * ((0 + ∑ n, f n) / 50000)
      = (0 + ∑ n, (f n - (0 + ∑ n, f n) / 50000) * (f n - (0 + ∑ n, f n) / 50000)) / (50000 - 0) := by
  set s := ∑ n, f n with hs
  have h : ∑ n, (f n - (0 + s) / 50000) * (f n - (0 + s) / 50000)
      = ∑ n, f n * f n - 2 * ((0 + s) / 50000) * s + 50000 * (((0 + s) / 50000) * ((0 + s) / 50000)) := by
    have : ∀ n, (f n - (0 + s) / 50000) * (f n - (0 + s) / 50000)
        = f n * f n - 2 * ((0 + s) / 50000) * f n + ((0 + s) / 50000) * ((0 + s) / 50000) := fun n => by ring
    simp only [this, Finset.sum_add_distrib, Finset.sum_sub_distrib, ← Finset.mul_sum, Finset.sum_const, Finset.card_univ,
      Fintype.card_fin, nsmul_eq_mul]
    rw [← hs]
    push_cast
    ring
  rw [h]
  field_simp
  ring

/-- The mean squared deviation is not negative. -/
theorem var_nonneg (f : Fin 50000 → ℝ) (μ : ℝ) : 0 ≤ (0 + ∑ n, (f n - μ) * (f n - μ)) / (50000 - 0) := by
  refine div_nonneg ?_ (by norm_num)
  rw [zero_add]
  exact Finset.sum_nonneg fun n _ => mul_self_nonneg _

/-- The normalised entries agree. -/
theorem norm_eq (A : Args) (O : Fin 50000 → Fin 128 → EReal) (hO : ∀ n c, IsR (O n c))
    (hg : ∀ c, IsR (A.gamma c)) (hb : ∀ c, IsR (A.beta c)) (n : Fin 50000) (c : Fin 128) :
    max (O n c * scaleK A O c + shiftK A O c) zero
      = max (((O n c - meanR O c) * Ideal.rsqrt (varR O c + bnEps)) * A.gamma c + A.beta c) zero := by
  obtain ⟨o, ho⟩ : ∃ o : Fin 50000 → Fin 128 → ℝ, ∀ n c, O n c = (o n c : EReal) :=
    ⟨fun n c => (hO n c).choose, fun n c => (hO n c).choose_spec⟩
  obtain ⟨g, hg⟩ := hg c
  obtain ⟨b, hb⟩ := hb c
  obtain ⟨e, he, hbe⟩ := bnEps_pos
  have hv : varK O c = varR O c := by
    rw [varK_real O o ho, varR_real O o ho, var_identity (fun n => o n c)]
  unfold shiftK scaleK
  rw [hv, meanK_eq, varR_real O o ho, meanR_real O o ho, hbe, hg, hb, ho n c, ← EReal.coe_add]
  have hpos : 0 < (0 + ∑ n : Fin 50000, (o n c - (0 + ∑ n : Fin 50000, o n c) / 50000) * (o n c - (0 + ∑ n : Fin 50000, o n c) / 50000))
      / (50000 - 0) + e := add_pos_of_nonneg_of_pos (var_nonneg (fun n => o n c) _) he
  rw [Ideal.rsqrt_coe, if_neg (not_lt.2 hpos.le), if_neg (ne_of_gt hpos)]
  simp only [← EReal.coe_mul, ← EReal.coe_add, ← EReal.coe_sub]
  refine congrArg (fun v : ℝ => max (v : EReal) zero) ?_
  ring

end Cert.Math

end
-- ==== Proof.MathMain.lean ====
/-
  The two specifications agree. With every float argument finite and the kernel's count the size of each row's
  segment, the kernel's result table is the reference's: the aggregates agree by linearity of the segment sum, so the
  tables before normalisation are one finite table, and on a finite table the two normalisations agree.
-/
import proofs.«163893_j72421738545669_2_alg».proof.Proof.MathAggr
import proofs.«163893_j72421738545669_2_alg».proof.Proof.MathNorm

noncomputable section

open Idealize.ShloMosaic Cert.Spec

namespace Cert.Math

theorem kerOut_eq_refOut (A : Args) (hF : Finite A) (cnt : Fin 50000 → EReal)
    (hcnt : ∀ n, cnt n = (((seg A.dst n).card : ℝ) : EReal)) : kerOut A cnt = refOut A := by
  funext n c
  unfold kerOut refOut
  rw [pre_eq A hF cnt hcnt]
  exact norm_eq A (preR A) (isR_preR A hF) hF.gamma hF.beta n c

end Cert.Math

end
-- ==== Proof.lean ====
/-
  The certificate's claims, assembled.

  The kernel: two launches among host operations. The host gathers the source rows, sums them, the edge attributes and
  the word 1 over each destination row's segment, and the first launch forms, in blocks of 2000 rows, the aggregate
  `(∑ gathered + (∑ attribute) · w + count · b) / max count 1`, the node update, and each block's column sums and sums
  of squares; the host adds the 25 blocks' sums into a mean and a variance `E[o²] - E[o]²` and folds them into a scale
  and a shift; the second launch applies them, in blocks of 5000 rows, and rectifies.
  The reference: the messages `gathered + (attribute · w + b)` summed over each segment and divided by the segment's
  size, the same node update, and a normalisation by the mean and the centred second moment over all rows.

  At the ideal values, on finite arguments, the two agree entry by entry: the segment sum is linear (Proof/MathAggr),
  `E[o²] - E[o]² = E[(o - E o)²]` and the scale and shift fold (Proof/MathNorm); the precondition gives finiteness
  (Proof/PreFinite); the segment sums are what the host scatters compute (Proof/LibSegment). What each program's result
  buffer holds is read off its run (the kernel: Proof/KerRun, KerVal0*, KerMid*, KerVal1*; the reference: Proof/Ref*).
  The ideal pass rewrote nothing, so `preserves` has nothing to state. The two kernels' frames are the generated ones.
-/
import proofs.«163893_j72421738545669_2_alg».proof.Defs
import proofs.«163893_j72421738545669_2_alg».proof.Proof.Gen.Kernel
import proofs.«163893_j72421738545669_2_alg».proof.Proof.Gen.KernelIdeal
import proofs.«163893_j72421738545669_2_alg».proof.Proof.Gen.ReferenceIdeal
import proofs.«163893_j72421738545669_2_alg».proof.Proof.Gen.Pre_finite_inputs
import proofs.«163893_j72421738545669_2_alg».proof.Proof.PatchedFrameKernel
import proofs.«163893_j72421738545669_2_alg».proof.Proof.PatchedFrameKernelIdeal
import proofs.«163893_j72421738545669_2_alg».proof.Proof.BridgeArgs
import proofs.«163893_j72421738545669_2_alg».proof.Proof.BridgeValue
import proofs.«163893_j72421738545669_2_alg».proof.Proof.MathMain
import Idealize.ShloMosaic.Adequacy
import Idealize.ShloMosaic.Init

noncomputable section

namespace Cert.Proof

open Idealize.ShloMosaic Idealize.SL.Sem

theorem frame_Kernel : Cert.frame_Kernel := fun m ρ _ => Cert.Kernel.Gen.frame m ρ

theorem frame_KernelIdeal : Cert.frame_KernelIdeal := fun m ρ _ => Cert.KernelIdeal.Gen.frame m ρ

/-- The reference's frame is its run with the result forgotten. -/
theorem frame_ReferenceIdeal : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- Both programs run, and their result buffers end at the same table: the kernel's at the specification's `kerOut`
    of its arguments, the reference's at `refOut` of its own, which are the kernel's; and `kerOut = refOut` on finite
    arguments when the kernel's count is the segments' sizes. -/
theorem algebraic : Cert.algebraic_KernelIdeal_ReferenceIdeal := by
  intro m ρ m' ρ' hpre hagree
  refine ⟨fun c => fun i => Cert.Spec.kerOut (Cert.KernelIdeal.KerVal0.args m c) (Cert.KernelIdeal.KerVal0.cnt m c) (i 0) (i 1), ?_, ?_⟩
  · exact (θ_run Cert.KernelIdeal.defs _ _).mono
      (fun _ h c => ⟨(h c).1.trans (Cert.Bridge.ker_value m ρ c), (h c).2⟩)
      (Cert.KernelIdeal.KerRun.run_result (F := Ideal) m ρ)
  · refine (θ_run Cert.ReferenceIdeal.defs _ _).mono (fun _ h c => ⟨(h c).1.trans ?_, (h c).2⟩)
      (Cert.ReferenceIdeal.RefValue.run m' ρ')
    rw [Cert.Bridge.args_agree m m' c (hagree c),
      ← Cert.Math.kerOut_eq_refOut _ (Cert.Bridge.finite_args m hpre c) _ (Cert.Bridge.cnt_eq m c)]
    rfl

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
